-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S16384 : Shape := ⟨1, ![16384]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg8
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1000000x64 .f32) (main_arg1 : FVec F S1000000x64 .f32) (main_arg2 : FVec F S1000000x64 .f32) (main_arg3 : IVec S16384 32) (main_arg4 : IVec S16384 32) (main_arg5 : IVec S16384 32) (main_arg6 : FVec F S64x64 .f32) (main_arg7 : FVec F S64 .f32) (main_arg8 : FVec F S64x1 .f32) (main_arg9 : FVec F S1 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S1000000x64 : Shape := ⟨2, ![1000000, 64]⟩
abbrev S16384 : Shape := ⟨1, ![16384]⟩
abbrev S64x64 : Shape := ⟨2, ![64, 64]⟩
abbrev S64 : Shape := ⟨1, ![64]⟩
abbrev S64x1 : Shape := ⟨2, ![64, 1]⟩
abbrev S1 : Shape := ⟨1, ![1]⟩
abbrev S500000x128 : Shape := ⟨2, ![500000, 128]⟩
abbrev S2x1x1 : Shape := ⟨3, ![2, 1, 1]⟩
abbrev S10000x128 : Shape := ⟨2, ![10000, 128]⟩
abbrev S1x1x1 : Shape := ⟨3, ![1, 1, 1]⟩
abbrev S1x1 : Shape := ⟨2, ![1, 1]⟩
abbrev S128 : Shape := ⟨1, ![128]⟩
abbrev S1x128 : Shape := ⟨2, ![1, 128]⟩
abbrev S_ : Shape := ⟨0, ![]⟩
abbrev S500000x64 : Shape := ⟨2, ![500000, 64]⟩
abbrev S16384x1 : Shape := ⟨2, ![16384, 1]⟩
abbrev S16384x64 : Shape := ⟨2, ![16384, 64]⟩
abbrev S1x64 : Shape := ⟨2, ![1, 64]⟩
abbrev S2048x64 : Shape := ⟨2, ![2048, 64]⟩
abbrev S2048x1 : Shape := ⟨2, ![2048, 1]⟩

abbrev nBuf : Space → Nat
  | .hbm => 57
  | .vmem => 19
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x64, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S500000x128, .f32⟩
  | .hbm, ⟨11, _⟩ => ⟨S500000x128, .f32⟩
  | .hbm, ⟨12, _⟩ => ⟨S2x1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S500000x64, .f32⟩
  | .hbm, ⟨20, _⟩ => ⟨S500000x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x64, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384x64, .f32⟩
  | .hbm, ⟨48, _⟩ => ⟨S1x64, .f32⟩
  | .hbm, ⟨49, _⟩ => ⟨S1x1, .f32⟩
  | .hbm, ⟨50, _⟩ => ⟨S1x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S64x64, .f32⟩
  | .local _ .vmem, ⟨14, _⟩ => ⟨S1x64, .f32⟩
  | .local _ .vmem, ⟨15, _⟩ => ⟨S64x1, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v25 : BitVec 1 := Scalar.cmpi .eq arg1 c24_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v57 : BitVec 1 := Scalar.cmpi .eq arg0 c7_i32
  let v58 : BitVec 32 := Scalar.extui v57
  let c0_i32_27 : BitVec 32 := 0#32
  let v59 : BitVec 1 := Scalar.cmpi .ne v58 c0_i32_27
  v59

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S1000000x64_S500000x128 : S1000000x64.ShapeCasts S500000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S128 : S10000x128.Reduces [0] S128
  shapeCasts_S128_S1x128 : S128.ShapeCasts S1x128
  reduces_S1x128_S1 : S1x128.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  slices_S1000000x64_S500000x64_0_0 : S1000000x64.Slices ![0, 0] S500000x64
  slices_S1000000x64_S500000x64_500000_0 : S1000000x64.Slices ![500000, 0] S500000x64
  bcast_S_S16384 : S_.BroadcastsInDim S16384 (![] : Fin 0 → Fin S16384.rank)
  bcast_S16384_S16384x1_0 : S16384.BroadcastsInDim S16384x1 (![0] : Fin 1 → Fin S16384x1.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1_S64x1_0_0 : ∀ a, (![0, 0] : Fin 2 → Nat) a + S64x1.size a ≤ S64x1.size a
  h_S64x1 : 0 < S64x1.numel
  broadcasts_S1x64_S2048x64 : S1x64.Broadcasts S2048x64
  broadcasts_S1x1_S2048x1 : S1x1.Broadcasts S2048x1
  reduces_S2048x1_S1 : S2048x1.Reduces [0] S1
  shapeCasts_S1x1_S_ : S1x1.ShapeCasts S_
  gather_S500000x64_S16384x1_S16384x64_1_0_n_n_0_1_164_wf : GatherDims.WF S500000x64 S16384x1 S16384x64 [1] [0] [] [0] [] 1 ![1, 64]
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)

variable [Facts₀]

def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v14) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S1000000x64 : Shape := ⟨2, ![1000000, 64]⟩
abbrev S16384 : Shape := ⟨1, ![16384]⟩
abbrev S64x64 : Shape := ⟨2, ![64, 64]⟩
abbrev S64 : Shape := ⟨1, ![64]⟩
abbrev S64x1 : Shape := ⟨2, ![64, 1]⟩
abbrev S1 : Shape := ⟨1, ![1]⟩
abbrev S500000x64 : Shape := ⟨2, ![500000, 64]⟩
abbrev S_ : Shape := ⟨0, ![]⟩
abbrev S16384x1 : Shape := ⟨2, ![16384, 1]⟩
abbrev S16384x64 : Shape := ⟨2, ![16384, 64]⟩
abbrev S1x64 : Shape := ⟨2, ![1, 64]⟩
abbrev S1x1 : Shape := ⟨2, ![1, 1]⟩
abbrev S1000000 : Shape := ⟨1, ![1000000]⟩

abbrev nBuf : Space → Nat
  | .hbm => 119
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x64, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S500000x64, .f32⟩
  | .hbm, ⟨11, _⟩ => ⟨S500000x64, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S16384x64, .f32⟩
  | .hbm, ⟨35, _⟩ => ⟨S1x64, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384x64, .f32⟩
  | .hbm, ⟨40, _⟩ => ⟨S16384x64, .f32⟩
  | .hbm, ⟨41, _⟩ => ⟨S16384x1, .f32⟩
  | .hbm, ⟨42, _⟩ => ⟨S1x1, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S16384x1, .f32⟩
  | .hbm, ⟨74, _⟩ => ⟨S1x1, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S1000000x64, .f32⟩
  | .hbm, ⟨92, _⟩ => ⟨S_, .f32⟩
  | .hbm, ⟨93, _⟩ => ⟨S1000000x64, .f32⟩
  | .hbm, ⟨94, _⟩ => ⟨S1000000x64, .f32⟩
  | .hbm, ⟨95, _⟩ => ⟨S_, .f32⟩
  | .hbm, ⟨96, _⟩ => ⟨S1000000x64, .f32⟩
  | .hbm, ⟨97, _⟩ => ⟨S1000000x64, .f32⟩
  | .hbm, ⟨98, _⟩ => ⟨S1000000x64, .f32⟩
  | .hbm, ⟨99, _⟩ => ⟨S1000000x64, .f32⟩
  | .hbm, ⟨100, _⟩ => ⟨S1000000x64, .f32⟩
  | .hbm, ⟨101, _⟩ => ⟨S1000000x64, .f32⟩
  | .hbm, ⟨102, _⟩ => ⟨S_, .f32⟩
  | .hbm, ⟨103, _⟩ => ⟨S1000000, .f32⟩
  | .hbm, ⟨104, _⟩ => ⟨S_, .f32⟩
  | .hbm, ⟨105, _⟩ => ⟨S1000000, .f32⟩
  | .hbm, ⟨106, _⟩ => ⟨S1000000, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_cst : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call2_cst : Ref sig .tc := ⟨.hbm, 63, rfl⟩
abbrev main_call2_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call3_cst : Ref sig .tc := ⟨.hbm, 70, rfl⟩
abbrev main_call3_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩

abbrev nD : Nat := 1
abbrev τ : Topo := Topo.v7x

variable {F : FTy → Type} [FloatOps F]

class Facts₀ : Prop where
  slices_S1000000x64_S500000x64_0_0 : S1000000x64.Slices ![0, 0] S500000x64
  slices_S1000000x64_S500000x64_500000_0 : S1000000x64.Slices ![500000, 0] S500000x64
  bcast_S_S16384 : S_.BroadcastsInDim S16384 (![] : Fin 0 → Fin S16384.rank)
  bcast_S16384_S16384x1_0 : S16384.BroadcastsInDim S16384x1 (![0] : Fin 1 → Fin S16384x1.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S_S1000000 : S_.BroadcastsInDim S1000000 (![] : Fin 0 → Fin S1000000.rank)
  reducesTo_S1000000_S_d0 : S1000000.ReducesTo [0] S_
  reducesTo_S16384x1_S_d0_1 : S16384x1.ReducesTo [0, 1] S_
  gather_S500000x64_S16384x1_S16384x64_1_0_n_n_0_1_164_wf : GatherDims.WF S500000x64 S16384x1 S16384x64 [1] [0] [] [0] [] 1 ![1, 64]
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []

variable [Facts₀]

def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.FrBShared.lean ====
/-
  What the two kernel regions' runs share, at any float instance and at a parameter `V` (the buffer contents a region
  is entered from): each window's block at a grid point; that an input window's staging buffer holds its block at every
  point, fetched there or not; the bodies' two branch conditions decided over the grids (the accumulator is reset at the
  first point of a span and written out at its last); where the output window is idle and not written back; the scratch
  accumulator as a memref; and the region invariant of the class split at that accumulator.
-/
import proofs.«145173_j58841051955354_2_alg».proof.Proof.Gen.Kernel.Launch
import proofs.«145173_j58841051955354_2_alg».proof.Proof.Gen.Kernel.Skeleton
import proofs.«145173_j58841051955354_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0: the body's branch conditions, decided over the grid -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- The accumulator is written out: the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the accumulator is not written out the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## Region 0: the memrefs the body is called with -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The 1×1 accumulator: a whole scoped buffer of the kernel's own. -/
abbrev scM0 : Memref sig .tc .vmem S1x1 .f32 := Memref.whole cc0_scratch0
abbrev VS0 : View sig .tc .vmem S1x1 .f32 := scM0.view
/-- One staging buffer of the output window, through which its contents are stated. -/
abbrev VO0 : View sig .tc .vmem S1x1x1 .f32 := (Memref.whole cc0_stg2_0 : Memref sig .tc .vmem S1x1x1 .f32).view

/-- The scoped buffers that are no staging buffer of region 0, split at the accumulator. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f))
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The other scoped buffers of the core, unopened. -/
abbrev other0 (c : Dev nD) : sProp 𝕄 :=
  Pipeline.scopedRestBut (Ix := Unit) (Name := ℕ) (U := UR sig nD τ) (Lvl := ℕ) (Val := Elt F) spec0 c [cc0_scratch0]

/-- The class's region invariant with the accumulator as a memref owned at some contents. -/
theorem PhiA0_eq (c : Dev nD) :
    (Pipeline.ΦA spec0 c : sProp 𝕄)
      = iprop(iprop((∃ d, owns (c : Thread nD τ) scM0 fullShare d) ∗ other0 (F := F) c) ∗ (∃ r, prngReg c r)) := by
  unfold Pipeline.ΦA; rw [scopedRest0_split]; simp only [scM0, owns_whole]; try rfl

/-! ## Region 1: the body's branch conditions, decided over the grid -/

/-- The accumulator is reset: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The accumulator is written out: the grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Region 1: where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## Region 1: the memrefs the body is called with -/
abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
/-- The 1×1 accumulator: a whole scoped buffer of the kernel's own. -/
abbrev scM1 : Memref sig .tc .vmem S1x1 .f32 := Memref.whole cc1_scratch0
abbrev VS1 : View sig .tc .vmem S1x1 .f32 := scM1.view
/-- The staging buffer of the output window, through which its contents are stated. -/
abbrev VO1 : View sig .tc .vmem S1x1 .f32 := (Memref.whole cc1_stg7_0 : Memref sig .tc .vmem S1x1 .f32).view

/-- The scoped buffers that are no staging buffer of region 1, split at the accumulator. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The other scoped buffers of the core, unopened. -/
abbrev other1 (c : Dev nD) : sProp 𝕄 :=
  Pipeline.scopedRestBut (Ix := Unit) (Name := ℕ) (U := UR sig nD τ) (Lvl := ℕ) (Val := Elt F) spec1 c [cc1_scratch0]

/-- The class's region invariant with the accumulator as a memref owned at some contents. -/
theorem PhiA1_eq (c : Dev nD) :
    (Pipeline.ΦA spec1 c : sProp 𝕄)
      = iprop(iprop((∃ d, owns (c : Thread nD τ) scM1 fullShare d) ∗ other1 (F := F) c) ∗ (∃ r, prngReg c r)) := by
  unfold Pipeline.ΦA; rw [scopedRest1_split]; simp only [scM1, owns_whole]; try rfl

end Cert.Kernel.Fr

end
-- ==== Proof.FrBRun0A.lean ====
/-
  The first kernel's body run on whole staging memrefs at a grid point where the accumulator is reset, then takes the block's contribution, and is not written out.
  The pieces the accumulator (and the output buffer) end with are the run's witness.
-/
import proofs.«145173_j58841051955354_2_alg».proof.Proof.FrBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) :
    Σ' (L2 : List (View.Piece (Elt F) S1x1x1 .f32)), { LS0 : List (View.Piece (Elt F) S1x1 .f32) //
      ∀ (xi2 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kl_kernel i arg2 harg2 arg3 harg3 arg4 harg4 arg5 harg5) K } := by
  refine ⟨[], ?_, fun xi2 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrBRun0B.lean ====
/-
  The first kernel's body run on whole staging memrefs at a grid point where the accumulator, not reset, takes the block's contribution and is not written out.
  The pieces the accumulator (and the output buffer) end with are the run's witness.
-/
import proofs.«145173_j58841051955354_2_alg».proof.Proof.FrBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) :
    Σ' (L2 : List (View.Piece (Elt F) S1x1x1 .f32)), { LS0 : List (View.Piece (Elt F) S1x1 .f32) //
      ∀ (xi2 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kl_kernel i arg2 harg2 arg3 harg3 arg4 harg4 arg5 harg5) K } := by
  refine ⟨[], ?_, fun xi2 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrBRun0C.lean ====
/-
  The first kernel's body run on whole staging memrefs at a grid point where the accumulator, not reset, takes the block's contribution and is written out into the output window's buffer.
  The pieces the accumulator (and the output buffer) end with are the run's witness.
-/
import proofs.«145173_j58841051955354_2_alg».proof.Proof.FrBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) :
    Σ' (L2 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kl_kernel i arg2 harg2 arg3 harg3 arg4 harg4 arg5 harg5) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrBReg0.lean ====
/-
  The first kernel region at a parameter `V` (the buffer contents it is entered from), at any float instance: what each
  case of the body leaves in the 1×1 accumulator and in the output buffer, as the program's payload functions of the
  blocks; the accumulator after each grid point by recursion on the point (reset at the first point of each span of
  twenty-five, the block's contribution added at every point); the proof data (the inputs' buffers at their blocks, the
  output's at the accumulator re-shaped, the invariant holding the accumulator at the point's value); and the body
  obligation at every point.
-/
import proofs.«145173_j58841051955354_2_alg».proof.Proof.FrBRun0A
import proofs.«145173_j58841051955354_2_alg».proof.Proof.FrBRun0B
import proofs.«145173_j58841051955354_2_alg».proof.Proof.FrBRun0C
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-! ## What each case leaves in the accumulator and in the output buffer -/

/-- The accumulator's pieces cover it. -/
theorem scover0_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) (y : S1x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1.size (by sl_kernel_rfl) y

/-- What the case leaves in the accumulator: its pieces read back. -/
def sout0_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) : Vec F S1x1 .f32 :=
  VS0.read (Elt F) (VS0.writes (Elt F) VS0.junk (kernelRun0_A c i arg2 harg2 arg3 harg3 arg4 harg4 arg5 harg5 hc0 hc1 x0 x1).2.1)

/-- Reset, then the block's contribution: the payload of the block over the reset value. -/
theorem sout0_A_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) : sout0_A c i arg2 harg2 arg3 harg3 arg4 harg4 arg5 harg5 hc0 hc1 x0 x1 = k0_pay2 x0 x1 k0_pay1 := by
  unfold sout0_A
  rw [View.read_writes_eq_canon _ _ _ (scover0_A c i arg2 harg2 arg3 harg3 arg4 harg4 arg5 harg5 hc0 hc1 x0 x1)]
  unfold kernelRun0_A
  dsimp only
  rw [View.canon_cons_unit_zero (S := S1x1) hz2]
  sl_unfold_run_names
  rw [View.readCov_unit_zero _ hz2]
  simp only [View.readAt_eq_ld, harg2.read_unread, harg3.read_unread, View.ld_unit_zero (S := S10000x128) hz2]

theorem scover0_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) (y : S1x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x1.size (by sl_kernel_rfl) y

def sout0_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) : Vec F S1x1 .f32 :=
  VS0.read (Elt F) (VS0.writes (Elt F) VS0.junk (kernelRun0_B c i arg2 harg2 arg3 harg3 arg4 harg4 arg5 harg5 hc0 hc1 x0 x1 xs0).2.1)

/-- The block's contribution over what the point before left. -/
theorem sout0_B_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) : sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero (S := S1x1) hz2]
  simp only [View.readAt_eq_ld, harg2.read_unread, harg3.read_unread, harg5.read_unread,
    View.ld_unit_zero (S := S10000x128) hz2, View.ld_unit_zero (S := S1x1) hz2]

theorem scover0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1.size (by sl_kernel_rfl) y

def sout0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : Vec F S1x1 .f32 :=
  VS0.read (Elt F) (VS0.writes (Elt F) VS0.junk (kernelRun0_C c i arg2 harg2 arg3 harg3 arg4 harg4 arg5 harg5 hc0 hc1 x0 x1 xs0).2.1)

theorem cover0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) (y : S1x1x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x1.size (by sl_kernel_rfl) y

/-- What the case leaves in the output window's buffer: its pieces read back. -/
def out0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : Vec F S1x1x1 .f32 :=
  VO0.read (Elt F) (VO0.writes (Elt F) VO0.junk (kernelRun0_C c i arg2 harg2 arg3 harg3 arg4 harg4 arg5 harg5 hc0 hc1 x0 x1 xs0).1)

theorem sout0_C_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_run_names
  rw [View.canon_unit_zero (S := S1x1) hz2]
  simp only [View.readAt_eq_ld, harg2.read_unread, harg3.read_unread, harg5.read_unread,
    View.ld_unit_zero (S := S10000x128) hz2, View.ld_unit_zero (S := S1x1) hz2]

/-- The output buffer takes the accumulator's new contents, re-shaped. -/
theorem out0_C_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : out0_C c i arg2 harg2 arg3 harg3 arg4 harg4 arg5 harg5 hc0 hc1 x0 x1 xs0 = k0_pay3 (k0_pay2 x0 x1 xs0) := by
  unfold out0_C
  rw [View.read_writes_eq_canon _ _ _ (cover0_C c i arg2 harg2 arg3 harg3 arg4 harg4 arg5 harg5 hc0 hc1 x0 x1 xs0)]
  unfold kernelRun0_C
  dsimp only
  rw [View.canon_unit_zero (S := S1x1x1) hz3]
  sl_unfold_run_names
  rw [View.readCov_unit_zero _ hz2]
  simp only [View.readAt_eq_ld, harg2.read_unread, harg3.read_unread, harg5.read_unread,
    View.ld_unit_zero (S := S10000x128) hz2, View.ld_unit_zero (S := S1x1) hz2]

section Region0

variable (V : (c : Dev nD) → (b : Ref sig .tc) → Buf (Elt F) ((c : Thread nD τ).loc b))

/-! ## The accumulator point by point -/

/-- The accumulator after the body at position `n`: over the reset value at the first point of a span, over what the
    point before left otherwise. -/
def scr0 (c : Dev nD) : (n : ℕ) → n < cfg0.N → Vec F S1x1 .f32
  | 0, hn => k0_pay2 (iblk0 V c 0 ⟨0, hn⟩) (iblk0 V c 1 ⟨0, hn⟩) k0_pay1
  | n + 1, hn =>
    if (n + 1) % 25 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (scr0 c n (Nat.lt_of_succ_lt hn))

theorem scr0_reset (c : Dev nD) (t : Fin cfg0.N) (h : t.val % 25 = 0) :
    scr0 V c t.val t.isLt = k0_pay2 (iblk0 V c 0 t) (iblk0 V c 1 t) k0_pay1 := by
  obtain ⟨n, hn⟩ := t
  cases n with
  | zero => rfl
  | succ n => exact if_pos h

theorem scr0_step (c : Dev nD) (t : Fin cfg0.N) (h : ¬t.val % 25 = 0) :
    scr0 V c t.val t.isLt = k0_pay2 (iblk0 V c 0 t) (iblk0 V c 1 t) (scr0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: the class's before the first point; afterwards the accumulator at what the
    point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare (scr0 V c n hn) ∗ other0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (scr0 V c n hn) ∗ other0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (scr0 V c (n - 1) (by omega)) ∗ other0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scr0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scr0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the invariant hands the
    body the accumulator at what the point before left (at anything at the very first point) and takes it back at this
    point's value; the output buffer is handed back untouched where the accumulator is not written out. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have h1 : ¬t.val % 25 = 24 := by omega
    rw [Dat.leavesExact_idle (dat0 V c) 2 t (idleAt0_2 t (fun h => h1 ((hcond0_1 t).mp h))) (noFlush0_2 t (fun h => h1 ((hcond0_1 t).mp h)))]
    rw [scr0_reset V c t h0, ← sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)]
    unfold sout0_A
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2]
      rw [scr0_step V c t h0, ← out0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (scr0 V c (t.val - 1) (Nat.lt_of_le_of_lt (Nat.sub_le _ _) t.isLt)),
        ← sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (scr0 V c (t.val - 1) (Nat.lt_of_le_of_lt (Nat.sub_le _ _) t.isLt))]
      unfold out0_C sout0_C
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (scr0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [scr0_step V c t h0, ← sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (scr0 V c (t.val - 1) (Nat.lt_of_le_of_lt (Nat.sub_le _ _) t.isLt))]
      unfold sout0_B
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (scr0 V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]
    · iexists _; iexact HS0
    iexact Hoth
  iexact Hg

end Region0

end Cert.Kernel.Fr

end
-- ==== Proof.FrBRun1A.lean ====
/-
  The second kernel's body run on whole staging memrefs at a grid point where the accumulator is reset, then takes the block's contribution, and is not written out.
  The pieces the accumulator (and the output buffer) end with are the run's witness.
-/
import proofs.«145173_j58841051955354_2_alg».proof.Proof.FrBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) :
    Σ' (L7 : List (View.Piece (Elt F) S1x1 .f32)), { LS0 : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__decode_kernel i arg1 harg1 arg2 harg2 arg3 harg3 arg4 harg4 arg5 harg5 arg6 harg6 arg7 harg7 arg8 harg8 arg9 harg9) K } := by
  refine ⟨[], ?_, fun xi7 E K => ?run⟩
  case run =>
    simp only [cc1__decode_kernel_eq_skeleton]; unfold cc1__decode_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.Kernel.Fr

end
-- ==== Proof.FrBRun1B.lean ====
/-
  The second kernel's body run on whole staging memrefs at a grid point where the accumulator, not reset, takes the block's contribution and is not written out.
  The pieces the accumulator (and the output buffer) end with are the run's witness.
-/
import proofs.«145173_j58841051955354_2_alg».proof.Proof.FrBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) :
    Σ' (L7 : List (View.Piece (Elt F) S1x1 .f32)), { LS0 : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__decode_kernel i arg1 harg1 arg2 harg2 arg3 harg3 arg4 harg4 arg5 harg5 arg6 harg6 arg7 harg7 arg8 harg8 arg9 harg9) K } := by
  refine ⟨[], ?_, fun xi7 E K => ?run⟩
  case run =>
    simp only [cc1__decode_kernel_eq_skeleton]; unfold cc1__decode_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.Kernel.Fr

end
-- ==== Proof.FrBRun1C.lean ====
/-
  The second kernel's body run on whole staging memrefs at a grid point where the accumulator, not reset, takes the block's contribution and is written out into the output window's buffer.
  The pieces the accumulator (and the output buffer) end with are the run's witness.
-/
import proofs.«145173_j58841051955354_2_alg».proof.Proof.FrBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) :
    Σ' (L7 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__decode_kernel i arg1 harg1 arg2 harg2 arg3 harg3 arg4 harg4 arg5 harg5 arg6 harg6 arg7 harg7 arg8 harg8 arg9 harg9) K } := by
  refine ⟨?_, ?_, fun E K => ?run⟩
  case run =>
    simp only [cc1__decode_kernel_eq_skeleton]; unfold cc1__decode_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel.Fr

end
-- ==== Proof.FrBReg1.lean ====
/-
  The second kernel region at a parameter `V` (the buffer contents it is entered from), at any float instance: what each
  case of the body leaves in the 1×1 accumulator and in the output buffer, as the program's payload functions of the
  blocks; the accumulator after each grid point by recursion on the point (reset at the first point, the block's
  contribution added at every point); the proof data (the inputs' buffers at their blocks, the output's at the
  accumulator, the invariant holding the accumulator at the point's value); and the body obligation at every point.
-/
import proofs.«145173_j58841051955354_2_alg».proof.Proof.FrBRun1A
import proofs.«145173_j58841051955354_2_alg».proof.Proof.FrBRun1B
import proofs.«145173_j58841051955354_2_alg».proof.Proof.FrBRun1C
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hzz : (![0, 0] : Fin 2 → ℕ) = fun _ => 0 := by funext a; fin_cases a <;> rfl

/-- One block of the second kernel: the accumulator `s` plus the block's contribution, through the payloads. -/
def stp1 (x0 x1 x2 : Vec F S2048x64 .f32) (x3 : Vec F S64x64 .f32) (x4 : Vec F S1x64 .f32) (x5 : Vec F S64x1 .f32)
    (x6 : Vec F S1x1 .f32) (s : Vec F S1x1 .f32) : Vec F S1x1 .f32 :=
  k1_pay1 (k1_pay5 x4) (k1_pay6 x5) (k1_pay7 x6) (k1_pay8 x0 x1 x3 x4 x5 x6) (k1_pay9 x0 x2 x3) s

/-! ## What each case leaves in the accumulator and in the output buffer -/

theorem scover1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (y : S1x1.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5 x6).2.1 S1x1.size (by sl_kernel_rfl) y

/-- What the case leaves in the accumulator: its pieces read back. -/
def sout1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) : Vec F S1x1 .f32 :=
  VS1.read (Elt F) (VS1.writes (Elt F) VS1.junk (kernelRun1_A c i arg1 harg1 arg2 harg2 arg3 harg3 arg4 harg4 arg5 harg5 arg6 harg6 arg7 harg7 arg8 harg8 arg9 harg9 hc0 hc1 x0 x1 x2 x3 x4 x5 x6).2.1)

/-- Reset, then the block's contribution. -/
theorem sout1_A_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) : sout1_A c i arg1 harg1 arg2 harg2 arg3 harg3 arg4 harg4 arg5 harg5 arg6 harg6 arg7 harg7 arg8 harg8 arg9 harg9 hc0 hc1 x0 x1 x2 x3 x4 x5 x6 = stp1 x0 x1 x2 x3 x4 x5 x6 k1_pay2 := by
  unfold sout1_A
  rw [View.read_writes_eq_canon _ _ _ (scover1_A c i arg1 harg1 arg2 harg2 arg3 harg3 arg4 harg4 arg5 harg5 arg6 harg6 arg7 harg7 arg8 harg8 arg9 harg9 hc0 hc1 x0 x1 x2 x3 x4 x5 x6)]
  unfold kernelRun1_A
  dsimp only
  rw [View.canon_cons_unit_zero (S := S1x1) hzz]
  sl_unfold_run_names
  first
    | rw [View.readCov_unit_zero (S := S1x1) _ hzz]
    | erw [View.readCov_unit_zero (S := S1x1) _ hzz]
  unfold stp1
  simp only [View.readAt_eq_ld, harg1.read_unread, harg2.read_unread, harg3.read_unread, harg4.read_unread, harg5.read_unread, harg6.read_unread, harg7.read_unread,
    View.ld_unit_zero (S := S2048x64) hzz, View.ld_unit_zero (S := S64x64) hzz, View.ld_unit_zero (S := S1x64) hzz, View.ld_unit_zero (S := S64x1) hzz, View.ld_unit_zero (S := S1x1) hzz]

theorem scover1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) (y : S1x1.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 x6 xs0).2.1 S1x1.size (by sl_kernel_rfl) y

def sout1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : Vec F S1x1 .f32 :=
  VS1.read (Elt F) (VS1.writes (Elt F) VS1.junk (kernelRun1_B c i arg1 harg1 arg2 harg2 arg3 harg3 arg4 harg4 arg5 harg5 arg6 harg6 arg7 harg7 arg8 harg8 arg9 harg9 hc0 hc1 x0 x1 x2 x3 x4 x5 x6 xs0).2.1)

/-- The block's contribution over what the point before left. -/
theorem sout1_B_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : sout1_B c i arg1 harg1 arg2 harg2 arg3 harg3 arg4 harg4 arg5 harg5 arg6 harg6 arg7 harg7 arg8 harg8 arg9 harg9 hc0 hc1 x0 x1 x2 x3 x4 x5 x6 xs0 = stp1 x0 x1 x2 x3 x4 x5 x6 xs0 := by
  unfold sout1_B
  rw [View.read_writes_eq_canon _ _ _ (scover1_B c i arg1 harg1 arg2 harg2 arg3 harg3 arg4 harg4 arg5 harg5 arg6 harg6 arg7 harg7 arg8 harg8 arg9 harg9 hc0 hc1 x0 x1 x2 x3 x4 x5 x6 xs0)]
  unfold kernelRun1_B
  dsimp only
  sl_unfold_run_names
  rw [View.canon_unit_zero (S := S1x1) hzz]
  unfold stp1
  simp only [View.readAt_eq_ld, harg1.read_unread, harg2.read_unread, harg3.read_unread, harg4.read_unread, harg5.read_unread, harg6.read_unread, harg7.read_unread, harg9.read_unread,
    View.ld_unit_zero (S := S2048x64) hzz, View.ld_unit_zero (S := S64x64) hzz, View.ld_unit_zero (S := S1x64) hzz, View.ld_unit_zero (S := S64x1) hzz, View.ld_unit_zero (S := S1x1) hzz]

theorem scover1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 x6 xs0).2.1 S1x1.size (by sl_kernel_rfl) y

def sout1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : Vec F S1x1 .f32 :=
  VS1.read (Elt F) (VS1.writes (Elt F) VS1.junk (kernelRun1_C c i arg1 harg1 arg2 harg2 arg3 harg3 arg4 harg4 arg5 harg5 arg6 harg6 arg7 harg7 arg8 harg8 arg9 harg9 hc0 hc1 x0 x1 x2 x3 x4 x5 x6 xs0).2.1)

theorem cover1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 x6 xs0).1 S1x1.size (by sl_kernel_rfl) y

/-- What the case leaves in the output window's buffer: its pieces read back. -/
def out1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : Vec F S1x1 .f32 :=
  VO1.read (Elt F) (VO1.writes (Elt F) VO1.junk (kernelRun1_C c i arg1 harg1 arg2 harg2 arg3 harg3 arg4 harg4 arg5 harg5 arg6 harg6 arg7 harg7 arg8 harg8 arg9 harg9 hc0 hc1 x0 x1 x2 x3 x4 x5 x6 xs0).1)

theorem sout1_C_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : sout1_C c i arg1 harg1 arg2 harg2 arg3 harg3 arg4 harg4 arg5 harg5 arg6 harg6 arg7 harg7 arg8 harg8 arg9 harg9 hc0 hc1 x0 x1 x2 x3 x4 x5 x6 xs0 = stp1 x0 x1 x2 x3 x4 x5 x6 xs0 := by
  unfold sout1_C
  rw [View.read_writes_eq_canon _ _ _ (scover1_C c i arg1 harg1 arg2 harg2 arg3 harg3 arg4 harg4 arg5 harg5 arg6 harg6 arg7 harg7 arg8 harg8 arg9 harg9 hc0 hc1 x0 x1 x2 x3 x4 x5 x6 xs0)]
  unfold kernelRun1_C
  dsimp only
  sl_unfold_run_names
  rw [View.canon_unit_zero (S := S1x1) hzz]
  unfold stp1
  simp only [View.readAt_eq_ld, harg1.read_unread, harg2.read_unread, harg3.read_unread, harg4.read_unread, harg5.read_unread, harg6.read_unread, harg7.read_unread, harg9.read_unread,
    View.ld_unit_zero (S := S2048x64) hzz, View.ld_unit_zero (S := S64x64) hzz, View.ld_unit_zero (S := S1x64) hzz, View.ld_unit_zero (S := S64x1) hzz, View.ld_unit_zero (S := S1x1) hzz]

/-- The output buffer takes the accumulator's new contents. -/
theorem out1_C_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : out1_C c i arg1 harg1 arg2 harg2 arg3 harg3 arg4 harg4 arg5 harg5 arg6 harg6 arg7 harg7 arg8 harg8 arg9 harg9 hc0 hc1 x0 x1 x2 x3 x4 x5 x6 xs0 = stp1 x0 x1 x2 x3 x4 x5 x6 xs0 := by
  unfold out1_C
  rw [View.read_writes_eq_canon _ _ _ (cover1_C c i arg1 harg1 arg2 harg2 arg3 harg3 arg4 harg4 arg5 harg5 arg6 harg6 arg7 harg7 arg8 harg8 arg9 harg9 hc0 hc1 x0 x1 x2 x3 x4 x5 x6 xs0)]
  unfold kernelRun1_C
  dsimp only
  sl_unfold_run_names
  rw [View.canon_unit_zero (S := S1x1) hzz]
  first
    | rw [View.readCov_unit_zero (S := S1x1) _ hzz]
    | erw [View.readCov_unit_zero (S := S1x1) _ hzz]
  unfold stp1
  simp only [View.readAt_eq_ld, harg1.read_unread, harg2.read_unread, harg3.read_unread, harg4.read_unread, harg5.read_unread, harg6.read_unread, harg7.read_unread, harg9.read_unread,
    View.ld_unit_zero (S := S2048x64) hzz, View.ld_unit_zero (S := S64x64) hzz, View.ld_unit_zero (S := S1x64) hzz, View.ld_unit_zero (S := S64x1) hzz, View.ld_unit_zero (S := S1x1) hzz]

section Region1

variable (V : (c : Dev nD) → (b : Ref sig .tc) → Buf (Elt F) ((c : Thread nD τ).loc b))

/-! ## The accumulator point by point -/

/-- The accumulator after the body at position `n`: over the reset value at the first point, over what the point
    before left otherwise. -/
def scr1 (c : Dev nD) : (n : ℕ) → n < cfg1.N → Vec F S1x1 .f32
  | 0, hn => stp1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) k1_pay2
  | n + 1, hn => stp1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (scr1 c n (Nat.lt_of_succ_lt hn))

theorem scr1_reset (c : Dev nD) (t : Fin cfg1.N) (h : t.val % 8 = 0) :
    scr1 V c t.val t.isLt = stp1 (iblk1 V c 0 t) (iblk1 V c 1 t) (iblk1 V c 2 t) (iblk1 V c 3 t) (iblk1 V c 4 t) (iblk1 V c 5 t) (iblk1 V c 6 t) k1_pay2 := by
  obtain ⟨n, hn⟩ := t
  cases n with
  | zero => rfl
  | succ n => exfalso; have hN : n + 1 < 8 := lt_of_lt_of_eq hn (show cfg1.N = 8 from N_1); (try dsimp only at h); omega

theorem scr1_step (c : Dev nD) (t : Fin cfg1.N) (h : ¬t.val % 8 = 0) :
    scr1 V c t.val t.isLt = stp1 (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt)) := by
  obtain ⟨n, hn⟩ := t
  cases n with
  | zero => exact absurd (Nat.zero_mod _) h
  | succ n => rfl

/-- The region invariant before position `n`: the class's before the first point; afterwards the accumulator at what the
    point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (scr1 V c n hn) ∗ other1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scr1 V c n hn) ∗ other1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scr1 V c (n - 1) (by omega)) ∗ other1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => scr1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = scr1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the closed forms of the two conditions say which case the point is in; the invariant hands the
    body the accumulator at what the point before left (at anything at the first point) and takes it back at this point's
    value; the output buffer is handed back untouched where the accumulator is not written out. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · have h1 : ¬t.val % 8 = 7 := by omega
    have hz : t.val = 0 := by omega
    rw [Dat.leavesExact_idle (dat1 V c) 7 t (idleAt1_7 t (fun h => h1 ((hcond1_1 t).mp h))) (noFlush1_7 t (fun h => h1 ((hcond1_1 t).mp h)))]
    rw [scr1_reset V c t h0, ← sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)]
    unfold sout1_A
    rw [PhiS1_castSucc V c t, PhiS1_zero V c _ _ hz, PhiA1_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_A c _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [scr1_step V c t h0]
      rw [show owns (c : Thread nD τ) (ms1_7 t) fullShare (stp1 (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt)))
            = owns (c : Thread nD τ) (ms1_7 t) fullShare (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))) from by
          rw [out1_C_eq]]
      rw [← sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))]
      unfold out1_C sout1_C
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C c _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [scr1_step V c t h0, ← sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))]
      unfold sout1_B
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's value is forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hoth⟩, Hg⟩
  isplitl [HS0 Hoth]
  · isplitl [HS0]
    · iexists _; iexact HS0
    iexact Hoth
  iexact Hg

end Region1

end Cert.Kernel.Fr

end
-- ==== Proof.FrBMain.lean ====
/-
  The run of the whole program, at any float instance: the buffer contents at every boundary between a stretch of host
  operations and a kernel region, a fold from the launch memory (a stretch applies its operations; a region replaces
  its output array by what its write-backs leave and keeps every other buffer); each region as a segment over the thread
  state "every unscoped buffer at the boundary's contents, the generator register at some state, nothing owed"; and the
  launch: every weakly fair execution terminates with every unscoped buffer at the last boundary's contents. The
  argument arrays are read back through the fold to their launch contents.
-/
import proofs.«145173_j58841051955354_2_alg».proof.Proof.FrBReg0
import proofs.«145173_j58841051955354_2_alg».proof.Proof.FrBReg1
import proofs.«145173_j58841051955354_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev Wa : Dev nD → Valuation τ sig (Elt F) := fun c b => m (c, b)
/-- After the first host stretch (region 0's entry). -/
abbrev Wb : Dev nD → Valuation τ sig (Elt F) := fun c => StableHlo.after hostOps0 (Wa m c)
abbrev Ub : (c : Dev nD) → (b : Ref sig .tc) → Buf (Elt F) ((c : Thread nD τ).loc b) := fun c b => Wb m c b
/-- What region 0's write-backs leave in its output array. -/
def Xc (c : Dev nD) : Buf (Elt F) ((c : Thread nD τ).loc main_v2) := (dat0 (Ub m) c).arrAt 2 cfg0.N
/-- At region 0's exit: its output array at what the write-backs leave, every other buffer as entered. -/
def Wc (c : Dev nD) : Valuation τ sig (Elt F) := Function.update (Wb m c) (Proc.devRef .tc main_v2) (Xc m c)
abbrev Uc : (c : Dev nD) → (b : Ref sig .tc) → Buf (Elt F) ((c : Thread nD τ).loc b) := fun c b => Wc m c b
/-- After the second host stretch (region 1's entry). -/
abbrev Wd : Dev nD → Valuation τ sig (Elt F) := fun c => StableHlo.after hostOps1 (Wc m c)
abbrev Ud : (c : Dev nD) → (b : Ref sig .tc) → Buf (Elt F) ((c : Thread nD τ).loc b) := fun c b => Wd m c b
/-- What region 1's write-backs leave in its output array. -/
def Xe (c : Dev nD) : Buf (Elt F) ((c : Thread nD τ).loc main_v31) := (dat1 (Ud m) c).arrAt 7 cfg1.N
/-- At region 1's exit. -/
def We (c : Dev nD) : Valuation τ sig (Elt F) := Function.update (Wd m c) (Proc.devRef .tc main_v31) (Xe m c)
abbrev Ue : (c : Dev nD) → (b : Ref sig .tc) → Buf (Elt F) ((c : Thread nD τ).loc b) := fun c b => We m c b
/-- After the last host stretch: the end. -/
abbrev Wf : Dev nD → Valuation τ sig (Elt F) := fun c => StableHlo.after hostOps2 (We m c)

theorem Wc_out (c : Dev nD) : Wc m c (Proc.devRef .tc main_v2) = Xc m c := by
  unfold Wc; exact Function.update_self _ _ _
theorem Wc_of_ne (c : Dev nD) (b : Ref sig .tc) (hb : b ≠ main_v2) : Wc m c (Proc.devRef .tc b) = Wb m c (Proc.devRef .tc b) := by
  unfold Wc; exact Function.update_of_ne (StableHlo.devRef_ne_of_ne hb) _ _
theorem We_out (c : Dev nD) : We m c (Proc.devRef .tc main_v31) = Xe m c := by
  unfold We; exact Function.update_self _ _ _
theorem We_of_ne (c : Dev nD) (b : Ref sig .tc) (hb : b ≠ main_v31) : We m c (Proc.devRef .tc b) = Wd m c (Proc.devRef .tc b) := by
  unfold We; exact Function.update_of_ne (StableHlo.devRef_ne_of_ne hb) _ _

/-- At region 0's exit each of its arrays holds what the pipeline leaves, -/
theorem hF0 (c : Dev nD) (w : Fin cfg0.W) : (dat0 (Ub m) c).arrAt w cfg0.N = Uc m c (Pipeline.arrRef spec0 w) := by
  match w with
  | ⟨0, _⟩ => exact ((dat0 (Ub m) c).arrAt_in 0 rfl _).trans ((A_eq0 (Ub m) c 0).trans (Wc_of_ne m c main_v0 (by decide)).symm)
  | ⟨1, _⟩ => exact ((dat0 (Ub m) c).arrAt_in 1 rfl _).trans ((A_eq0 (Ub m) c 1).trans (Wc_of_ne m c main_v1 (by decide)).symm)
  | ⟨2, _⟩ => exact (Wc_out m c).symm
/-- and every other buffer what it held at entry. -/
theorem hrest0 (c : Dev nD) : ∀ b, b ∉ Finset.univ.image (Pipeline.arrRef spec0) → Uc m c b = Ub m c b :=
  fun b hb => Wc_of_ne m c b fun e => hb (Finset.mem_image.mpr ⟨2, Finset.mem_univ _, e.symm⟩)

theorem hF1 (c : Dev nD) (w : Fin cfg1.W) : (dat1 (Ud m) c).arrAt w cfg1.N = Ue m c (Pipeline.arrRef spec1 w) := by
  match w with
  | ⟨0, _⟩ => exact ((dat1 (Ud m) c).arrAt_in 0 rfl _).trans ((A_eq1 (Ud m) c 0).trans (We_of_ne m c main_v14 (by decide)).symm)
  | ⟨1, _⟩ => exact ((dat1 (Ud m) c).arrAt_in 1 rfl _).trans ((A_eq1 (Ud m) c 1).trans (We_of_ne m c main_v21 (by decide)).symm)
  | ⟨2, _⟩ => exact ((dat1 (Ud m) c).arrAt_in 2 rfl _).trans ((A_eq1 (Ud m) c 2).trans (We_of_ne m c main_v28 (by decide)).symm)
  | ⟨3, _⟩ => exact ((dat1 (Ud m) c).arrAt_in 3 rfl _).trans ((A_eq1 (Ud m) c 3).trans (We_of_ne m c main_arg6 (by decide)).symm)
  | ⟨4, _⟩ => exact ((dat1 (Ud m) c).arrAt_in 4 rfl _).trans ((A_eq1 (Ud m) c 4).trans (We_of_ne m c main_v29 (by decide)).symm)
  | ⟨5, _⟩ => exact ((dat1 (Ud m) c).arrAt_in 5 rfl _).trans ((A_eq1 (Ud m) c 5).trans (We_of_ne m c main_arg8 (by decide)).symm)
  | ⟨6, _⟩ => exact ((dat1 (Ud m) c).arrAt_in 6 rfl _).trans ((A_eq1 (Ud m) c 6).trans (We_of_ne m c main_v30 (by decide)).symm)
  | ⟨7, _⟩ => exact (We_out m c).symm
theorem hrest1 (c : Dev nD) : ∀ b, b ∉ Finset.univ.image (Pipeline.arrRef spec1) → Ue m c b = Ud m c b :=
  fun b hb => We_of_ne m c b fun e => hb (Finset.mem_image.mpr ⟨7, Finset.mem_univ _, e.symm⟩)

/-! ## The proof data family and the thread state -/

abbrev admF : (p : Fin 2) → (pcfgs (F := F) p).Adm := fun p => (cfgs p).toPCfg_adm
/-- Every pipeline's proof data, each at its region's entry contents. -/
def pdatsF : (p : Fin 2) → (c : Dev nD) → Dat τ (Elt F) Unit ℕ (UR sig nD τ) ℕ (Pipeline.pin (pcfgs (F := F)) admF p) c
  | ⟨0, _⟩ => fun c => dat0 (Ub m) c
  | ⟨1, _⟩ => fun c => dat1 (Ud m) c
abbrev 𝒱F : Variants := Variants.none
abbrev LF : GSem nD τ sig → Finset Unit := fun _ => ∅
abbrev lvF : GSem nD τ sig → Unit → ℕ := fun _ _ => 0
/-- What rides beside the buffers through every segment: the generator register at some state and the core owing nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnF (c : Dev nD) : sProp 𝕄 := iprop(StableHlo.held (c : Thread nD τ) (Pipeline.ucRefs τ sig) (We m c) ∗ ∃ r, prngReg c r)

/-! ## The regions as segments -/

set_option backward.isDefEq.respectTransparency.types false in
/-- REGION 0 over the thread state: entered from every unscoped buffer at the contents before it, left at the contents
    after it. Its arrays are split out of the unscoped buffers and put back at the exit contents; the generator register
    and the scoped rest go into the region invariant and come out of it; nothing is owed; no semaphore of its own. -/
def reg0F : Pipeline.RegionSeg (pcfgs (F := F)) admF (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Ub m) c).loose
  hwaits := Pipeline.hwaits_of_owed_zero _ _ _ _ LF lvF 0 fun _ _ => rfl
  pre c := iprop(StableHlo.held (c : Thread nD τ) (Pipeline.ucRefs τ sig) (Wb m c) ∗ RF c)
  post c := iprop(StableHlo.held (c : Thread nD τ) (Pipeline.ucRefs τ sig) (Wc m c) ∗ RF c)
  X c := iprop(∃ r, prngReg c r)
  Y c := iprop(∃ r, prngReg c r)
  Z c := Pipeline.unscopedRest (Ix := Unit) (Name := ℕ) (U := UR sig nD τ) (Lvl := ℕ) spec0 c (Ub m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (Ub m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = (dat0 (Ub m) c).Φ 0 from rfl]
    iintro ⟨Hp, -, Hr⟩
    iapply (hin0 (Ub m) c)
    unfold Pipeline.ΦA
    isplitl [Hr]; · iexact Hr
    iexact Hp
  hout c := by
    rw [Pipeline.ownSems0_none, show (pdatsF m 0 c).Φ (Fin.last _) = (dat0 (Ub m) c).Φ (Fin.last cfg0.N) from rfl]
    iintro HΦ
    ihave H := (hout0 (Ub m) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (Ub m c) (Uc m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the contents
    after it. Its arrays are split out of the unscoped buffers and put back at the exit contents; the generator register
    and the scoped rest go into the region invariant and come out of it; nothing is owed; no semaphore of its own. -/
def reg1F : Pipeline.RegionSeg (pcfgs (F := F)) admF (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Ud m) c).loose
  hwaits := Pipeline.hwaits_of_owed_zero _ _ _ _ LF lvF 1 fun _ _ => rfl
  pre c := iprop(StableHlo.held (c : Thread nD τ) (Pipeline.ucRefs τ sig) (Wd m c) ∗ RF c)
  post c := iprop(StableHlo.held (c : Thread nD τ) (Pipeline.ucRefs τ sig) (We m c) ∗ RF c)
  X c := iprop(∃ r, prngReg c r)
  Y c := iprop(∃ r, prngReg c r)
  Z c := Pipeline.unscopedRest (Ix := Unit) (Name := ℕ) (U := UR sig nD τ) (Lvl := ℕ) spec1 c (Ud m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (Ud m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = (dat1 (Ud m) c).Φ 0 from rfl]
    iintro ⟨Hp, -, Hr⟩
    iapply (hin1 (Ud m) c)
    unfold Pipeline.ΦA
    isplitl [Hr]; · iexact Hr
    iexact Hp
  hout c := by
    rw [Pipeline.ownSems0_none, show (pdatsF m 1 c).Φ (Fin.last _) = (dat1 (Ud m) c).Φ (Fin.last cfg1.N) from rfl]
    iintro HΦ
    ihave H := (hout1 (Ud m) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (Ud m c) (Ue m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsF : List (Pipeline.Seg (pcfgs (F := F)) admF (pdatsF m) () defs₀ 𝒱F LF lvF) :=
  [ .host (hsegF hostOps0 hostOps0_sub hostOps0_fresh (Wa m)),
    .region (reg0F m),
    .host (hsegF hostOps1 hostOps1_sub hostOps1_fresh (Wc m)),
    .region (reg1F m),
    .host (hsegF hostOps2 hostOps2_sub hostOps2_fresh (We m)) ]

theorem main_runF (c : Dev nD) : main (F := F) c = Pipeline.Seg.run (segsF m) := (main_chain c).trans (by chain_rfl)

set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wf m c b) :=
  Pipeline.θ_run_regions_kit (pcfgs (F := F)) admF (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ RF c))
    (Tₙ := fun c => iprop(StableHlo.held (c : Thread nD τ) (Pipeline.ucRefs τ sig) (Wf m c) ∗ ∃ r, prngReg c r))
    (hch := ⟨fun _ => .rfl, fun _ => .rfl, fun _ => .rfl, fun _ => .rfl, fun _ => .rfl, fun c => (show iprop(StableHlo.held (c : Thread nD τ) (Pipeline.ucRefs τ sig) (Wf m c) ∗ RF (F := F) c)
          ⊢ iprop(iprop(StableHlo.held (c : Thread nD τ) (Pipeline.ucRefs τ sig) (Wf m c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach LF lvF fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wf m c b)
    (hfin := fun c s' => by
      iintro ⟨⟨Hh, -⟩, HSI⟩
      unfold StableHlo.held
      imodintro
      iapply (pointsTo_read_all (Pipeline.ucRefs τ sig) (fun b => (((c : Thread nD τ)).1, b)) (Wf m c) s')
      isplitl [Hh] <;> iassumption)
    (hQ := fun s h c => h c)

end Cert.Kernel.Fr

end
-- ==== Proof.FrBOuts.lean ====
/-
  The run's last boundary contents are the generated host-side fold at the contents the two regions leave: so every
  argument array ends as launched (the frame), and the result buffer ends at the fold's value.
-/
import proofs.«145173_j58841051955354_2_alg».proof.Proof.FrBMain

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the two regions leave in the buffers they may change, as the fold's unknowns. -/
def outsF : Outs (F := F) := fun J r c => if J = 4 then We m c (Proc.devRef .tc r) else Wc m c (Proc.devRef .tc r)

theorem outsF_2 (c : Dev nD) : outsF m 2 main_v2 c = Xc m c := (if_neg (by decide)).trans (Wc_out m c)
theorem outsF_4 (c : Dev nD) : outsF m 4 main_v31 c = Xe m c := (if_pos rfl).trans (We_out m c)

theorem V2_eq (c : Dev nD) : V2 m (outsF m) c = Wc m c := by
  show Function.update (V1 m c) main_v2 (outsF m 2 main_v2 c) = Wc m c
  rw [outsF_2]; rfl
theorem V3_eq (c : Dev nD) : V3 m (outsF m) c = Wd m c := by
  show StableHlo.after hostOps1 (V2 m (outsF m) c) = _
  rw [V2_eq]
theorem V4_eq (c : Dev nD) : V4 m (outsF m) c = We m c := by
  show Function.update (V3 m (outsF m) c) main_v31 (outsF m 4 main_v31 c) = We m c
  rw [V3_eq, outsF_4]; rfl
theorem V5_eq (c : Dev nD) : V5 m (outsF m) c = Wf m c := by
  show StableHlo.after hostOps2 (V4 m (outsF m) c) = _
  rw [V4_eq]

/-- THE RUN with the result named: every weakly fair execution terminates, the result buffer at the fold's value and
    every argument array as launched. -/
theorem run_val (ρ : Dev nD → PrngReg) : θ_run defs (onTc (τ := τ) (main (F := F))) ⟨m, fun _ => 0, ρ⟩ (fun r => ∀ c : Dev nD,
      r.2.mem ((c.tc : Thread nD τ).loc main_v35) = V5 m (outsF m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_ucF main_v35 (by decide))).trans (congrFun (V5_eq m c).symm _),
      (h c _ (mem_ucF main_arg0 (by decide))).trans ((congrFun (V5_eq m c).symm _).trans (V5_main_arg0 m (outsF m) c)),
      (h c _ (mem_ucF main_arg1 (by decide))).trans ((congrFun (V5_eq m c).symm _).trans (V5_main_arg1 m (outsF m) c)),
      (h c _ (mem_ucF main_arg2 (by decide))).trans ((congrFun (V5_eq m c).symm _).trans (V5_main_arg2 m (outsF m) c)),
      (h c _ (mem_ucF main_arg3 (by decide))).trans ((congrFun (V5_eq m c).symm _).trans (V5_main_arg3 m (outsF m) c)),
      (h c _ (mem_ucF main_arg4 (by decide))).trans ((congrFun (V5_eq m c).symm _).trans (V5_main_arg4 m (outsF m) c)),
      (h c _ (mem_ucF main_arg5 (by decide))).trans ((congrFun (V5_eq m c).symm _).trans (V5_main_arg5 m (outsF m) c)),
      (h c _ (mem_ucF main_arg6 (by decide))).trans ((congrFun (V5_eq m c).symm _).trans (V5_main_arg6 m (outsF m) c)),
      (h c _ (mem_ucF main_arg7 (by decide))).trans ((congrFun (V5_eq m c).symm _).trans (V5_main_arg7 m (outsF m) c)),
      (h c _ (mem_ucF main_arg8 (by decide))).trans ((congrFun (V5_eq m c).symm _).trans (V5_main_arg8 m (outsF m) c)),
      (h c _ (mem_ucF main_arg9 (by decide))).trans ((congrFun (V5_eq m c).symm _).trans (V5_main_arg9 m (outsF m) c))⟩)
    (run_all m ρ)

/-- THE FRAME: every argument array ends as launched. -/
theorem frameF (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_val m ρ)

end Cert.Kernel.Fr

end
-- ==== Proof.FrIShared.lean ====
/-
  What the two kernel regions' runs share, at any float instance and at a parameter `V` (the buffer contents a region
  is entered from): each window's block at a grid point; that an input window's staging buffer holds its block at every
  point, fetched there or not; the bodies' two branch conditions decided over the grids (the accumulator is reset at the
  first point of a span and written out at its last); where the output window is idle and not written back; the scratch
  accumulator as a memref; and the region invariant of the class split at that accumulator.
-/
import proofs.«145173_j58841051955354_2_alg».proof.Proof.Gen.KernelIdeal.Launch
import proofs.«145173_j58841051955354_2_alg».proof.Proof.Gen.KernelIdeal.Skeleton
import proofs.«145173_j58841051955354_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0: the body's branch conditions, decided over the grid -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- The accumulator is written out: the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the accumulator is not written out the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## Region 0: the memrefs the body is called with -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The 1×1 accumulator: a whole scoped buffer of the kernel's own. -/
abbrev scM0 : Memref sig .tc .vmem S1x1 .f32 := Memref.whole cc0_scratch0
abbrev VS0 : View sig .tc .vmem S1x1 .f32 := scM0.view
/-- One staging buffer of the output window, through which its contents are stated. -/
abbrev VO0 : View sig .tc .vmem S1x1x1 .f32 := (Memref.whole cc0_stg2_0 : Memref sig .tc .vmem S1x1x1 .f32).view

/-- The scoped buffers that are no staging buffer of region 0, split at the accumulator. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f))
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The other scoped buffers of the core, unopened. -/
abbrev other0 (c : Dev nD) : sProp 𝕄 :=
  Pipeline.scopedRestBut (Ix := Unit) (Name := ℕ) (U := UR sig nD τ) (Lvl := ℕ) (Val := Elt F) spec0 c [cc0_scratch0]

/-- The class's region invariant with the accumulator as a memref owned at some contents. -/
theorem PhiA0_eq (c : Dev nD) :
    (Pipeline.ΦA spec0 c : sProp 𝕄)
      = iprop(iprop((∃ d, owns (c : Thread nD τ) scM0 fullShare d) ∗ other0 (F := F) c) ∗ (∃ r, prngReg c r)) := by
  unfold Pipeline.ΦA; rw [scopedRest0_split]; simp only [scM0, owns_whole]; try rfl

/-! ## Region 1: the body's branch conditions, decided over the grid -/

/-- The accumulator is reset: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The accumulator is written out: the grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Region 1: where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## Region 1: the memrefs the body is called with -/
abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
/-- The 1×1 accumulator: a whole scoped buffer of the kernel's own. -/
abbrev scM1 : Memref sig .tc .vmem S1x1 .f32 := Memref.whole cc1_scratch0
abbrev VS1 : View sig .tc .vmem S1x1 .f32 := scM1.view
/-- The staging buffer of the output window, through which its contents are stated. -/
abbrev VO1 : View sig .tc .vmem S1x1 .f32 := (Memref.whole cc1_stg7_0 : Memref sig .tc .vmem S1x1 .f32).view

/-- The scoped buffers that are no staging buffer of region 1, split at the accumulator. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The other scoped buffers of the core, unopened. -/
abbrev other1 (c : Dev nD) : sProp 𝕄 :=
  Pipeline.scopedRestBut (Ix := Unit) (Name := ℕ) (U := UR sig nD τ) (Lvl := ℕ) (Val := Elt F) spec1 c [cc1_scratch0]

/-- The class's region invariant with the accumulator as a memref owned at some contents. -/
theorem PhiA1_eq (c : Dev nD) :
    (Pipeline.ΦA spec1 c : sProp 𝕄)
      = iprop(iprop((∃ d, owns (c : Thread nD τ) scM1 fullShare d) ∗ other1 (F := F) c) ∗ (∃ r, prngReg c r)) := by
  unfold Pipeline.ΦA; rw [scopedRest1_split]; simp only [scM1, owns_whole]; try rfl

end Cert.KernelIdeal.Fr

end
-- ==== Proof.FrIRun0A.lean ====
/-
  The first kernel's body run on whole staging memrefs at a grid point where the accumulator is reset, then takes the block's contribution, and is not written out.
  The pieces the accumulator (and the output buffer) end with are the run's witness.
-/
import proofs.«145173_j58841051955354_2_alg».proof.Proof.FrIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) :
    Σ' (L2 : List (View.Piece (Elt F) S1x1x1 .f32)), { LS0 : List (View.Piece (Elt F) S1x1 .f32) //
      ∀ (xi2 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kl_kernel i arg2 harg2 arg3 harg3 arg4 harg4 arg5 harg5) K } := by
  refine ⟨[], ?_, fun xi2 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrIRun0B.lean ====
/-
  The first kernel's body run on whole staging memrefs at a grid point where the accumulator, not reset, takes the block's contribution and is not written out.
  The pieces the accumulator (and the output buffer) end with are the run's witness.
-/
import proofs.«145173_j58841051955354_2_alg».proof.Proof.FrIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) :
    Σ' (L2 : List (View.Piece (Elt F) S1x1x1 .f32)), { LS0 : List (View.Piece (Elt F) S1x1 .f32) //
      ∀ (xi2 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kl_kernel i arg2 harg2 arg3 harg3 arg4 harg4 arg5 harg5) K } := by
  refine ⟨[], ?_, fun xi2 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrIRun0C.lean ====
/-
  The first kernel's body run on whole staging memrefs at a grid point where the accumulator, not reset, takes the block's contribution and is written out into the output window's buffer.
  The pieces the accumulator (and the output buffer) end with are the run's witness.
-/
import proofs.«145173_j58841051955354_2_alg».proof.Proof.FrIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) :
    Σ' (L2 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kl_kernel i arg2 harg2 arg3 harg3 arg4 harg4 arg5 harg5) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrIReg0.lean ====
/-
  The first kernel region at a parameter `V` (the buffer contents it is entered from), at any float instance: what each
  case of the body leaves in the 1×1 accumulator and in the output buffer, as the program's payload functions of the
  blocks; the accumulator after each grid point by recursion on the point (reset at the first point of each span of
  twenty-five, the block's contribution added at every point); the proof data (the inputs' buffers at their blocks, the
  output's at the accumulator re-shaped, the invariant holding the accumulator at the point's value); and the body
  obligation at every point.
-/
import proofs.«145173_j58841051955354_2_alg».proof.Proof.FrIRun0A
import proofs.«145173_j58841051955354_2_alg».proof.Proof.FrIRun0B
import proofs.«145173_j58841051955354_2_alg».proof.Proof.FrIRun0C
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-! ## What each case leaves in the accumulator and in the output buffer -/

/-- The accumulator's pieces cover it. -/
theorem scover0_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) (y : S1x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1.size (by sl_kernel_rfl) y

/-- What the case leaves in the accumulator: its pieces read back. -/
def sout0_A (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) : Vec F S1x1 .f32 :=
  VS0.read (Elt F) (VS0.writes (Elt F) VS0.junk (kernelRun0_A c i arg2 harg2 arg3 harg3 arg4 harg4 arg5 harg5 hc0 hc1 x0 x1).2.1)

/-- Reset, then the block's contribution: the payload of the block over the reset value. -/
theorem sout0_A_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S10000x128 .f32) (x1 : Vec F S10000x128 .f32) : sout0_A c i arg2 harg2 arg3 harg3 arg4 harg4 arg5 harg5 hc0 hc1 x0 x1 = k0_pay2 x0 x1 k0_pay1 := by
  unfold sout0_A
  rw [View.read_writes_eq_canon _ _ _ (scover0_A c i arg2 harg2 arg3 harg3 arg4 harg4 arg5 harg5 hc0 hc1 x0 x1)]
  unfold kernelRun0_A
  dsimp only
  rw [View.canon_cons_unit_zero (S := S1x1) hz2]
  sl_unfold_run_names
  rw [View.readCov_unit_zero _ hz2]
  simp only [View.readAt_eq_ld, harg2.read_unread, harg3.read_unread, View.ld_unit_zero (S := S10000x128) hz2]

theorem scover0_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) (y : S1x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x1.size (by sl_kernel_rfl) y

def sout0_B (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) : Vec F S1x1 .f32 :=
  VS0.read (Elt F) (VS0.writes (Elt F) VS0.junk (kernelRun0_B c i arg2 harg2 arg3 harg3 arg4 harg4 arg5 harg5 hc0 hc1 x0 x1 xs0).2.1)

/-- The block's contribution over what the point before left. -/
theorem sout0_B_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S10000x128 .f32) (x1 : Vec F S10000x128 .f32) (xs0 : Vec F S1x1 .f32) : sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero (S := S1x1) hz2]
  simp only [View.readAt_eq_ld, harg2.read_unread, harg3.read_unread, harg5.read_unread,
    View.ld_unit_zero (S := S10000x128) hz2, View.ld_unit_zero (S := S1x1) hz2]

theorem scover0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1.size (by sl_kernel_rfl) y

def sout0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : Vec F S1x1 .f32 :=
  VS0.read (Elt F) (VS0.writes (Elt F) VS0.junk (kernelRun0_C c i arg2 harg2 arg3 harg3 arg4 harg4 arg5 harg5 hc0 hc1 x0 x1 xs0).2.1)

theorem cover0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) (y : S1x1x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x1.size (by sl_kernel_rfl) y

/-- What the case leaves in the output window's buffer: its pieces read back. -/
def out0_C (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : Vec F S1x1x1 .f32 :=
  VO0.read (Elt F) (VO0.writes (Elt F) VO0.junk (kernelRun0_C c i arg2 harg2 arg3 harg3 arg4 harg4 arg5 harg5 hc0 hc1 x0 x1 xs0).1)

theorem sout0_C_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_run_names
  rw [View.canon_unit_zero (S := S1x1) hz2]
  simp only [View.readAt_eq_ld, harg2.read_unread, harg3.read_unread, harg5.read_unread,
    View.ld_unit_zero (S := S10000x128) hz2, View.ld_unit_zero (S := S1x1) hz2]

/-- The output buffer takes the accumulator's new contents, re-shaped. -/
theorem out0_C_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S10000x128 .f32) (x1 : Vec F S10000x128 .f32) (xs0 : Vec F S1x1 .f32) : out0_C c i arg2 harg2 arg3 harg3 arg4 harg4 arg5 harg5 hc0 hc1 x0 x1 xs0 = k0_pay3 (k0_pay2 x0 x1 xs0) := by
  unfold out0_C
  rw [View.read_writes_eq_canon _ _ _ (cover0_C c i arg2 harg2 arg3 harg3 arg4 harg4 arg5 harg5 hc0 hc1 x0 x1 xs0)]
  unfold kernelRun0_C
  dsimp only
  rw [View.canon_unit_zero (S := S1x1x1) hz3]
  sl_unfold_run_names
  rw [View.readCov_unit_zero _ hz2]
  simp only [View.readAt_eq_ld, harg2.read_unread, harg3.read_unread, harg5.read_unread,
    View.ld_unit_zero (S := S10000x128) hz2, View.ld_unit_zero (S := S1x1) hz2]

section Region0

variable (V : (c : Dev nD) → (b : Ref sig .tc) → Buf (Elt F) ((c : Thread nD τ).loc b))

/-! ## The accumulator point by point -/

/-- The accumulator after the body at position `n`: over the reset value at the first point of a span, over what the
    point before left otherwise. -/
def scr0 (c : Dev nD) : (n : ℕ) → n < cfg0.N → Vec F S1x1 .f32
  | 0, hn => k0_pay2 (iblk0 V c 0 ⟨0, hn⟩) (iblk0 V c 1 ⟨0, hn⟩) k0_pay1
  | n + 1, hn =>
    if (n + 1) % 25 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (scr0 c n (Nat.lt_of_succ_lt hn))

theorem scr0_reset (c : Dev nD) (t : Fin cfg0.N) (h : t.val % 25 = 0) :
    scr0 V c t.val t.isLt = k0_pay2 (iblk0 V c 0 t) (iblk0 V c 1 t) k0_pay1 := by
  obtain ⟨n, hn⟩ := t
  cases n with
  | zero => rfl
  | succ n => exact if_pos h

theorem scr0_step (c : Dev nD) (t : Fin cfg0.N) (h : ¬t.val % 25 = 0) :
    scr0 V c t.val t.isLt = k0_pay2 (iblk0 V c 0 t) (iblk0 V c 1 t) (scr0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: the class's before the first point; afterwards the accumulator at what the
    point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare (scr0 V c n hn) ∗ other0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (scr0 V c n hn) ∗ other0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (scr0 V c (n - 1) (by omega)) ∗ other0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scr0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scr0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the invariant hands the
    body the accumulator at what the point before left (at anything at the very first point) and takes it back at this
    point's value; the output buffer is handed back untouched where the accumulator is not written out. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have h1 : ¬t.val % 25 = 24 := by omega
    rw [Dat.leavesExact_idle (dat0 V c) 2 t (idleAt0_2 t (fun h => h1 ((hcond0_1 t).mp h))) (noFlush0_2 t (fun h => h1 ((hcond0_1 t).mp h)))]
    rw [scr0_reset V c t h0, ← sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)]
    unfold sout0_A
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2]
      rw [scr0_step V c t h0, ← out0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (scr0 V c (t.val - 1) (Nat.lt_of_le_of_lt (Nat.sub_le _ _) t.isLt)),
        ← sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (scr0 V c (t.val - 1) (Nat.lt_of_le_of_lt (Nat.sub_le _ _) t.isLt))]
      unfold out0_C sout0_C
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (scr0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [scr0_step V c t h0, ← sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (scr0 V c (t.val - 1) (Nat.lt_of_le_of_lt (Nat.sub_le _ _) t.isLt))]
      unfold sout0_B
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (scr0 V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]
    · iexists _; iexact HS0
    iexact Hoth
  iexact Hg

end Region0

end Cert.KernelIdeal.Fr

end
-- ==== Proof.FrIRun1A.lean ====
/-
  The second kernel's body run on whole staging memrefs at a grid point where the accumulator is reset, then takes the block's contribution, and is not written out.
  The pieces the accumulator (and the output buffer) end with are the run's witness.
-/
import proofs.«145173_j58841051955354_2_alg».proof.Proof.FrIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) :
    Σ' (L7 : List (View.Piece (Elt F) S1x1 .f32)), { LS0 : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__decode_kernel i arg1 harg1 arg2 harg2 arg3 harg3 arg4 harg4 arg5 harg5 arg6 harg6 arg7 harg7 arg8 harg8 arg9 harg9) K } := by
  refine ⟨[], ?_, fun xi7 E K => ?run⟩
  case run =>
    simp only [cc1__decode_kernel_eq_skeleton]; unfold cc1__decode_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Fr

end
-- ==== Proof.FrIRun1B.lean ====
/-
  The second kernel's body run on whole staging memrefs at a grid point where the accumulator, not reset, takes the block's contribution and is not written out.
  The pieces the accumulator (and the output buffer) end with are the run's witness.
-/
import proofs.«145173_j58841051955354_2_alg».proof.Proof.FrIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) :
    Σ' (L7 : List (View.Piece (Elt F) S1x1 .f32)), { LS0 : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__decode_kernel i arg1 harg1 arg2 harg2 arg3 harg3 arg4 harg4 arg5 harg5 arg6 harg6 arg7 harg7 arg8 harg8 arg9 harg9) K } := by
  refine ⟨[], ?_, fun xi7 E K => ?run⟩
  case run =>
    simp only [cc1__decode_kernel_eq_skeleton]; unfold cc1__decode_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Fr

end
-- ==== Proof.FrIRun1C.lean ====
/-
  The second kernel's body run on whole staging memrefs at a grid point where the accumulator, not reset, takes the block's contribution and is written out into the output window's buffer.
  The pieces the accumulator (and the output buffer) end with are the run's witness.
-/
import proofs.«145173_j58841051955354_2_alg».proof.Proof.FrIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) :
    Σ' (L7 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__decode_kernel i arg1 harg1 arg2 harg2 arg3 harg3 arg4 harg4 arg5 harg5 arg6 harg6 arg7 harg7 arg8 harg8 arg9 harg9) K } := by
  refine ⟨?_, ?_, fun E K => ?run⟩
  case run =>
    simp only [cc1__decode_kernel_eq_skeleton]; unfold cc1__decode_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Fr

end
-- ==== Proof.FrIReg1.lean ====
/-
  The second kernel region at a parameter `V` (the buffer contents it is entered from), at any float instance: what each
  case of the body leaves in the 1×1 accumulator and in the output buffer, as the program's payload functions of the
  blocks; the accumulator after each grid point by recursion on the point (reset at the first point, the block's
  contribution added at every point); the proof data (the inputs' buffers at their blocks, the output's at the
  accumulator, the invariant holding the accumulator at the point's value); and the body obligation at every point.
-/
import proofs.«145173_j58841051955354_2_alg».proof.Proof.FrIRun1A
import proofs.«145173_j58841051955354_2_alg».proof.Proof.FrIRun1B
import proofs.«145173_j58841051955354_2_alg».proof.Proof.FrIRun1C
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzz : (![0, 0] : Fin 2 → ℕ) = fun _ => 0 := by funext a; fin_cases a <;> rfl

/-- One block of the second kernel: the accumulator `s` plus the block's contribution, through the payloads. -/
def stp1 (x0 x1 x2 : Vec F S2048x64 .f32) (x3 : Vec F S64x64 .f32) (x4 : Vec F S1x64 .f32) (x5 : Vec F S64x1 .f32)
    (x6 : Vec F S1x1 .f32) (s : Vec F S1x1 .f32) : Vec F S1x1 .f32 :=
  k1_pay1 (k1_pay5 x4) (k1_pay6 x5) (k1_pay7 x6) (k1_pay8 x0 x1 x3 x4 x5 x6) (k1_pay9 x0 x2 x3) s

/-! ## What each case leaves in the accumulator and in the output buffer -/

theorem scover1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (y : S1x1.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5 x6).2.1 S1x1.size (by sl_kernel_rfl) y

/-- What the case leaves in the accumulator: its pieces read back. -/
def sout1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) : Vec F S1x1 .f32 :=
  VS1.read (Elt F) (VS1.writes (Elt F) VS1.junk (kernelRun1_A c i arg1 harg1 arg2 harg2 arg3 harg3 arg4 harg4 arg5 harg5 arg6 harg6 arg7 harg7 arg8 harg8 arg9 harg9 hc0 hc1 x0 x1 x2 x3 x4 x5 x6).2.1)

/-- Reset, then the block's contribution. -/
theorem sout1_A_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) : sout1_A c i arg1 harg1 arg2 harg2 arg3 harg3 arg4 harg4 arg5 harg5 arg6 harg6 arg7 harg7 arg8 harg8 arg9 harg9 hc0 hc1 x0 x1 x2 x3 x4 x5 x6 = stp1 x0 x1 x2 x3 x4 x5 x6 k1_pay2 := by
  unfold sout1_A
  rw [View.read_writes_eq_canon _ _ _ (scover1_A c i arg1 harg1 arg2 harg2 arg3 harg3 arg4 harg4 arg5 harg5 arg6 harg6 arg7 harg7 arg8 harg8 arg9 harg9 hc0 hc1 x0 x1 x2 x3 x4 x5 x6)]
  unfold kernelRun1_A
  dsimp only
  rw [View.canon_cons_unit_zero (S := S1x1) hzz]
  sl_unfold_run_names
  first
    | rw [View.readCov_unit_zero (S := S1x1) _ hzz]
    | erw [View.readCov_unit_zero (S := S1x1) _ hzz]
  unfold stp1
  simp only [View.readAt_eq_ld, harg1.read_unread, harg2.read_unread, harg3.read_unread, harg4.read_unread, harg5.read_unread, harg6.read_unread, harg7.read_unread,
    View.ld_unit_zero (S := S2048x64) hzz, View.ld_unit_zero (S := S64x64) hzz, View.ld_unit_zero (S := S1x64) hzz, View.ld_unit_zero (S := S64x1) hzz, View.ld_unit_zero (S := S1x1) hzz]

theorem scover1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) (y : S1x1.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 x6 xs0).2.1 S1x1.size (by sl_kernel_rfl) y

def sout1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : Vec F S1x1 .f32 :=
  VS1.read (Elt F) (VS1.writes (Elt F) VS1.junk (kernelRun1_B c i arg1 harg1 arg2 harg2 arg3 harg3 arg4 harg4 arg5 harg5 arg6 harg6 arg7 harg7 arg8 harg8 arg9 harg9 hc0 hc1 x0 x1 x2 x3 x4 x5 x6 xs0).2.1)

/-- The block's contribution over what the point before left. -/
theorem sout1_B_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : sout1_B c i arg1 harg1 arg2 harg2 arg3 harg3 arg4 harg4 arg5 harg5 arg6 harg6 arg7 harg7 arg8 harg8 arg9 harg9 hc0 hc1 x0 x1 x2 x3 x4 x5 x6 xs0 = stp1 x0 x1 x2 x3 x4 x5 x6 xs0 := by
  unfold sout1_B
  rw [View.read_writes_eq_canon _ _ _ (scover1_B c i arg1 harg1 arg2 harg2 arg3 harg3 arg4 harg4 arg5 harg5 arg6 harg6 arg7 harg7 arg8 harg8 arg9 harg9 hc0 hc1 x0 x1 x2 x3 x4 x5 x6 xs0)]
  unfold kernelRun1_B
  dsimp only
  sl_unfold_run_names
  rw [View.canon_unit_zero (S := S1x1) hzz]
  unfold stp1
  simp only [View.readAt_eq_ld, harg1.read_unread, harg2.read_unread, harg3.read_unread, harg4.read_unread, harg5.read_unread, harg6.read_unread, harg7.read_unread, harg9.read_unread,
    View.ld_unit_zero (S := S2048x64) hzz, View.ld_unit_zero (S := S64x64) hzz, View.ld_unit_zero (S := S1x64) hzz, View.ld_unit_zero (S := S64x1) hzz, View.ld_unit_zero (S := S1x1) hzz]

theorem scover1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 x6 xs0).2.1 S1x1.size (by sl_kernel_rfl) y

def sout1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : Vec F S1x1 .f32 :=
  VS1.read (Elt F) (VS1.writes (Elt F) VS1.junk (kernelRun1_C c i arg1 harg1 arg2 harg2 arg3 harg3 arg4 harg4 arg5 harg5 arg6 harg6 arg7 harg7 arg8 harg8 arg9 harg9 hc0 hc1 x0 x1 x2 x3 x4 x5 x6 xs0).2.1)

theorem cover1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) (y : S1x1.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 x6 xs0).1 S1x1.size (by sl_kernel_rfl) y

/-- What the case leaves in the output window's buffer: its pieces read back. -/
def out1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : Vec F S1x1 .f32 :=
  VO1.read (Elt F) (VO1.writes (Elt F) VO1.junk (kernelRun1_C c i arg1 harg1 arg2 harg2 arg3 harg3 arg4 harg4 arg5 harg5 arg6 harg6 arg7 harg7 arg8 harg8 arg9 harg9 hc0 hc1 x0 x1 x2 x3 x4 x5 x6 xs0).1)

theorem sout1_C_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : sout1_C c i arg1 harg1 arg2 harg2 arg3 harg3 arg4 harg4 arg5 harg5 arg6 harg6 arg7 harg7 arg8 harg8 arg9 harg9 hc0 hc1 x0 x1 x2 x3 x4 x5 x6 xs0 = stp1 x0 x1 x2 x3 x4 x5 x6 xs0 := by
  unfold sout1_C
  rw [View.read_writes_eq_canon _ _ _ (scover1_C c i arg1 harg1 arg2 harg2 arg3 harg3 arg4 harg4 arg5 harg5 arg6 harg6 arg7 harg7 arg8 harg8 arg9 harg9 hc0 hc1 x0 x1 x2 x3 x4 x5 x6 xs0)]
  unfold kernelRun1_C
  dsimp only
  sl_unfold_run_names
  rw [View.canon_unit_zero (S := S1x1) hzz]
  unfold stp1
  simp only [View.readAt_eq_ld, harg1.read_unread, harg2.read_unread, harg3.read_unread, harg4.read_unread, harg5.read_unread, harg6.read_unread, harg7.read_unread, harg9.read_unread,
    View.ld_unit_zero (S := S2048x64) hzz, View.ld_unit_zero (S := S64x64) hzz, View.ld_unit_zero (S := S1x64) hzz, View.ld_unit_zero (S := S64x1) hzz, View.ld_unit_zero (S := S1x1) hzz]

/-- The output buffer takes the accumulator's new contents. -/
theorem out1_C_eq (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S2048x64 .f32) (x1 : Vec F S2048x64 .f32) (x2 : Vec F S2048x64 .f32) (x3 : Vec F S64x64 .f32) (x4 : Vec F S1x64 .f32) (x5 : Vec F S64x1 .f32) (x6 : Vec F S1x1 .f32) (xs0 : Vec F S1x1 .f32) : out1_C c i arg1 harg1 arg2 harg2 arg3 harg3 arg4 harg4 arg5 harg5 arg6 harg6 arg7 harg7 arg8 harg8 arg9 harg9 hc0 hc1 x0 x1 x2 x3 x4 x5 x6 xs0 = stp1 x0 x1 x2 x3 x4 x5 x6 xs0 := by
  unfold out1_C
  rw [View.read_writes_eq_canon _ _ _ (cover1_C c i arg1 harg1 arg2 harg2 arg3 harg3 arg4 harg4 arg5 harg5 arg6 harg6 arg7 harg7 arg8 harg8 arg9 harg9 hc0 hc1 x0 x1 x2 x3 x4 x5 x6 xs0)]
  unfold kernelRun1_C
  dsimp only
  sl_unfold_run_names
  rw [View.canon_unit_zero (S := S1x1) hzz]
  first
    | rw [View.readCov_unit_zero (S := S1x1) _ hzz]
    | erw [View.readCov_unit_zero (S := S1x1) _ hzz]
  unfold stp1
  simp only [View.readAt_eq_ld, harg1.read_unread, harg2.read_unread, harg3.read_unread, harg4.read_unread, harg5.read_unread, harg6.read_unread, harg7.read_unread, harg9.read_unread,
    View.ld_unit_zero (S := S2048x64) hzz, View.ld_unit_zero (S := S64x64) hzz, View.ld_unit_zero (S := S1x64) hzz, View.ld_unit_zero (S := S64x1) hzz, View.ld_unit_zero (S := S1x1) hzz]

section Region1

variable (V : (c : Dev nD) → (b : Ref sig .tc) → Buf (Elt F) ((c : Thread nD τ).loc b))

/-! ## The accumulator point by point -/

/-- The accumulator after the body at position `n`: over the reset value at the first point, over what the point
    before left otherwise. -/
def scr1 (c : Dev nD) : (n : ℕ) → n < cfg1.N → Vec F S1x1 .f32
  | 0, hn => stp1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) k1_pay2
  | n + 1, hn => stp1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (scr1 c n (Nat.lt_of_succ_lt hn))

theorem scr1_reset (c : Dev nD) (t : Fin cfg1.N) (h : t.val % 8 = 0) :
    scr1 V c t.val t.isLt = stp1 (iblk1 V c 0 t) (iblk1 V c 1 t) (iblk1 V c 2 t) (iblk1 V c 3 t) (iblk1 V c 4 t) (iblk1 V c 5 t) (iblk1 V c 6 t) k1_pay2 := by
  obtain ⟨n, hn⟩ := t
  cases n with
  | zero => rfl
  | succ n => exfalso; have hN : n + 1 < 8 := lt_of_lt_of_eq hn (show cfg1.N = 8 from N_1); (try dsimp only at h); omega

theorem scr1_step (c : Dev nD) (t : Fin cfg1.N) (h : ¬t.val % 8 = 0) :
    scr1 V c t.val t.isLt = stp1 (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt)) := by
  obtain ⟨n, hn⟩ := t
  cases n with
  | zero => exact absurd (Nat.zero_mod _) h
  | succ n => rfl

/-- The region invariant before position `n`: the class's before the first point; afterwards the accumulator at what the
    point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (scr1 V c n hn) ∗ other1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scr1 V c n hn) ∗ other1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scr1 V c (n - 1) (by omega)) ∗ other1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => scr1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = scr1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the closed forms of the two conditions say which case the point is in; the invariant hands the
    body the accumulator at what the point before left (at anything at the first point) and takes it back at this point's
    value; the output buffer is handed back untouched where the accumulator is not written out. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · have h1 : ¬t.val % 8 = 7 := by omega
    have hz : t.val = 0 := by omega
    rw [Dat.leavesExact_idle (dat1 V c) 7 t (idleAt1_7 t (fun h => h1 ((hcond1_1 t).mp h))) (noFlush1_7 t (fun h => h1 ((hcond1_1 t).mp h)))]
    rw [scr1_reset V c t h0, ← sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)]
    unfold sout1_A
    rw [PhiS1_castSucc V c t, PhiS1_zero V c _ _ hz, PhiA1_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_A c _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [scr1_step V c t h0]
      rw [show owns (c : Thread nD τ) (ms1_7 t) fullShare (stp1 (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt)))
            = owns (c : Thread nD τ) (ms1_7 t) fullShare (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))) from by
          rw [out1_C_eq]]
      rw [← sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))]
      unfold out1_C sout1_C
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C c _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [scr1_step V c t h0, ← sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))]
      unfold sout1_B
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (scr1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's value is forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hoth⟩, Hg⟩
  isplitl [HS0 Hoth]
  · isplitl [HS0]
    · iexists _; iexact HS0
    iexact Hoth
  iexact Hg

end Region1

end Cert.KernelIdeal.Fr

end
-- ==== Proof.FrIMain.lean ====
/-
  The run of the whole program, at any float instance: the buffer contents at every boundary between a stretch of host
  operations and a kernel region, a fold from the launch memory (a stretch applies its operations; a region replaces
  its output array by what its write-backs leave and keeps every other buffer); each region as a segment over the thread
  state "every unscoped buffer at the boundary's contents, the generator register at some state, nothing owed"; and the
  launch: every weakly fair execution terminates with every unscoped buffer at the last boundary's contents. The
  argument arrays are read back through the fold to their launch contents.
-/
import proofs.«145173_j58841051955354_2_alg».proof.Proof.FrIReg0
import proofs.«145173_j58841051955354_2_alg».proof.Proof.FrIReg1
import proofs.«145173_j58841051955354_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev Wa : Dev nD → Valuation τ sig (Elt F) := fun c b => m (c, b)
/-- After the first host stretch (region 0's entry). -/
abbrev Wb : Dev nD → Valuation τ sig (Elt F) := fun c => StableHlo.after hostOps0 (Wa m c)
abbrev Ub : (c : Dev nD) → (b : Ref sig .tc) → Buf (Elt F) ((c : Thread nD τ).loc b) := fun c b => Wb m c b
/-- What region 0's write-backs leave in its output array. -/
def Xc (c : Dev nD) : Buf (Elt F) ((c : Thread nD τ).loc main_v2) := (dat0 (Ub m) c).arrAt 2 cfg0.N
/-- At region 0's exit: its output array at what the write-backs leave, every other buffer as entered. -/
def Wc (c : Dev nD) : Valuation τ sig (Elt F) := Function.update (Wb m c) (Proc.devRef .tc main_v2) (Xc m c)
abbrev Uc : (c : Dev nD) → (b : Ref sig .tc) → Buf (Elt F) ((c : Thread nD τ).loc b) := fun c b => Wc m c b
/-- After the second host stretch (region 1's entry). -/
abbrev Wd : Dev nD → Valuation τ sig (Elt F) := fun c => StableHlo.after hostOps1 (Wc m c)
abbrev Ud : (c : Dev nD) → (b : Ref sig .tc) → Buf (Elt F) ((c : Thread nD τ).loc b) := fun c b => Wd m c b
/-- What region 1's write-backs leave in its output array. -/
def Xe (c : Dev nD) : Buf (Elt F) ((c : Thread nD τ).loc main_v31) := (dat1 (Ud m) c).arrAt 7 cfg1.N
/-- At region 1's exit. -/
def We (c : Dev nD) : Valuation τ sig (Elt F) := Function.update (Wd m c) (Proc.devRef .tc main_v31) (Xe m c)
abbrev Ue : (c : Dev nD) → (b : Ref sig .tc) → Buf (Elt F) ((c : Thread nD τ).loc b) := fun c b => We m c b
/-- After the last host stretch: the end. -/
abbrev Wf : Dev nD → Valuation τ sig (Elt F) := fun c => StableHlo.after hostOps2 (We m c)

theorem Wc_out (c : Dev nD) : Wc m c (Proc.devRef .tc main_v2) = Xc m c := by
  unfold Wc; exact Function.update_self _ _ _
theorem Wc_of_ne (c : Dev nD) (b : Ref sig .tc) (hb : b ≠ main_v2) : Wc m c (Proc.devRef .tc b) = Wb m c (Proc.devRef .tc b) := by
  unfold Wc; exact Function.update_of_ne (StableHlo.devRef_ne_of_ne hb) _ _
theorem We_out (c : Dev nD) : We m c (Proc.devRef .tc main_v31) = Xe m c := by
  unfold We; exact Function.update_self _ _ _
theorem We_of_ne (c : Dev nD) (b : Ref sig .tc) (hb : b ≠ main_v31) : We m c (Proc.devRef .tc b) = Wd m c (Proc.devRef .tc b) := by
  unfold We; exact Function.update_of_ne (StableHlo.devRef_ne_of_ne hb) _ _

/-- At region 0's exit each of its arrays holds what the pipeline leaves, -/
theorem hF0 (c : Dev nD) (w : Fin cfg0.W) : (dat0 (Ub m) c).arrAt w cfg0.N = Uc m c (Pipeline.arrRef spec0 w) := by
  match w with
  | ⟨0, _⟩ => exact ((dat0 (Ub m) c).arrAt_in 0 rfl _).trans ((A_eq0 (Ub m) c 0).trans (Wc_of_ne m c main_v0 (by decide)).symm)
  | ⟨1, _⟩ => exact ((dat0 (Ub m) c).arrAt_in 1 rfl _).trans ((A_eq0 (Ub m) c 1).trans (Wc_of_ne m c main_v1 (by decide)).symm)
  | ⟨2, _⟩ => exact (Wc_out m c).symm
/-- and every other buffer what it held at entry. -/
theorem hrest0 (c : Dev nD) : ∀ b, b ∉ Finset.univ.image (Pipeline.arrRef spec0) → Uc m c b = Ub m c b :=
  fun b hb => Wc_of_ne m c b fun e => hb (Finset.mem_image.mpr ⟨2, Finset.mem_univ _, e.symm⟩)

theorem hF1 (c : Dev nD) (w : Fin cfg1.W) : (dat1 (Ud m) c).arrAt w cfg1.N = Ue m c (Pipeline.arrRef spec1 w) := by
  match w with
  | ⟨0, _⟩ => exact ((dat1 (Ud m) c).arrAt_in 0 rfl _).trans ((A_eq1 (Ud m) c 0).trans (We_of_ne m c main_v14 (by decide)).symm)
  | ⟨1, _⟩ => exact ((dat1 (Ud m) c).arrAt_in 1 rfl _).trans ((A_eq1 (Ud m) c 1).trans (We_of_ne m c main_v21 (by decide)).symm)
  | ⟨2, _⟩ => exact ((dat1 (Ud m) c).arrAt_in 2 rfl _).trans ((A_eq1 (Ud m) c 2).trans (We_of_ne m c main_v28 (by decide)).symm)
  | ⟨3, _⟩ => exact ((dat1 (Ud m) c).arrAt_in 3 rfl _).trans ((A_eq1 (Ud m) c 3).trans (We_of_ne m c main_arg6 (by decide)).symm)
  | ⟨4, _⟩ => exact ((dat1 (Ud m) c).arrAt_in 4 rfl _).trans ((A_eq1 (Ud m) c 4).trans (We_of_ne m c main_v29 (by decide)).symm)
  | ⟨5, _⟩ => exact ((dat1 (Ud m) c).arrAt_in 5 rfl _).trans ((A_eq1 (Ud m) c 5).trans (We_of_ne m c main_arg8 (by decide)).symm)
  | ⟨6, _⟩ => exact ((dat1 (Ud m) c).arrAt_in 6 rfl _).trans ((A_eq1 (Ud m) c 6).trans (We_of_ne m c main_v30 (by decide)).symm)
  | ⟨7, _⟩ => exact (We_out m c).symm
theorem hrest1 (c : Dev nD) : ∀ b, b ∉ Finset.univ.image (Pipeline.arrRef spec1) → Ue m c b = Ud m c b :=
  fun b hb => We_of_ne m c b fun e => hb (Finset.mem_image.mpr ⟨7, Finset.mem_univ _, e.symm⟩)

/-! ## The proof data family and the thread state -/

abbrev admF : (p : Fin 2) → (pcfgs (F := F) p).Adm := fun p => (cfgs p).toPCfg_adm
/-- Every pipeline's proof data, each at its region's entry contents. -/
def pdatsF : (p : Fin 2) → (c : Dev nD) → Dat τ (Elt F) Unit ℕ (UR sig nD τ) ℕ (Pipeline.pin (pcfgs (F := F)) admF p) c
  | ⟨0, _⟩ => fun c => dat0 (Ub m) c
  | ⟨1, _⟩ => fun c => dat1 (Ud m) c
abbrev 𝒱F : Variants := Variants.none
abbrev LF : GSem nD τ sig → Finset Unit := fun _ => ∅
abbrev lvF : GSem nD τ sig → Unit → ℕ := fun _ _ => 0
/-- What rides beside the buffers through every segment: the generator register at some state and the core owing nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnF (c : Dev nD) : sProp 𝕄 := iprop(StableHlo.held (c : Thread nD τ) (Pipeline.ucRefs τ sig) (We m c) ∗ ∃ r, prngReg c r)

/-! ## The regions as segments -/

set_option backward.isDefEq.respectTransparency.types false in
/-- REGION 0 over the thread state: entered from every unscoped buffer at the contents before it, left at the contents
    after it. Its arrays are split out of the unscoped buffers and put back at the exit contents; the generator register
    and the scoped rest go into the region invariant and come out of it; nothing is owed; no semaphore of its own. -/
def reg0F : Pipeline.RegionSeg (pcfgs (F := F)) admF (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Ub m) c).loose
  hwaits := Pipeline.hwaits_of_owed_zero _ _ _ _ LF lvF 0 fun _ _ => rfl
  pre c := iprop(StableHlo.held (c : Thread nD τ) (Pipeline.ucRefs τ sig) (Wb m c) ∗ RF c)
  post c := iprop(StableHlo.held (c : Thread nD τ) (Pipeline.ucRefs τ sig) (Wc m c) ∗ RF c)
  X c := iprop(∃ r, prngReg c r)
  Y c := iprop(∃ r, prngReg c r)
  Z c := Pipeline.unscopedRest (Ix := Unit) (Name := ℕ) (U := UR sig nD τ) (Lvl := ℕ) spec0 c (Ub m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (Ub m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = (dat0 (Ub m) c).Φ 0 from rfl]
    iintro ⟨Hp, -, Hr⟩
    iapply (hin0 (Ub m) c)
    unfold Pipeline.ΦA
    isplitl [Hr]; · iexact Hr
    iexact Hp
  hout c := by
    rw [Pipeline.ownSems0_none, show (pdatsF m 0 c).Φ (Fin.last _) = (dat0 (Ub m) c).Φ (Fin.last cfg0.N) from rfl]
    iintro HΦ
    ihave H := (hout0 (Ub m) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (Ub m c) (Uc m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the contents
    after it. Its arrays are split out of the unscoped buffers and put back at the exit contents; the generator register
    and the scoped rest go into the region invariant and come out of it; nothing is owed; no semaphore of its own. -/
def reg1F : Pipeline.RegionSeg (pcfgs (F := F)) admF (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Ud m) c).loose
  hwaits := Pipeline.hwaits_of_owed_zero _ _ _ _ LF lvF 1 fun _ _ => rfl
  pre c := iprop(StableHlo.held (c : Thread nD τ) (Pipeline.ucRefs τ sig) (Wd m c) ∗ RF c)
  post c := iprop(StableHlo.held (c : Thread nD τ) (Pipeline.ucRefs τ sig) (We m c) ∗ RF c)
  X c := iprop(∃ r, prngReg c r)
  Y c := iprop(∃ r, prngReg c r)
  Z c := Pipeline.unscopedRest (Ix := Unit) (Name := ℕ) (U := UR sig nD τ) (Lvl := ℕ) spec1 c (Ud m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (Ud m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = (dat1 (Ud m) c).Φ 0 from rfl]
    iintro ⟨Hp, -, Hr⟩
    iapply (hin1 (Ud m) c)
    unfold Pipeline.ΦA
    isplitl [Hr]; · iexact Hr
    iexact Hp
  hout c := by
    rw [Pipeline.ownSems0_none, show (pdatsF m 1 c).Φ (Fin.last _) = (dat1 (Ud m) c).Φ (Fin.last cfg1.N) from rfl]
    iintro HΦ
    ihave H := (hout1 (Ud m) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (Ud m c) (Ue m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsF : List (Pipeline.Seg (pcfgs (F := F)) admF (pdatsF m) () defs₀ 𝒱F LF lvF) :=
  [ .host (hsegF hostOps0 hostOps0_sub hostOps0_fresh (Wa m)),
    .region (reg0F m),
    .host (hsegF hostOps1 hostOps1_sub hostOps1_fresh (Wc m)),
    .region (reg1F m),
    .host (hsegF hostOps2 hostOps2_sub hostOps2_fresh (We m)) ]

theorem main_runF (c : Dev nD) : main (F := F) c = Pipeline.Seg.run (segsF m) := (main_chain c).trans (by chain_rfl)

set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wf m c b) :=
  Pipeline.θ_run_regions_kit (pcfgs (F := F)) admF (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ RF c))
    (Tₙ := fun c => iprop(StableHlo.held (c : Thread nD τ) (Pipeline.ucRefs τ sig) (Wf m c) ∗ ∃ r, prngReg c r))
    (hch := ⟨fun _ => .rfl, fun _ => .rfl, fun _ => .rfl, fun _ => .rfl, fun _ => .rfl, fun c => (show iprop(StableHlo.held (c : Thread nD τ) (Pipeline.ucRefs τ sig) (Wf m c) ∗ RF (F := F) c)
          ⊢ iprop(iprop(StableHlo.held (c : Thread nD τ) (Pipeline.ucRefs τ sig) (Wf m c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach LF lvF fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wf m c b)
    (hfin := fun c s' => by
      iintro ⟨⟨Hh, -⟩, HSI⟩
      unfold StableHlo.held
      imodintro
      iapply (pointsTo_read_all (Pipeline.ucRefs τ sig) (fun b => (((c : Thread nD τ)).1, b)) (Wf m c) s')
      isplitl [Hh] <;> iassumption)
    (hQ := fun s h c => h c)

end Cert.KernelIdeal.Fr

end
-- ==== Proof.FrIOuts.lean ====
/-
  The run's last boundary contents are the generated host-side fold at the contents the two regions leave: so every
  argument array ends as launched (the frame), and the result buffer ends at the fold's value.
-/
import proofs.«145173_j58841051955354_2_alg».proof.Proof.FrIMain

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the two regions leave in the buffers they may change, as the fold's unknowns. -/
def outsF : Outs (F := F) := fun J r c => if J = 4 then We m c (Proc.devRef .tc r) else Wc m c (Proc.devRef .tc r)

theorem outsF_2 (c : Dev nD) : outsF m 2 main_v2 c = Xc m c := (if_neg (by decide)).trans (Wc_out m c)
theorem outsF_4 (c : Dev nD) : outsF m 4 main_v31 c = Xe m c := (if_pos rfl).trans (We_out m c)

theorem V2_eq (c : Dev nD) : V2 m (outsF m) c = Wc m c := by
  show Function.update (V1 m c) main_v2 (outsF m 2 main_v2 c) = Wc m c
  rw [outsF_2]; rfl
theorem V3_eq (c : Dev nD) : V3 m (outsF m) c = Wd m c := by
  show StableHlo.after hostOps1 (V2 m (outsF m) c) = _
  rw [V2_eq]
theorem V4_eq (c : Dev nD) : V4 m (outsF m) c = We m c := by
  show Function.update (V3 m (outsF m) c) main_v31 (outsF m 4 main_v31 c) = We m c
  rw [V3_eq, outsF_4]; rfl
theorem V5_eq (c : Dev nD) : V5 m (outsF m) c = Wf m c := by
  show StableHlo.after hostOps2 (V4 m (outsF m) c) = _
  rw [V4_eq]

/-- THE RUN with the result named: every weakly fair execution terminates, the result buffer at the fold's value and
    every argument array as launched. -/
theorem run_val (ρ : Dev nD → PrngReg) : θ_run defs (onTc (τ := τ) (main (F := F))) ⟨m, fun _ => 0, ρ⟩ (fun r => ∀ c : Dev nD,
      r.2.mem ((c.tc : Thread nD τ).loc main_v35) = V5 m (outsF m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_ucF main_v35 (by decide))).trans (congrFun (V5_eq m c).symm _),
      (h c _ (mem_ucF main_arg0 (by decide))).trans ((congrFun (V5_eq m c).symm _).trans (V5_main_arg0 m (outsF m) c)),
      (h c _ (mem_ucF main_arg1 (by decide))).trans ((congrFun (V5_eq m c).symm _).trans (V5_main_arg1 m (outsF m) c)),
      (h c _ (mem_ucF main_arg2 (by decide))).trans ((congrFun (V5_eq m c).symm _).trans (V5_main_arg2 m (outsF m) c)),
      (h c _ (mem_ucF main_arg3 (by decide))).trans ((congrFun (V5_eq m c).symm _).trans (V5_main_arg3 m (outsF m) c)),
      (h c _ (mem_ucF main_arg4 (by decide))).trans ((congrFun (V5_eq m c).symm _).trans (V5_main_arg4 m (outsF m) c)),
      (h c _ (mem_ucF main_arg5 (by decide))).trans ((congrFun (V5_eq m c).symm _).trans (V5_main_arg5 m (outsF m) c)),
      (h c _ (mem_ucF main_arg6 (by decide))).trans ((congrFun (V5_eq m c).symm _).trans (V5_main_arg6 m (outsF m) c)),
      (h c _ (mem_ucF main_arg7 (by decide))).trans ((congrFun (V5_eq m c).symm _).trans (V5_main_arg7 m (outsF m) c)),
      (h c _ (mem_ucF main_arg8 (by decide))).trans ((congrFun (V5_eq m c).symm _).trans (V5_main_arg8 m (outsF m) c)),
      (h c _ (mem_ucF main_arg9 (by decide))).trans ((congrFun (V5_eq m c).symm _).trans (V5_main_arg9 m (outsF m) c))⟩)
    (run_all m ρ)

/-- THE FRAME: every argument array ends as launched. -/
theorem frameF (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_val m ρ)

end Cert.KernelIdeal.Fr

end
-- ==== Proof.KVal.lean ====
/-
  The kernel's value as pure functions of arrays, at any float instance.

  The first kernel walks a 500000×128 array pair in fifty blocks of 10000 rows; a 1×1 accumulator is
  reset at every twenty-fifth block, takes each block's contribution, and after blocks 24 and 49 its contents
  are the two entries of the 2×1×1 result.  The second kernel walks three 16384×64 arrays in eight blocks
  of 2048 rows, the same accumulator pattern over one span of eight blocks, the result its last contents.
  The contributions are the program's own payload functions; nothing here says what they compute.
-/
import proofs.«145173_j58841051955354_2_alg».proof.Proof.Gen.KernelIdeal.Skeleton
import Idealize.ShloMosaic.Lib.ValueIdx

noncomputable section

namespace Cert.KernelIdeal.KVal

open Idealize.ShloMosaic Idealize.ShloMosaic.ValueIdx Cert.KernelIdeal Cert.KernelIdeal.Gen

variable {F : FTy → Type} [FloatOps F]

/-- Rows `10000·t … 10000·t + 9999` of a 500000×128 array, as a 10000×128 array. -/
def rows0 (x : Vec F S500000x128 .f32) (t : Fin 50) : Vec F S10000x128 .f32 :=
  fun y => x (ix2 (⟨t.val * 10000 + (y 0).val, by have h0 := idx2_lt0 y; have ht := t.isLt; omega⟩ : Fin 500000)
    (⟨(y 1).val, idx2_lt1 y⟩ : Fin 128))

/-- The first kernel's accumulator after block `n`: reset before every twenty-fifth block. -/
def acc0 (x0 x1 : Vec F S500000x128 .f32) : (n : ℕ) → n < 50 → Vec F S1x1 .f32
  | 0, h => k0_pay2 (rows0 x0 ⟨0, h⟩) (rows0 x1 ⟨0, h⟩) k0_pay1
  | n + 1, h =>
    if (n + 1) % 25 = 0 then k0_pay2 (rows0 x0 ⟨n + 1, h⟩) (rows0 x1 ⟨n + 1, h⟩) k0_pay1
    else k0_pay2 (rows0 x0 ⟨n + 1, h⟩) (rows0 x1 ⟨n + 1, h⟩) (acc0 x0 x1 n (Nat.lt_of_succ_lt h))

/-- The first kernel's 2×1×1 result: entry `k` is the accumulator after block `25·k + 24`, re-shaped. -/
def klOut (x0 x1 : Vec F S500000x128 .f32) : Vec F S2x1x1 .f32 :=
  fun j => k0_pay3 (acc0 x0 x1 (25 * (j 0).val + 24) (by have h := (j 0).isLt; have h' : (j 0).val < 2 := h; omega)) (ix3 0 0 0)

/-- Rows `2048·t … 2048·t + 2047` of a 16384×64 array, as a 2048×64 array. -/
def rows1 (x : Vec F S16384x64 .f32) (t : Fin 8) : Vec F S2048x64 .f32 :=
  fun y => x (ix2 (⟨t.val * 2048 + (y 0).val, by have h0 := idx2_lt0 y; have ht := t.isLt; omega⟩ : Fin 16384)
    (⟨(y 1).val, idx2_lt1 y⟩ : Fin 64))

/-- One block of the second kernel: the accumulator `s` plus the block's contribution. -/
def step1 (u p q : Vec F S2048x64 .f32) (w1 : Vec F S64x64 .f32) (b1 : Vec F S1x64 .f32) (w2 : Vec F S64x1 .f32)
    (b2 : Vec F S1x1 .f32) (s : Vec F S1x1 .f32) : Vec F S1x1 .f32 :=
  k1_pay1 (k1_pay5 b1) (k1_pay6 w2) (k1_pay7 b2) (k1_pay8 u p w1 b1 w2 b2) (k1_pay9 u q w1) s

/-- The second kernel's accumulator after block `n`: reset before the first block only. -/
def acc1 (u p q : Vec F S16384x64 .f32) (w1 : Vec F S64x64 .f32) (b1 : Vec F S1x64 .f32) (w2 : Vec F S64x1 .f32)
    (b2 : Vec F S1x1 .f32) : (n : ℕ) → n < 8 → Vec F S1x1 .f32
  | 0, h => step1 (rows1 u ⟨0, h⟩) (rows1 p ⟨0, h⟩) (rows1 q ⟨0, h⟩) w1 b1 w2 b2 k1_pay2
  | n + 1, h => step1 (rows1 u ⟨n + 1, h⟩) (rows1 p ⟨n + 1, h⟩) (rows1 q ⟨n + 1, h⟩) w1 b1 w2 b2
      (acc1 u p q w1 b1 w2 b2 n (Nat.lt_of_succ_lt h))

/-- The second kernel's 1×1 result: the accumulator after the last block. -/
def decOut (u p q : Vec F S16384x64 .f32) (w1 : Vec F S64x64 .f32) (b1 : Vec F S1x64 .f32) (w2 : Vec F S64x1 .f32)
    (b2 : Vec F S1x1 .f32) : Vec F S1x1 .f32 :=
  acc1 u p q w1 b1 w2 b2 7 (by decide)

end Cert.KernelIdeal.KVal

end
-- ==== Proof.FrIVal0.lean ====
/-
  What the first kernel region leaves in its 2×1×1 output array, as a pure function of the two 500000×128 arrays it
  reads: a block of an input window at grid point `t` is rows `10000·t … 10000·t + 9999` of its array; the accumulator
  after each point is the pure recursion over those row blocks; the two write-backs (after points 24 and 49) leave the
  accumulator, re-shaped, in entries 0 and 1, and these two blocks cover the array.
-/
import proofs.«145173_j58841051955354_2_alg».proof.Proof.FrIMain
import proofs.«145173_j58841051955354_2_alg».proof.Proof.KVal
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.KVal

section

variable (V : (c : Dev nD) → (b : Ref sig .tc) → Buf (Elt F) ((c : Thread nD τ).loc b))

/-- The printed index maps, decided over the grid: the two input windows walk the row blocks in order; the output
    window's block index is the span's number. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 25 ∧ win0_2.index t (1 : Fin 3) = 0 ∧ win0_2.index t (2 : Fin 3) = 0 :=
  (by decide +kernel : ∀ t : Fin grid0.N, _)

theorem iblk0_0 (c : Dev nD) (t : Fin cfg0.N) :
    iblk0 V c 0 t = rows0 (V c main_v0) ⟨t.val, lt_of_lt_of_eq t.isLt N_0⟩ := by
  obtain ⟨e0, e1, -⟩ := idx0 t
  funext y
  show V c main_v0 (((cfg0.win 0).blk t).view.emb y) = V c main_v0 _
  refine congrArg (V c main_v0) ?_
  funext a; apply Fin.ext
  match a with
  | ⟨0, _⟩ => show win0_0.index t (0 : Fin 2) * 10000 + 1 * (y 0).val = t.val * 10000 + (y 0).val; omega
  | ⟨1, _⟩ => show win0_0.index t (1 : Fin 2) * 128 + 1 * (y 1).val = (y 1).val; omega

theorem iblk0_1 (c : Dev nD) (t : Fin cfg0.N) :
    iblk0 V c 1 t = rows0 (V c main_v1) ⟨t.val, lt_of_lt_of_eq t.isLt N_0⟩ := by
  obtain ⟨-, -, e0, e1, -⟩ := idx0 t
  funext y
  show V c main_v1 (((cfg0.win 1).blk t).view.emb y) = V c main_v1 _
  refine congrArg (V c main_v1) ?_
  funext a; apply Fin.ext
  match a with
  | ⟨0, _⟩ => show win0_1.index t (0 : Fin 2) * 10000 + 1 * (y 0).val = t.val * 10000 + (y 0).val; omega
  | ⟨1, _⟩ => show win0_1.index t (1 : Fin 2) * 128 + 1 * (y 1).val = (y 1).val; omega

/-- The accumulator after each point is the pure recursion over the row blocks. -/
theorem scr0_eq (c : Dev nD) : ∀ (n : ℕ) (hn : n < cfg0.N), scr0 V c n hn = acc0 (V c main_v0) (V c main_v1) n (lt_of_lt_of_eq hn N_0)
  | 0, hn => by
    show k0_pay2 (iblk0 V c 0 ⟨0, hn⟩) (iblk0 V c 1 ⟨0, hn⟩) k0_pay1 = k0_pay2 (rows0 _ _) (rows0 _ _) k0_pay1
    rw [iblk0_0, iblk0_1]
  | n + 1, hn => by
    unfold scr0 acc0
    rw [iblk0_0 V c ⟨n + 1, hn⟩, iblk0_1 V c ⟨n + 1, hn⟩, scr0_eq c n (Nat.lt_of_succ_lt hn)]

theorem acc0_congr (x0 x1 : Vec F S500000x128 .f32) {n n' : ℕ} (h : n = n') (hn : n < 50) (hn' : n' < 50) :
    acc0 x0 x1 n hn = acc0 x0 x1 n' hn' := by subst h; rfl

/-- Every index of a 1×1×1 block is the zero index. -/
theorem eq_ix3_zero (j : S1x1x1.Idx) : j = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- What a writing-back point `t` (the last of its span) writes back is its block of the pure result. -/
theorem flushed0_eq (c : Dev nD) (t : Fin cfg0.N) (hf : (cfg0.win 2).flush t = true) :
    (dat0 V c).flushed 2 t = ((cfg0.win 2).blk t).view.read (Elt F) (klOut (V c main_v0) (V c main_v1)) := by
  have h24 : t.val % 25 = 24 := (flush0_2 t).mp hf
  have hN : t.val < 50 := lt_of_lt_of_eq t.isLt N_0
  obtain ⟨-, -, -, -, e0, e1, e2⟩ := idx0 t
  show (cfg0.win 2).cut (grid0.coords t) ((dat0 V c).after 2 t) = _
  rw [after0_2, scr0_eq]
  funext j
  show k0_pay3 (acc0 (V c main_v0) (V c main_v1) t.val _) j = klOut (V c main_v0) (V c main_v1) (((cfg0.win 2).blk t).view.emb j)
  rw [eq_ix3_zero j]
  unfold klOut
  refine congrArg (fun v : Vec F S1x1 .f32 => k0_pay3 v (ix3 (0 : Fin 1) (0 : Fin 1) (0 : Fin 1))) ?_
  refine acc0_congr _ _ ?_ _ _
  show t.val = 25 * (win0_2.index t (0 : Fin 3) * 1 + 1 * 0) + 24
  omega

/-- An index of the array is in point `t`'s block iff its first coordinate is the block's number. -/
theorem cover0 (i : S2x1x1.Idx) : ∃ t : Fin cfg0.N, (cfg0.win 2).flush t = true ∧ i ∈ ((cfg0.win 2).blk t).view.set := by
  have hi : (i 0).val < 2 := (i 0).isLt
  have h1 : (i 1).val < 1 := (i 1).isLt
  have h2 : (i 2).val < 1 := (i 2).isLt
  obtain ⟨t0, ht0⟩ : ∃ t0 : Fin cfg0.N, t0.val = 25 * (i 0).val + 24 :=
    ⟨⟨25 * (i 0).val + 24, by rw [show cfg0.N = 50 from N_0]; omega⟩, rfl⟩
  refine ⟨t0, (flush0_2 t0).mpr (by omega), ?_⟩
  obtain ⟨-, -, -, -, e0, e1, e2⟩ := idx0 t0
  show i ∈ ((View.whole main_v2).slice (win0_2.rect t0)).set
  rw [View.set_slice_whole, Rect.mem_set_unit]
  intro a
  match a with
  | ⟨0, _⟩ => show win0_2.index t0 (0 : Fin 3) * 1 ≤ (i 0).val ∧ (i 0).val < win0_2.index t0 (0 : Fin 3) * 1 + 1; omega
  | ⟨1, _⟩ => show win0_2.index t0 (1 : Fin 3) * 1 ≤ (i 1).val ∧ (i 1).val < win0_2.index t0 (1 : Fin 3) * 1 + 1; omega
  | ⟨2, _⟩ => show win0_2.index t0 (2 : Fin 3) * 1 ≤ (i 2).val ∧ (i 2).val < win0_2.index t0 (2 : Fin 3) * 1 + 1; omega

/-- The output array after the region: the pure result. -/
theorem final0 (c : Dev nD) : (dat0 V c).arrAt 2 cfg0.N = klOut (V c main_v0) (V c main_v1) :=
  (dat0 V c).arrAt_eq_of_cover 2 _ (fun t hf => flushed0_eq V c t hf) cover0

end

end Cert.KernelIdeal.Fr

end
-- ==== Proof.FrIVal1.lean ====
/-
  What the second kernel region leaves in its 1×1 output array, as a pure function of the seven arrays it reads: a block
  of one of the three gathered arrays at grid point `t` is rows `2048·t … 2048·t + 2047`; the four weight arrays are read
  whole at every point; the accumulator after each point is the pure recursion over the row blocks; the one write-back
  (after the last point) leaves the accumulator in the array.
-/
import proofs.«145173_j58841051955354_2_alg».proof.Proof.FrIMain
import proofs.«145173_j58841051955354_2_alg».proof.Proof.KVal
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.KVal

section

variable (V : (c : Dev nD) → (b : Ref sig .tc) → Buf (Elt F) ((c : Thread nD τ).loc b))

/-- The printed index maps, decided over the grid: the three gathered arrays' windows walk the row blocks in order; the
    weight windows and the output window stay at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem iblk1_0 (c : Dev nD) (t : Fin cfg1.N) :
    iblk1 V c 0 t = rows1 (V c main_v14) ⟨t.val, lt_of_lt_of_eq t.isLt N_1⟩ := by
  have e := idx1 t
  funext y
  show V c main_v14 (((cfg1.win 0).blk t).view.emb y) = V c main_v14 _
  refine congrArg (V c main_v14) ?_
  funext a; apply Fin.ext
  match a with
  | ⟨0, _⟩ => show win1_0.index t (0 : Fin 2) * 2048 + 1 * (y 0).val = t.val * 2048 + (y 0).val; omega
  | ⟨1, _⟩ => show win1_0.index t (1 : Fin 2) * 64 + 1 * (y 1).val = (y 1).val; omega

theorem iblk1_1 (c : Dev nD) (t : Fin cfg1.N) :
    iblk1 V c 1 t = rows1 (V c main_v21) ⟨t.val, lt_of_lt_of_eq t.isLt N_1⟩ := by
  have e := idx1 t
  funext y
  show V c main_v21 (((cfg1.win 1).blk t).view.emb y) = V c main_v21 _
  refine congrArg (V c main_v21) ?_
  funext a; apply Fin.ext
  match a with
  | ⟨0, _⟩ => show win1_1.index t (0 : Fin 2) * 2048 + 1 * (y 0).val = t.val * 2048 + (y 0).val; omega
  | ⟨1, _⟩ => show win1_1.index t (1 : Fin 2) * 64 + 1 * (y 1).val = (y 1).val; omega

theorem iblk1_2 (c : Dev nD) (t : Fin cfg1.N) :
    iblk1 V c 2 t = rows1 (V c main_v28) ⟨t.val, lt_of_lt_of_eq t.isLt N_1⟩ := by
  have e := idx1 t
  funext y
  show V c main_v28 (((cfg1.win 2).blk t).view.emb y) = V c main_v28 _
  refine congrArg (V c main_v28) ?_
  funext a; apply Fin.ext
  match a with
  | ⟨0, _⟩ => show win1_2.index t (0 : Fin 2) * 2048 + 1 * (y 0).val = t.val * 2048 + (y 0).val; omega
  | ⟨1, _⟩ => show win1_2.index t (1 : Fin 2) * 64 + 1 * (y 1).val = (y 1).val; omega

theorem iblk1_3 (c : Dev nD) (t : Fin cfg1.N) : iblk1 V c 3 t = V c main_arg6 := by
  have e := idx1 t
  funext y
  show V c main_arg6 (((cfg1.win 3).blk t).view.emb y) = V c main_arg6 y
  refine congrArg (V c main_arg6) ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem iblk1_4 (c : Dev nD) (t : Fin cfg1.N) : iblk1 V c 4 t = V c main_v29 := by
  have e := idx1 t
  funext y
  show V c main_v29 (((cfg1.win 4).blk t).view.emb y) = V c main_v29 y
  refine congrArg (V c main_v29) ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

theorem iblk1_5 (c : Dev nD) (t : Fin cfg1.N) : iblk1 V c 5 t = V c main_arg8 := by
  have e := idx1 t
  funext y
  show V c main_arg8 (((cfg1.win 5).blk t).view.emb y) = V c main_arg8 y
  refine congrArg (V c main_arg8) ?_
  funext a; apply Fin.ext
  match a with
  | ⟨0, _⟩ => show win1_5.index t (0 : Fin 2) * 64 + 1 * (y 0).val = (y 0).val; omega
  | ⟨1, _⟩ => show win1_5.index t (1 : Fin 2) * 1 + 1 * (y 1).val = (y 1).val; omega

theorem iblk1_6 (c : Dev nD) (t : Fin cfg1.N) : iblk1 V c 6 t = V c main_v30 := by
  have e := idx1 t
  funext y
  show V c main_v30 (((cfg1.win 6).blk t).view.emb y) = V c main_v30 y
  refine congrArg (V c main_v30) ?_
  funext a; apply Fin.ext
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- The accumulator after each point is the pure recursion over the row blocks. -/
theorem scr1_eq (c : Dev nD) : ∀ (n : ℕ) (hn : n < cfg1.N),
    scr1 V c n hn = acc1 (V c main_v14) (V c main_v21) (V c main_v28) (V c main_arg6) (V c main_v29) (V c main_arg8) (V c main_v30) n (lt_of_lt_of_eq hn N_1)
  | 0, hn => by
    unfold scr1 acc1
    rw [iblk1_0, iblk1_1, iblk1_2, iblk1_3, iblk1_4, iblk1_5, iblk1_6]
    rfl
  | n + 1, hn => by
    unfold scr1 acc1
    rw [iblk1_0 V c ⟨n + 1, hn⟩, iblk1_1 V c ⟨n + 1, hn⟩, iblk1_2 V c ⟨n + 1, hn⟩, iblk1_3 V c ⟨n + 1, hn⟩, iblk1_4 V c ⟨n + 1, hn⟩,
      iblk1_5 V c ⟨n + 1, hn⟩, iblk1_6 V c ⟨n + 1, hn⟩, scr1_eq c n (Nat.lt_of_succ_lt hn)]
    rfl

/-- What the writing-back point (the last) writes back is the pure result. -/
theorem flushed1_eq (c : Dev nD) (t : Fin cfg1.N) (hf : (cfg1.win 7).flush t = true) :
    (dat1 V c).flushed 7 t = ((cfg1.win 7).blk t).view.read (Elt F) (decOut (V c main_v14) (V c main_v21) (V c main_v28) (V c main_arg6) (V c main_v29) (V c main_arg8) (V c main_v30)) := by
  have h7 : t.val % 8 = 7 := (flush1_7 t).mp hf
  have hN : t.val < 8 := lt_of_lt_of_eq t.isLt N_1
  have ht : t.val = 7 := by omega
  have e := idx1 t
  show (cfg1.win 7).cut (grid1.coords t) ((dat1 V c).after 7 t) = _
  rw [after1_7, scr1_eq]
  funext j
  show acc1 (V c main_v14) (V c main_v21) (V c main_v28) (V c main_arg6) (V c main_v29) (V c main_arg8) (V c main_v30) t.val _ j = decOut (V c main_v14) (V c main_v21) (V c main_v28) (V c main_arg6) (V c main_v29) (V c main_arg8) (V c main_v30) (((cfg1.win 7).blk t).view.emb j)
  have hj : ((cfg1.win 7).blk t).view.emb j = j := by
    funext a; apply Fin.ext
    match a with
    | ⟨0, _⟩ => show win1_7.index t (0 : Fin 2) * 1 + 1 * (j 0).val = (j 0).val; omega
    | ⟨1, _⟩ => show win1_7.index t (1 : Fin 2) * 1 + 1 * (j 1).val = (j 1).val; omega
  rw [hj]
  unfold decOut
  simp only [ht]

theorem cover1 (i : S1x1.Idx) : ∃ t : Fin cfg1.N, (cfg1.win 7).flush t = true ∧ i ∈ ((cfg1.win 7).blk t).view.set := by
  have h0 : (i 0).val < 1 := (i 0).isLt
  have h1 : (i 1).val < 1 := (i 1).isLt
  obtain ⟨t0, ht0⟩ : ∃ t0 : Fin cfg1.N, t0.val = 7 := ⟨⟨7, by rw [show cfg1.N = 8 from N_1]; omega⟩, rfl⟩
  refine ⟨t0, (flush1_7 t0).mpr (by omega), ?_⟩
  have e := idx1 t0
  show i ∈ ((View.whole main_v31).slice (win1_7.rect t0)).set
  rw [View.set_slice_whole, Rect.mem_set_unit]
  intro a
  match a with
  | ⟨0, _⟩ => show win1_7.index t0 (0 : Fin 2) * 1 ≤ (i 0).val ∧ (i 0).val < win1_7.index t0 (0 : Fin 2) * 1 + 1; omega
  | ⟨1, _⟩ => show win1_7.index t0 (1 : Fin 2) * 1 ≤ (i 1).val ∧ (i 1).val < win1_7.index t0 (1 : Fin 2) * 1 + 1; omega

/-- The output array after the region: the pure result. -/
theorem final1 (c : Dev nD) : (dat1 V c).arrAt 7 cfg1.N = decOut (V c main_v14) (V c main_v21) (V c main_v28) (V c main_arg6) (V c main_v29) (V c main_arg8) (V c main_v30) :=
  (dat1 V c).arrAt_eq_of_cover 7 _ (fun t hf => flushed1_eq V c t hf) cover1

end

end Cert.KernelIdeal.Fr

end
-- ==== Proof.FrIFinal.lean ====
/-
  The contents the two regions leave, named in the generated host-side fold's terms: the first region's output array is
  the pure KL result of the two re-shaped arrays, the second's the pure decode result of its seven operand arrays.
-/
import proofs.«145173_j58841051955354_2_alg».proof.Proof.FrIOuts
import proofs.«145173_j58841051955354_2_alg».proof.Proof.FrIVal0
import proofs.«145173_j58841051955354_2_alg».proof.Proof.FrIVal1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.KVal

variable (m : (ℓ : Loc nD τ sig) → Buf (Elt F) ℓ)

theorem outs_kl (c : Dev nD) : outsF m 2 main_v2 c = klOut (V1 m c main_v0) (V1 m c main_v1) :=
  (outsF_2 m c).trans ((show Xc m c = (dat0 (Ub m) c).arrAt 2 cfg0.N from rfl).trans (final0 (Ub m) c))

theorem outs_dec (c : Dev nD) :
    outsF m 4 main_v31 c = decOut (V3 m (outsF m) c main_v14) (V3 m (outsF m) c main_v21) (V3 m (outsF m) c main_v28)
      (V3 m (outsF m) c main_arg6) (V3 m (outsF m) c main_v29) (V3 m (outsF m) c main_arg8) (V3 m (outsF m) c main_v30) := by
  rw [V3_eq]
  exact (outsF_4 m c).trans ((show Xe m c = (dat1 (Ud m) c).arrAt 7 cfg1.N from rfl).trans (final1 (Ud m) c))

end Cert.KernelIdeal.Fr

end
-- ==== Proof.BridgeDefs.lean ====
/-
  Names shared by the parts of the value bridge: the kernel program's argument arrays as its launch memory holds them,
  and two stages of the reference read at those arrays — its per-example loss (a 16384×1 array) and its mean KL scalar.
-/
import proofs.«145173_j58841051955354_2_alg».proof.Defs
import proofs.«145173_j58841051955354_2_alg».proof.Proof.Gen.KernelIdeal.Regions
import proofs.«145173_j58841051955354_2_alg».proof.Proof.Gen.ReferenceIdeal.Read
import proofs.«145173_j58841051955354_2_alg».proof.Proof.KVal

noncomputable section

namespace Cert.Bridge

open Idealize.ShloMosaic Idealize.ShloMosaic.TcCoe Idealize.SL.Sem Idealize.ShloMosaic.ValueIdx
open Cert.KernelIdeal Cert.KernelIdeal.Gen

variable [hK : Cert.KernelIdeal.Facts] [hR : Cert.ReferenceIdeal.Facts]

/-- The kernel program's argument array `r` on core `c`, as the launch memory holds it. -/
abbrev arg (m : (ℓ : Loc nD τ sig) → Buf (Elt Ideal) ℓ) (c : Dev nD) (r : Ref sig .tc) :
    Buf (Elt Ideal) ((c.tc : Thread nD τ).loc r) :=
  m ((c.tc : Thread nD τ).loc r)

/-- The reference's per-example loss (a 16384×1 array) at the kernel program's arguments. -/
abbrev refLoss (m : (ℓ : Loc nD τ sig) → Buf (Elt Ideal) ℓ) (c : Dev nD) : FVec Ideal Cert.ReferenceIdeal.S16384x1 .f32 :=
  Cert.ReferenceIdeal.Read.val_main_v61 (F := Ideal) (arg m c main_arg0) (arg m c main_arg3) (arg m c main_arg4)
    (arg m c main_arg5) (arg m c main_arg6) (arg m c main_arg7) (arg m c main_arg8) (arg m c main_arg9)

/-- The reference's mean KL scalar at the kernel program's arguments. -/
abbrev refKL (m : (ℓ : Loc nD τ sig) → Buf (Elt Ideal) ℓ) (c : Dev nD) : FVec Ideal Cert.ReferenceIdeal.S_ .f32 :=
  Cert.ReferenceIdeal.Read.val_main_v75 (F := Ideal) (arg m c main_arg1) (arg m c main_arg2)

end Cert.Bridge

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.AlgKL.lean ====
/-
  Algebra on the extended reals and on finite index sets that the value bridge uses; nothing here mentions a program.

  * A negative real factor distributes over a finite sum of extended reals none of which is +∞
    (every partial sum then stays below +∞, and c·(a + b) = c·a + c·b is checked case by case).
  * A sum over the 64000000 positions of a 1000000×64 array read in row-major order, grouped
    as 2 spans × 25 blocks × 128 lanes × 10000 rows of its 500000×128 re-shaping, is the sum over rows and columns.
  * With K an extended real other than −∞ and reals ℓ_b:  K + (Σ_b ℓ_b)/n = (0 + Σ_b (K + ℓ_b))/n.
-/
import Mathlib.Algebra.BigOperators.Fin
import Mathlib.Data.EReal.Inv
import proofs.«145173_j58841051955354_2_alg».proof.Proof.LibFinGroups

open scoped BigOperators

namespace Cert.Bridge.Alg

open Cert.Lib.FinGroups

/-- A negative real factor distributes over a sum of two extended reals below +∞. -/
theorem neg_coe_mul_add {c : ℝ} (hc : c < 0) {a b : EReal} (ha : a ≠ ⊤) (hb : b ≠ ⊤) :
    (c : EReal) * (a + b) = (c : EReal) * a + (c : EReal) * b := by
  induction a using EReal.rec with
  | bot =>
    rw [EReal.bot_add, EReal.coe_mul_bot_of_neg hc]
    induction b using EReal.rec with
    | bot => rw [EReal.coe_mul_bot_of_neg hc]; rfl
    | coe b => rw [← EReal.coe_mul, EReal.top_add_coe]
    | top => exact absurd rfl hb
  | coe a =>
    induction b using EReal.rec with
    | bot => rw [EReal.add_bot, EReal.coe_mul_bot_of_neg hc, ← EReal.coe_mul, EReal.coe_add_top]
    | coe b => rw [← EReal.coe_add, ← EReal.coe_mul, ← EReal.coe_mul, ← EReal.coe_mul, ← EReal.coe_add, mul_add]
    | top => exact absurd rfl hb
  | top => exact absurd rfl ha

/-- A finite sum of extended reals below +∞ is below +∞. -/
theorem sum_ne_top {ι : Type*} (s : Finset ι) (f : ι → EReal) (hf : ∀ i ∈ s, f i ≠ ⊤) : ∑ i ∈ s, f i ≠ ⊤ := by
  classical
  induction s using Finset.induction_on with
  | empty => simp
  | insert a s ha ih =>
    rw [Finset.sum_insert ha]
    exact EReal.add_ne_top (hf a (Finset.mem_insert_self a s)) (ih fun i hi => hf i (Finset.mem_insert_of_mem hi))

/-- A negative real factor moves inside a finite sum of extended reals below +∞. -/
theorem neg_coe_mul_sum {ι : Type*} {c : ℝ} (hc : c < 0) (s : Finset ι) (f : ι → EReal) (hf : ∀ i ∈ s, f i ≠ ⊤) :
    (c : EReal) * ∑ i ∈ s, f i = ∑ i ∈ s, (c : EReal) * f i := by
  classical
  induction s using Finset.induction_on with
  | empty => simp
  | insert a s ha ih =>
    rw [Finset.sum_insert ha, Finset.sum_insert ha,
      neg_coe_mul_add hc (hf a (Finset.mem_insert_self a s)) (sum_ne_top s f fun i hi => hf i (Finset.mem_insert_of_mem hi)),
      ih fun i hi => hf i (Finset.mem_insert_of_mem hi)]

/-- A sum over a count of consecutive naturals does not depend on how the count is spelt. -/
theorem sum_fin_cast {M : Type*} [AddCommMonoid M] {a b : ℕ} (h : a = b) (f : ℕ → M) :
    ∑ p : Fin a, f p.val = ∑ p : Fin b, f p.val := by
  subst h; rfl

/-- The positions of a 1000000×64 array in row-major order, walked as the 500000×128 re-shaping's 2 spans of 25 blocks of
    10000 rows of 128 lanes (lanes outside rows inside each block), against rows and columns of the array itself. -/
theorem regroup {M : Type*} [AddCommMonoid M] (T : ℕ → M) :
    ∑ k : Fin 2, ∑ i ∈ Finset.range 25, ∑ l : Fin 128, ∑ r : Fin 10000,
        T (128 * ((25 * k.val + i) * 10000 + r.val) + l.val)
      = ∑ n : Fin 1000000, ∑ d : Fin 64, T (64 * n.val + d.val) := by
  have e1 : ∀ t : ℕ, ∑ l : Fin 128, ∑ r : Fin 10000, T (128 * (t * 10000 + r.val) + l.val)
      = ∑ q : Fin (10000 * 128), T (1280000 * t + q.val) := by
    intro t
    rw [Finset.sum_comm, sum_fin_groups 10000 128 (fun q => T (1280000 * t + q))]
    refine Finset.sum_congr rfl fun r _ => Finset.sum_congr rfl fun l _ => congrArg T ?_
    omega
  have e2 : ∀ k : ℕ, ∑ i ∈ Finset.range 25, ∑ q : Fin (10000 * 128), T (1280000 * (25 * k + i) + q.val)
      = ∑ u : Fin (25 * (10000 * 128)), T (32000000 * k + u.val) := by
    intro k
    rw [Finset.sum_range (fun i => ∑ q : Fin (10000 * 128), T (1280000 * (25 * k + i) + q.val)),
      sum_fin_groups 25 (10000 * 128) (fun u => T (32000000 * k + u))]
    refine Finset.sum_congr rfl fun i _ => Finset.sum_congr rfl fun q _ => congrArg T ?_
    omega
  have e3 : ∑ k : Fin 2, ∑ u : Fin (25 * (10000 * 128)), T (32000000 * k.val + u.val)
      = ∑ p : Fin (2 * (25 * (10000 * 128))), T p.val := by
    rw [sum_fin_groups 2 (25 * (10000 * 128)) T]
  have e4 : ∑ n : Fin 1000000, ∑ d : Fin 64, T (64 * n.val + d.val) = ∑ p : Fin (1000000 * 64), T p.val := by
    rw [sum_fin_groups 1000000 64 T]
  rw [e4, ← sum_fin_cast (show 2 * (25 * (10000 * 128)) = 1000000 * 64 by norm_num) T, ← e3]
  refine Finset.sum_congr rfl fun k _ => ?_
  rw [← e2]
  refine Finset.sum_congr rfl fun i _ => ?_
  rw [← e1]

/-- The mean of K + ℓ_b over n ≥ 1 examples is K plus the mean of the ℓ_b, for K above −∞ and real ℓ_b;
    division by the real n written as multiplication by its inverse. -/
theorem add_mean {n : ℕ} (hn : 0 < n) (K : EReal) (hK : K ≠ ⊥) (ℓ : Fin n → ℝ) :
    K + (∑ b : Fin n, (ℓ b : EReal)) * (((1 / (n : ℝ)) : ℝ) : EReal)
      = (0 + ∑ b : Fin n, (K + (ℓ b : EReal))) * (((1 / (n : ℝ)) : ℝ) : EReal) := by
  have hn' : (n : ℝ) ≠ 0 := Nat.cast_ne_zero.mpr (Nat.pos_iff_ne_zero.mp hn)
  have hsum : ∀ s : Finset (Fin n), ∑ b ∈ s, (ℓ b : EReal) = ((∑ b ∈ s, ℓ b : ℝ) : EReal) := by
    intro s
    classical
    induction s using Finset.induction_on with
    | empty => simp
    | insert a s ha ih => rw [Finset.sum_insert ha, Finset.sum_insert ha, ih, EReal.coe_add]
  induction K using EReal.rec with
  | bot => exact absurd rfl hK
  | coe k =>
    have h2 : ∑ b : Fin n, ((k : EReal) + (ℓ b : EReal)) = ((∑ b : Fin n, (k + ℓ b) : ℝ) : EReal) := by
      have : ∀ s : Finset (Fin n), ∑ b ∈ s, ((k : EReal) + (ℓ b : EReal)) = ((∑ b ∈ s, (k + ℓ b) : ℝ) : EReal) := by
        intro s
        classical
        induction s using Finset.induction_on with
        | empty => simp
        | insert a s ha ih => rw [Finset.sum_insert ha, Finset.sum_insert ha, ih, EReal.coe_add, EReal.coe_add]
      exact this _
    rw [hsum, h2, zero_add, ← EReal.coe_mul, ← EReal.coe_mul, ← EReal.coe_add]
    congr 1
    rw [Finset.sum_add_distrib, Finset.sum_const, Finset.card_univ, Fintype.card_fin, nsmul_eq_mul, add_mul]
    field_simp
  | top =>
    have h2 : ∑ b : Fin n, ((⊤ : EReal) + (ℓ b : EReal)) = ⊤ := by
      have hne : (Finset.univ : Finset (Fin n)).Nonempty := ⟨⟨0, hn⟩, Finset.mem_univ _⟩
      obtain ⟨b0, _⟩ := hne
      rw [← Finset.add_sum_erase _ _ (Finset.mem_univ b0), EReal.top_add_coe]
      refine EReal.top_add_of_ne_bot ?_
      have : ∀ s : Finset (Fin n), ∑ b ∈ s, ((⊤ : EReal) + (ℓ b : EReal)) ≠ ⊥ := by
        intro s
        classical
        induction s using Finset.induction_on with
        | empty => simp
        | insert a s ha ih =>
          rw [Finset.sum_insert ha, EReal.top_add_coe]
          rw [EReal.top_add_of_ne_bot ih]; exact top_ne_bot
      exact this _
    have hpos : (0 : ℝ) < 1 / (n : ℝ) := by positivity
    rw [hsum, h2, zero_add, ← EReal.coe_mul, EReal.top_add_coe, EReal.top_mul_coe_of_pos hpos]

end Cert.Bridge.Alg
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.ValKLTerm.lean ====
/-
  The KL sum's term and the arithmetic around it, free of any program.

  * Three words of the programs as the reals they encode: 1, 2 and −1/2.
  * term(μ, σ) = ((1 + 2·log σ) − μ·μ) − σ·σ is never +∞ at real μ, σ (it is −∞ when σ ≤ 0, as log σ is).
  * A 1000000×64 array read by row-major position p (entry (p / 64, p % 64)); its 500000×128 re-shaping reads
    position 128·row + lane.
  * The scalar identity: −1/2 times the sum of the terms in the kernel's order is the sum over the rows of −1/2 times
    each row's sum.
-/
import Idealize.ShloMosaic.Lib.Pipeline.Value
import Idealize.ShloMosaic.Lib.ValueIdx
import Idealize.ShloMosaic.PureOps.Ideal
import Idealize.ShloMosaic.PureOps.Ideal.Laws
import proofs.«145173_j58841051955354_2_alg».proof.Proof.AlgKL
import proofs.«145173_j58841051955354_2_alg».proof.Proof.LibIdealSums

noncomputable section

open scoped BigOperators

namespace Cert.Bridge.KL

open Idealize.ShloMosaic Idealize.ShloMosaic.ValueIdx Cert.Lib.IdealSums

theorem word_one : Ideal.ofBits .f32 0x3F800000#32 = ((1 : ℝ) : EReal) := by
  simp [Ideal.ofBits, Ideal.ieee, -EReal.coe_mul] <;> norm_num

theorem word_two : Ideal.ofBits .f32 0x40000000#32 = ((2 : ℝ) : EReal) := by
  simp [Ideal.ofBits, Ideal.ieee, -EReal.coe_mul] <;> norm_num

theorem word_neg_half : Ideal.ofBits .f32 0xBF000000#32 = ((-(1 / 2) : ℝ) : EReal) := by
  simp [Ideal.ofBits, Ideal.ieee, -EReal.coe_mul] <;> norm_num

/-- One element's term of the KL sum: ((1 + 2·log σ) − μ·μ) − σ·σ, the literals as the words the programs carry. -/
def term (μ σ : EReal) : EReal :=
  ((Ideal.ofBits .f32 0x3F800000#32 + Ideal.ofBits .f32 0x40000000#32 * Ideal.log σ) - μ * μ) - σ * σ

/-- At real arguments the term is a real or −∞, never +∞. -/
theorem term_ne_top {μ σ : EReal} (hμ : IsReal μ) (hσ : IsReal σ) : term μ σ ≠ ⊤ := by
  obtain ⟨u, rfl⟩ := hμ
  obtain ⟨s, rfl⟩ := hσ
  unfold term
  rw [word_one, word_two, Ideal.log_coe]
  split_ifs with h
  · rw [EReal.coe_mul_bot_of_pos (by norm_num : (0 : ℝ) < 2), EReal.add_bot, ← EReal.coe_mul, ← EReal.coe_mul,
      EReal.bot_sub, EReal.bot_sub]
    exact bot_ne_top
  · rw [← EReal.coe_mul, ← EReal.coe_add, ← EReal.coe_mul, ← EReal.coe_sub, ← EReal.coe_mul, ← EReal.coe_sub]
    exact EReal.coe_ne_top _

/-- A 1000000×64 array read by row-major position; zero past the end. -/
def flat (a : (⟨2, ![1000000, 64]⟩ : Shape).Idx → EReal) (p : ℕ) : EReal :=
  if h : p < 64000000 then
    a (ix2 (⟨p / 64, by omega⟩ : Fin 1000000) (⟨p % 64, Nat.mod_lt _ (by norm_num)⟩ : Fin 64))
  else 0

theorem flat_isReal (a : (⟨2, ![1000000, 64]⟩ : Shape).Idx → EReal) (ha : ∀ i, IsReal (a i)) (p : ℕ) :
    IsReal (flat a p) := by
  unfold flat
  split_ifs
  · exact ha _
  · exact isReal_zero

/-- Entry (n, d) sits at position 64·n + d. -/
theorem flat_rowcol (a : (⟨2, ![1000000, 64]⟩ : Shape).Idx → EReal) (n : Fin 1000000) (d : Fin 64) :
    a (ix2 n d) = flat a (64 * n.val + d.val) := by
  unfold flat
  rw [dif_pos (by omega)]
  refine congrArg a (congrArg₂ ix2 (Fin.ext ?_) (Fin.ext ?_))
  · show n.val = (64 * n.val + d.val) / 64
    omega
  · show d.val = (64 * n.val + d.val) % 64
    omega

/-- Entry (row, lane) of the 500000×128 re-shaping sits at position 128·row + lane. -/
theorem flat_reshaped (a : (⟨2, ![1000000, 64]⟩ : Shape).Idx → EReal)
    (h : (⟨2, ![1000000, 64]⟩ : Shape).ShapeCasts ⟨2, ![500000, 128]⟩) (row : Fin 500000) (l : Fin 128) :
    shapeCast ⟨2, ![500000, 128]⟩ a h (ix2 row l) = flat a (128 * row.val + l.val) := by
  unfold flat
  rw [dif_pos (by omega)]
  refine shapeCast_apply a h _ _ ?_
  rw [Shape.rowMajor_val_two, Shape.rowMajor_val_two]
  show (128 * row.val + l.val) / 64 * 64 + (128 * row.val + l.val) % 64 = row.val * 128 + l.val
  omega

/-- −1/2 times (0 + the terms summed in the kernel's order: 2 spans, their unit axes, 25 blocks, 128 lanes, 10000 rows)
    is 0 + the sum over the 1000000 rows of −1/2 times (0 + the row's 64 terms), when no term is +∞. -/
theorem kl_core (T : ℕ → EReal) (hT : ∀ p, T p ≠ ⊤) :
    Ideal.ofBits .f32 0xBF000000#32 * (Ideal.ofBits .f32 0x00000000#32
        + ∑ k : Fin 2, ∑ _a : Fin 1, ∑ _b : Fin 1, ∑ j ∈ Finset.range 25, ∑ l : Fin 128, ∑ r : Fin 10000,
            T (128 * ((25 * k.val + j) * 10000 + r.val) + l.val))
      = Ideal.ofBits .f32 0x00000000#32
        + ∑ n : Fin 1000000, Ideal.ofBits .f32 0xBF000000#32 * (Ideal.ofBits .f32 0x00000000#32
            + ∑ d : Fin 64, T (64 * n.val + d.val)) := by
  simp only [Fin.sum_univ_one]
  rw [Alg.regroup T, Ideal.ofBits_zero_f32, word_neg_half]
  simp only [zero_add]
  exact Alg.neg_coe_mul_sum (by norm_num) Finset.univ _ (fun n _ => Alg.sum_ne_top _ _ fun d _ => hT _)

end Cert.Bridge.KL

end
-- ==== Proof.ValKLPay.lean ====
/-
  The first kernel's arithmetic at the ideal values, read at its one index.

  One block's contribution is the sum over its 128 lanes of the sum down its 10000 rows of
  term(μ, σ) = ((1 + 2·log σ) − μ·μ) − σ·σ; the accumulator adds it to what it held; the reset value is 0.
  Hence the accumulator after block 25·k + i holds the sum of the contributions of blocks 25·k … 25·k + i,
  and entry k of the 2×1×1 result is the sum over the 25 blocks of span k.
-/
import proofs.«145173_j58841051955354_2_alg».proof.Proof.KVal
import proofs.«145173_j58841051955354_2_alg».proof.Proof.ValKLTerm
import Idealize.ShloMosaic.Lib.Pipeline.Value
import Idealize.ShloMosaic.Lib.ValueLayout
import Idealize.ShloMosaic.PureOps.Ideal.Laws

noncomputable section

open scoped BigOperators

namespace Cert.Bridge.KL

open Idealize.ShloMosaic Idealize.ShloMosaic.ValueIdx Cert.KernelIdeal Cert.KernelIdeal.Gen Cert.KernelIdeal.KVal

/-- The sum down the rows of a 10000×128 array, at lane l. -/
theorem rowsum_apply (v : FVec Ideal S10000x128 .f32) (hφ : FKind.Formats .f32)
    (hacc : (0x00000000#32 : BitVec 32) = 0x00000000#32) (h : S10000x128.Reduces [0] S128) (l : Fin 128) :
    multiReduction (F := Ideal) .add [0] S128 v 0x00000000#32 h hφ hacc (ix1 l) = ∑ r : Fin 10000, v (ix2 r l) := by
  refine (Ideal.multiReduction_add_single v 0x00000000#32 h hφ hacc (ix1 l)).trans ?_
  refine Finset.sum_congr rfl fun r _ => congrArg v (funext fun a => Fin.ext ?_)
  match a with
  | ⟨0, _⟩ => rfl
  | ⟨1, _⟩ => rfl

/-- The sum along the lanes of a 1×128 array. -/
theorem lanesum_apply (v : FVec Ideal S1x128 .f32) (hφ : FKind.Formats .f32)
    (hacc : (0x00000000#32 : BitVec 32) = 0x00000000#32) (h : S1x128.Reduces [1] S1) :
    multiReduction (F := Ideal) .add [1] S1 v 0x00000000#32 h hφ hacc (ix1 (0 : Fin 1)) = ∑ l : Fin 128, v (ix2 (0 : Fin 1) l) := by
  refine (Ideal.multiReduction_add_single v 0x00000000#32 h hφ hacc (ix1 (0 : Fin 1))).trans ?_
  refine Finset.sum_congr rfl fun r _ => congrArg v (funext fun a => Fin.ext ?_)
  match a with
  | ⟨0, _⟩ => rfl
  | ⟨1, _⟩ => rfl

/-- The accumulator's reset value is zero. -/
theorem pay1_apply : k0_pay1 (F := Ideal) (ix2 (0 : Fin 1) (0 : Fin 1)) = 0 := by
  unfold k0_pay1
  simp only [shapeCast_self]
  exact Ideal.ofBits_zero_f32

/-- One block: the accumulator plus the block's sum over lanes and rows of the terms. -/
theorem pay2_apply (v3 v5 : Vec Ideal S10000x128 .f32) (v20 : Vec Ideal S1x1 .f32) :
    k0_pay2 v3 v5 v20 (ix2 (0 : Fin 1) (0 : Fin 1))
      = v20 (ix2 (0 : Fin 1) (0 : Fin 1)) + ∑ l : Fin 128, ∑ r : Fin 10000, term (v3 (ix2 r l)) (v5 (ix2 r l)) := by
  unfold k0_pay2
  simp only [shapeCast_self]
  rw [addf_apply]
  refine congrArg (v20 (ix2 (0 : Fin 1) (0 : Fin 1)) + ·) ?_
  refine (shapeCast_a_1a_apply _ _ (0 : Fin 1) (0 : Fin 1)).trans ?_
  refine (lanesum_apply _ _ _ _).trans ?_
  refine Finset.sum_congr rfl fun l _ => ?_
  refine (shapeCast_a_1a_apply _ _ (0 : Fin 1) l).trans ?_
  refine (rowsum_apply _ _ _ _ l).trans ?_
  rfl

/-- The 1×1 accumulator re-shaped to 1×1×1 keeps its entry. -/
theorem pay3_apply (v : Vec Ideal S1x1 .f32) :
    k0_pay3 v (ix3 (0 : Fin 1) (0 : Fin 1) (0 : Fin 1)) = v (ix2 (0 : Fin 1) (0 : Fin 1)) := by
  unfold k0_pay3
  exact shapeCast_ab_1ab_apply v _ (0 : Fin 1) (0 : Fin 1) (0 : Fin 1)

variable (x0 x1 : Vec Ideal S500000x128 .f32)

/-- The accumulator after block n, uniformly in n: the block's payload over the reset value or the previous contents. -/
theorem acc0_eq (n : ℕ) (h : n < 50) :
    acc0 x0 x1 n h = k0_pay2 (rows0 x0 ⟨n, h⟩) (rows0 x1 ⟨n, h⟩)
      (if n % 25 = 0 then k0_pay1 (F := Ideal) else acc0 x0 x1 (n - 1) (by omega)) := by
  cases n with
  | zero => rfl
  | succ n =>
    rw [acc0]
    split_ifs <;> rfl

theorem acc0_congr {n n' : ℕ} (e : n = n') (h : n < 50) (h' : n' < 50) : acc0 x0 x1 n h = acc0 x0 x1 n' h' := by
  subst e; rfl

/-- Block n's contribution: over its lanes and rows, the term at the block's elements. -/
def blockSum (n : ℕ) (h : n < 50) : EReal :=
  ∑ l : Fin 128, ∑ r : Fin 10000, term (rows0 x0 ⟨n, h⟩ (ix2 r l)) (rows0 x1 ⟨n, h⟩ (ix2 r l))

theorem acc0_apply (n : ℕ) (h : n < 50) :
    acc0 x0 x1 n h (ix2 (0 : Fin 1) (0 : Fin 1))
      = (if n % 25 = 0 then 0 else acc0 x0 x1 (n - 1) (by omega) (ix2 (0 : Fin 1) (0 : Fin 1))) + blockSum x0 x1 n h := by
  rw [acc0_eq, pay2_apply]
  refine congrArg (· + _) ?_
  split_ifs
  · exact pay1_apply
  · rfl

/-- The accumulator after block 25·k + i holds the contributions of blocks 25·k … 25·k + i. -/
theorem acc0_span (B : ℕ → EReal) (hB : ∀ n (h : n < 50), blockSum x0 x1 n h = B n) (k : ℕ) :
    ∀ (i : ℕ) (hi : i < 25) (h : 25 * k + i < 50),
      acc0 x0 x1 (25 * k + i) h (ix2 (0 : Fin 1) (0 : Fin 1)) = ∑ j ∈ Finset.range (i + 1), B (25 * k + j) := by
  intro i
  induction i with
  | zero =>
    intro hi h
    rw [acc0_apply, if_pos (by omega), zero_add, hB, Finset.sum_range_one]
  | succ i ih =>
    intro hi h
    rw [acc0_apply, if_neg (by omega), hB, Finset.sum_range_succ _ (i + 1),
      acc0_congr x0 x1 (show 25 * k + (i + 1) - 1 = 25 * k + i by omega) _ (by omega), ih (by omega) (by omega)]

/-- Entry k of the 2×1×1 result: the contributions of the 25 blocks of span k. -/
theorem klOut_apply (B : ℕ → EReal) (hB : ∀ n (h : n < 50), blockSum x0 x1 n h = B n) (k : Fin 2) (a b : Fin 1) :
    klOut x0 x1 (ix3 k a b) = ∑ j ∈ Finset.range 25, B (25 * k.val + j) := by
  unfold klOut
  rw [pay3_apply]
  exact acc0_span x0 x1 B hB k.val 24 (by omega) _

end Cert.Bridge.KL

end
-- ==== Proof.ValKLFin.lean ====
/-
  The input check read back: when the check of ten argument arrays answers "all finite", every entry of the second and
  third arrays (the means and the standard deviations) is a real number. The check is a conjunction of one
  "all entries have |x| < +∞" per float array; each conjunct gives its array's entries one by one.
-/
import proofs.«145173_j58841051955354_2_alg».proof.Pre_finite_inputs
import proofs.«145173_j58841051955354_2_alg».proof.Proof.LibIdealSums
import Idealize.ShloMosaic.Lib.ReduceAll
import Idealize.ShloMosaic.Lib.Affine
import Idealize.ShloMosaic.Lib.ValueIdx
import Idealize.ShloMosaic.Lib.Pipeline.Value

noncomputable section

namespace Cert.Bridge.KL

open Idealize.ShloMosaic Cert.Pre_finite_inputs Cert.Lib.IdealSums

variable [hP : Cert.Pre_finite_inputs.Facts]

theorem finite_mean_std (a0 a1 a2 : FVec Ideal S1000000x64 .f32) (a3 a4 a5 : IVec S16384 32)
    (a6 : FVec Ideal S64x64 .f32) (a7 : FVec Ideal S64 .f32) (a8 : FVec Ideal S64x1 .f32) (a9 : FVec Ideal S1 .f32)
    (h : Cert.Pre_finite_inputs.fn (F := Ideal) a0 a1 a2 a3 a4 a5 a6 a7 a8 a9 = fun _ => 1#1) :
    (∀ i, IsReal (a1 i)) ∧ (∀ i, IsReal (a2 i)) := by
  haveI : Subsingleton S_.Idx := ⟨fun a b => funext fun d => d.elim0⟩
  have h0 := congrFun h ValueIdx.ix0
  dsimp only [Cert.Pre_finite_inputs.fn, Cert.Pre_finite_inputs.fn_part1] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨-, h7⟩ := IntOp.andi_eq_one.1 h8
  refine ⟨fun i => ?_, fun i => ?_⟩
  · have e := Host.reduce_andi_all _ _ _ _ _ h7 i
    refine isReal_of_cmpf_abs (a1 i) ?_
    rw [← e]
    rfl
  · have e := Host.reduce_andi_all _ _ _ _ _ h12 i
    refine isReal_of_cmpf_abs (a2 i) ?_
    rw [← e]
    rfl

end Cert.Bridge.KL

end
-- ==== Proof.LibIdxSums.lean ====
/-
  Sums over the index sets of rank one and rank three, by coordinates.

  An index of a shape of rank k is the tuple of its k coordinates, so a sum over all indices is the iterated sum over
  the coordinates.  (The library's Lib/ValueIdx.lean has the rank-two case, `sum_idx2`; these are its neighbours, over
  any commutative additive monoid — the extended reals in particular, where no finiteness is needed.)
-/
import Idealize.ShloMosaic.Lib.ValueIdx

noncomputable section

open scoped BigOperators

namespace Idealize.ShloMosaic.IdxSums

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.IdxSums

end
-- ==== Proof.ValKLRef.lean ====
/-
  The reference's mean KL scalar (its stage main_v75) read over rows and columns:
  (0 + Σ_n −1/2 · (0 + Σ_d term(mean n d, std n d))) / 1e6, the literals as the words the program carries.
-/
import proofs.«145173_j58841051955354_2_alg».proof.Proof.Gen.ReferenceIdeal.Read
import proofs.«145173_j58841051955354_2_alg».proof.Proof.ValKLTerm
import proofs.«145173_j58841051955354_2_alg».proof.Proof.LibIdxSums

noncomputable section

open scoped BigOperators

namespace Cert.Bridge.KL

open Idealize.ShloMosaic Idealize.ShloMosaic.ValueIdx
open Cert.ReferenceIdeal Cert.ReferenceIdeal.Read

variable [hR : Cert.ReferenceIdeal.Facts]

/-- One element: the reference's stage main_v70 is the term. -/
theorem elem_side (a1 a2 : FVec Ideal S1000000x64 .f32) (j : S1000000x64.Idx) :
    val_main_v70 (F := Ideal) a1 a2 j = term (a1 j) (a2 j) := by
  simp only [val_main_v70_apply, val_main_v69_apply, val_main_v68_apply, val_main_v67_apply, val_main_v66_apply,
    val_main_v65_apply, val_main_v64_apply, val_main_v63_apply, val_main_v62_apply, val_main_cst_9_apply,
    val_main_cst_10_apply]
  rfl

/-- One row: −1/2 times (0 + the row's 64 terms). -/
theorem row_side (a1 a2 : FVec Ideal S1000000x64 .f32) (n : Fin 1000000) :
    val_main_v73 (F := Ideal) a1 a2 (ix1 n)
      = Ideal.ofBits .f32 0xBF000000#32 * (Ideal.ofBits .f32 0x00000000#32
          + ∑ d : Fin 64, term (a1 (ix2 n d)) (a2 (ix2 n d))) := by
  have hidx : ∀ k : Fin 64, idx_main_v71 (ix1 n) k = ix2 n k :=
    fun k => funext fun a => Fin.ext (by match a with | ⟨0, _⟩ => rfl | ⟨1, _⟩ => rfl)
  rw [val_main_v73_apply, val_main_v72_apply, val_main_v71_apply, val_main_cst_12_apply, val_main_cst_11_apply]
  show Ideal.ofBits .f32 0xBF000000#32 * (Ideal.ofBits .f32 0x00000000#32 + _) = _
  refine congrArg (fun s => _ * (_ + s)) (Finset.sum_congr rfl fun d _ => ?_)
  rw [hidx, elem_side]

/-- The scalar. -/
theorem ref_side (a1 a2 : FVec Ideal S1000000x64 .f32) (i : S_.Idx) :
    val_main_v75 (F := Ideal) a1 a2 i
      = Ideal.div (Ideal.ofBits .f32 0x00000000#32
          + ∑ n : Fin 1000000, Ideal.ofBits .f32 0xBF000000#32 * (Ideal.ofBits .f32 0x00000000#32
              + ∑ d : Fin 64, term (a1 (ix2 n d)) (a2 (ix2 n d)))) (Ideal.ofBits .f32 0x49742400#32) := by
  rw [val_main_v75_apply, val_main_v74_apply, IdxSums.sum_idx1, val_main_cst_13_apply, val_main_cst_14_apply]
  show Ideal.div (Ideal.ofBits .f32 0x00000000#32 + _) (Ideal.ofBits .f32 0x49742400#32) = _
  have hs : ∑ n : Fin 1000000, val_main_v73 (F := Ideal) a1 a2 (ix1 n)
      = ∑ n : Fin 1000000, Ideal.ofBits .f32 0xBF000000#32 * (Ideal.ofBits .f32 0x00000000#32
          + ∑ d : Fin 64, term (a1 (ix2 n d)) (a2 (ix2 n d))) :=
    Finset.sum_congr rfl fun n _ => row_side a1 a2 n
  rw [hs]

end Cert.Bridge.KL

end
-- ==== Proof.ValKL.lean ====
/-
  The mean KL scalar: the kernel program's scalar main_v5 equals the reference's stage main_v75.

  Kernel program: main_v5 = (−1/2 · (0 + the sum of the 2×1×1 result's entries)) / 1e6, and the result's entries are the
  sums over the two spans of 25 blocks of the first kernel, read off the re-shaped 500000×128 arrays. Reference:
  ((0 + Σ_n −1/2 · (0 + Σ_d term n d)) / 1e6. Both are sums of the same 64000000 terms read by row-major position;
  the means and standard deviations are reals by the input check, so no term is +∞ and −1/2 moves inside the sum.
-/
import proofs.«145173_j58841051955354_2_alg».proof.Proof.BridgeDefs
import proofs.«145173_j58841051955354_2_alg».proof.Proof.ValKLPay
import proofs.«145173_j58841051955354_2_alg».proof.Proof.ValKLFin
import proofs.«145173_j58841051955354_2_alg».proof.Proof.ValKLTerm
import proofs.«145173_j58841051955354_2_alg».proof.Proof.ValKLRef
import proofs.«145173_j58841051955354_2_alg».proof.Proof.LibIdxSums
import Idealize.ShloMosaic.Lib.StableHlo.Run
import Idealize.ShloMosaic.Lib.IdealHost

noncomputable section

open scoped BigOperators

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KernelIdeal.KVal
open Cert.Bridge.KL Cert.Lib.IdealSums

variable [hK : Cert.KernelIdeal.Facts] [hR : Cert.ReferenceIdeal.Facts] [hP : Cert.Pre_finite_inputs.Facts]

namespace KL

/-- The host's scalar after the first kernel, from the kernel's 2×1×1 result. -/
theorem kernel_side (x : FVec Ideal S2x1x1 .f32) (i : S_.Idx) :
    Host.divf (F := Ideal) (mulf (constant (F := Ideal) S_ .f32 0xBF000000#32)
        (Host.reduceAdd (F := Ideal) x (constant (F := Ideal) S_ .f32 0x00000000#32) reducesTo_S2x1x1_S_d0_1_2 h_S_))
        (constant (F := Ideal) S_ .f32 0x49742400#32) i
      = Ideal.div (Ideal.ofBits .f32 0xBF000000#32 * (Ideal.ofBits .f32 0x00000000#32
          + ∑ k : Fin 2, ∑ a : Fin 1, ∑ b : Fin 1, x (ix3 k a b))) (Ideal.ofBits .f32 0x49742400#32) := by
  rw [← IdxSums.sum_idx3]
  show Ideal.div (_ * Ideal.hostReduceAdd reducesTo_S2x1x1_S_d0_1_2 x _ i) _ = _
  rw [Ideal.hostReduceAdd_total _ (fun b => b.elim0)]
  rfl

/-- The term at row-major position p of the means and the standard deviations. -/
def posTerm (a1 a2 : (⟨2, ![1000000, 64]⟩ : Shape).Idx → EReal) (p : ℕ) : EReal := term (flat a1 p) (flat a2 p)

/-- Rows 10000·t + r of a 500000×128 array, read in the block. -/
theorem rows0_apply (x : Vec Ideal S500000x128 .f32) (t : Fin 50) (r : Fin 10000) (l : Fin 128) :
    rows0 x t (ix2 r l) = x (ix2 (⟨t.val * 10000 + r.val, by omega⟩ : Fin 500000) l) := rfl

end KL

theorem kl_eq (m : (ℓ : Loc nD τ sig) → Buf (Elt Ideal) ℓ) (hpre : Cert.Pre_KernelIdeal m)
    (outs : Cert.KernelIdeal.Gen.Outs (F := Ideal)) (c : Dev nD)
    (h2 : outs 2 main_v2 c = klOut (V1 m c main_v0) (V1 m c main_v1)) :
    V3 m outs c main_v5 = refKL m c := by
  -- the host stretches, read at the buffers
  have e5 : (V3 m outs c main_v5 : S_.Idx → EReal)
      = Host.divf (F := Ideal) (mulf (constant (F := Ideal) S_ .f32 0xBF000000#32)
          (Host.reduceAdd (F := Ideal) (V2 m outs c main_v2) (constant (F := Ideal) S_ .f32 0x00000000#32) reducesTo_S2x1x1_S_d0_1_2 h_S_))
          (constant (F := Ideal) S_ .f32 0x49742400#32) := by
    show StableHlo.after hostOps1 (V2 m outs c) (Proc.devRef .tc main_v5) = _
    after_results_simp
  have e2 : V2 m outs c main_v2 = outs 2 main_v2 c := by
    simp only [V2, Function.update_self]
  have e0 : (V1 m c main_v0 : S500000x128.Idx → EReal)
      = shapeCast S500000x128 (arg m c main_arg1) shapeCasts_S1000000x64_S500000x128 := by
    show StableHlo.after hostOps0 (V0 m c) (Proc.devRef .tc main_v0) = _
    after_results
    rfl
  have e1 : (V1 m c main_v1 : S500000x128.Idx → EReal)
      = shapeCast S500000x128 (arg m c main_arg2) shapeCasts_S1000000x64_S500000x128 := by
    show StableHlo.after hostOps0 (V0 m c) (Proc.devRef .tc main_v1) = _
    after_results
    rfl
  -- the means and the standard deviations are reals
  obtain ⟨hr1, hr2⟩ := finite_mean_std _ _ _ _ _ _ _ _ _ _ (hpre c)
  funext i
  rw [e5, e2, h2, kernel_side]
  refine Eq.trans ?_ (ref_side (arg m c main_arg1) (arg m c main_arg2) i).symm
  -- the kernel's blocks, by row-major position in the argument arrays
  have hB : ∀ (n : ℕ) (h : n < 50), blockSum (V1 m c main_v0) (V1 m c main_v1) n h
      = ∑ l : Fin 128, ∑ r : Fin 10000,
          posTerm (arg m c main_arg1) (arg m c main_arg2) (128 * (n * 10000 + r.val) + l.val) := by
    intro n h
    unfold blockSum
    refine Finset.sum_congr rfl fun l _ => Finset.sum_congr rfl fun r _ => ?_
    rw [rows0_apply, rows0_apply, e0, e1, flat_reshaped, flat_reshaped]
    rfl
  have hk : ∀ (k : Fin 2) (a b : Fin 1), klOut (V1 m c main_v0) (V1 m c main_v1) (ix3 k a b)
      = ∑ j ∈ Finset.range 25, ∑ l : Fin 128, ∑ r : Fin 10000,
          posTerm (arg m c main_arg1) (arg m c main_arg2) (128 * ((25 * k.val + j) * 10000 + r.val) + l.val) :=
    fun k a b => klOut_apply _ _
      (fun n => ∑ l : Fin 128, ∑ r : Fin 10000,
        posTerm (arg m c main_arg1) (arg m c main_arg2) (128 * (n * 10000 + r.val) + l.val)) hB k a b
  -- the reference's rows, by row-major position
  have hrc : ∀ (n : Fin 1000000) (d : Fin 64),
      term (arg m c main_arg1 (ix2 n d)) (arg m c main_arg2 (ix2 n d))
        = posTerm (arg m c main_arg1) (arg m c main_arg2) (64 * n.val + d.val) := by
    intro n d
    rw [flat_rowcol (arg m c main_arg1) n d, flat_rowcol (arg m c main_arg2) n d]
    rfl
  simp only [hk, hrc]
  rw [kl_core (posTerm (arg m c main_arg1) (arg m c main_arg2))
    (fun p => term_ne_top (flat_isReal _ hr1 p) (flat_isReal _ hr2 p))]

end Cert.Bridge

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«145173_j58841051955354_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«145173_j58841051955354_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«145173_j58841051955354_2_alg».proof.Proof.LibBlockReads
import proofs.«145173_j58841051955354_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«145173_j58841051955354_2_alg».proof.Proof.LibMatProd
import proofs.«145173_j58841051955354_2_alg».proof.Proof.LibBiasRelu
import proofs.«145173_j58841051955354_2_alg».proof.Proof.LibRowVector
import proofs.«145173_j58841051955354_2_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«145173_j58841051955354_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.LibBiasSilu.lean ====
/-
  A bias row added to every row of a matrix, alone or followed by x ↦ x · σ(x) with σ the logistic function, on the
  extended reals: the two functions, the kernel body's spelling of each (the row re-shaped in place, broadcast down
  the rows, added; then the product with the logistic of the sum), the reference's spelling (the bias vector broadcast
  into a 1×k row and then into the n×k array, added; then the product with 1 / (1 + exp (−v)) written with broadcast
  ones), and the fact that an entry of either depends on one entry of the matrix. On the extended reals the logistic
  function IS 1 / (1 + exp (−v)), so nothing is asked of the entries. Nothing here mentions a program.
-/
import Idealize.ShloMosaic.PureOps.Ideal.Laws
import Idealize.ShloMosaic.Lib.ValueIdx
import Idealize.ShloMosaic.Lib.Pipeline.Value
import proofs.«145173_j58841051955354_2_alg».proof.Proof.LibBlockReads
import proofs.«145173_j58841051955354_2_alg».proof.Proof.LibRowVector

noncomputable section

namespace Cert.Lib.BiasSilu

open Idealize.ShloMosaic Idealize.ShloMosaic.ValueIdx Cert.Lib.RowVector

variable {n n' k : Nat}

/-- The word 0x3F800000 is the number one. -/
theorem one_f32 : Ideal.ofBits .f32 0x3F800000#32 = 1 := by
  simp [Ideal.ofBits, Ideal.ieee, -EReal.coe_mul]; norm_num

/-- x · σ(x). -/
def silu (v : EReal) : EReal := v * Ideal.logistic v

/-- Entry (p, q) is X(p, q) + b(0, q). -/
def biasAdd (X : (⟨2, ![n, k]⟩ : Shape).Idx → EReal) (b : (⟨2, ![1, k]⟩ : Shape).Idx → EReal) :
    (⟨2, ![n, k]⟩ : Shape).Idx → EReal :=
  fun i => X i + b (ix2 (0 : Fin 1) (⟨(i 1).val, idx2_lt1 i⟩ : Fin k))

theorem biasAdd_apply (X : (⟨2, ![n, k]⟩ : Shape).Idx → EReal) (b : (⟨2, ![1, k]⟩ : Shape).Idx → EReal)
    (p : Fin n) (q : Fin k) : biasAdd X b (ix2 p q) = X (ix2 p q) + b (ix2 0 q) := rfl

/-- Entry (p, q) is s · σ(s) for s = X(p, q) + b(0, q). -/
def biasSilu (X : (⟨2, ![n, k]⟩ : Shape).Idx → EReal) (b : (⟨2, ![1, k]⟩ : Shape).Idx → EReal) :
    (⟨2, ![n, k]⟩ : Shape).Idx → EReal :=
  fun i => silu (biasAdd X b i)

theorem biasSilu_apply (X : (⟨2, ![n, k]⟩ : Shape).Idx → EReal) (b : (⟨2, ![1, k]⟩ : Shape).Idx → EReal)
    (p : Fin n) (q : Fin k) : biasSilu X b (ix2 p q) = silu (X (ix2 p q) + b (ix2 0 q)) := rfl

/-- An entry depends on one entry of the matrix: equal entries give equal results. -/
theorem biasAdd_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasAdd X' b (ix2 p' q) = biasAdd X b (ix2 p q) := by
  rw [biasAdd_apply, biasAdd_apply, h]

theorem biasSilu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasSilu X' b (ix2 p' q) = biasSilu X b (ix2 p q) := by
  rw [biasSilu_apply, biasSilu_apply, h]

/-- The same two facts with the two indices as variables: the index y inside a block of rows and the index i of the
    whole array it sits at, which share their column. -/
theorem biasAdd_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasAdd X' b y = biasAdd X b i := by
  obtain ⟨p', q', rfl⟩ : ∃ (p' : Fin n') (q' : Fin k), y = ix2 p' q' := ⟨y 0, y 1, eq_ix2 y⟩
  obtain ⟨p, q, rfl⟩ : ∃ (p : Fin n) (q : Fin k), i = ix2 p q := ⟨i 0, i 1, eq_ix2 i⟩
  have hq : q' = q := Fin.ext hcol
  subst hq
  exact biasAdd_rows X X' b p' p q' h

theorem biasSilu_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasSilu X' b y = biasSilu X b i :=
  congrArg silu (biasAdd_at X X' b y i hcol h)

/-- A change of float format is the identity on the extended reals, for a whole vector. -/
theorem truncf_id {s : Shape} {φ ψ : FTy} (a : FVec Ideal s φ) (h : ψ.bits < φ.bits) :
    (truncf ψ a h : FVec Ideal s ψ) = a := rfl

/-- The kernel body's spelling of the bias row added. -/
theorem body_add_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    addf M (broadcastTo ⟨2, ![n, k]⟩ (shapeCast ⟨2, ![1, k]⟩ v hsc) hb) = biasAdd M (asRow v) := by
  funext i
  obtain ⟨p, q, rfl⟩ : ∃ (p : Fin n) (q : Fin k), i = ix2 p q := ⟨i 0, i 1, eq_ix2 i⟩
  rw [addf_apply, shapeCast_eq_asRow, Cert.Lib.BlockReads.broadcast_row_apply]
  rfl

/-- The kernel body's spelling of the bias row added and the result multiplied by its logistic. -/
theorem body_silu_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    mulf (addf M (broadcastTo ⟨2, ![n, k]⟩ (shapeCast ⟨2, ![1, k]⟩ v hsc) hb))
      (logistic (addf M (broadcastTo ⟨2, ![n, k]⟩ (shapeCast ⟨2, ![1, k]⟩ v hsc) hb))) = biasSilu M (asRow v) := by
  rw [body_add_eq]
  rfl

/-- The reference's spelling of the bias vector added to every row. -/
theorem host_add_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1]) :
    addf X (broadcastInDim ⟨2, ![n, k]⟩ ![0, 1] h2 (broadcastInDim ⟨2, ![1, k]⟩ ![1] h1 b)) = biasAdd X (asRow b) := by
  funext i
  obtain ⟨p, q, rfl⟩ : ∃ (p : Fin n) (q : Fin k), i = ix2 p q := ⟨i 0, i 1, eq_ix2 i⟩
  rw [addf_apply, bcastInDim_rows_apply, bcastInDim_eq_asRow]
  rfl

/-- The reference's spelling of v ↦ v · (1 / (1 + exp (−v))), the ones broadcast from the word of the number one. -/
theorem host_silu_of (v : FVec Ideal ⟨2, ![n, k]⟩ .f32)
    (h3 h4 : (⟨0, ![]⟩ : Shape).BroadcastsInDim ⟨2, ![n, k]⟩ ![]) :
    mulf v (Host.divf (broadcastInDim ⟨2, ![n, k]⟩ ![] h3 (constant (F := Ideal) ⟨0, ![]⟩ .f32 0x3F800000#32))
      (addf (broadcastInDim ⟨2, ![n, k]⟩ ![] h4 (constant (F := Ideal) ⟨0, ![]⟩ .f32 0x3F800000#32))
        (Host.exp (Host.negf v)))) = fun i => silu (v i) := by
  funext i
  show v i * Ideal.div (broadcastInDim ⟨2, ![n, k]⟩ ![] h3 (constant (F := Ideal) ⟨0, ![]⟩ .f32 0x3F800000#32) i)
      (broadcastInDim ⟨2, ![n, k]⟩ ![] h4 (constant (F := Ideal) ⟨0, ![]⟩ .f32 0x3F800000#32) i + Ideal.exp (-(v i))) = _
  rw [bcastInDim_scalar_apply]
  show v i * Ideal.div (Ideal.ofBits .f32 0x3F800000#32) (Ideal.ofBits .f32 0x3F800000#32 + Ideal.exp (-(v i))) = _
  rw [one_f32]
  rfl

/-- The reference's spelling of the bias vector added and the result multiplied by 1 / (1 + exp (−·)). -/
theorem host_silu_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 h4 : (⟨0, ![]⟩ : Shape).BroadcastsInDim ⟨2, ![n, k]⟩ ![]) :
    mulf (addf X (broadcastInDim ⟨2, ![n, k]⟩ ![0, 1] h2 (broadcastInDim ⟨2, ![1, k]⟩ ![1] h1 b)))
      (Host.divf (broadcastInDim ⟨2, ![n, k]⟩ ![] h3 (constant (F := Ideal) ⟨0, ![]⟩ .f32 0x3F800000#32))
        (addf (broadcastInDim ⟨2, ![n, k]⟩ ![] h4 (constant (F := Ideal) ⟨0, ![]⟩ .f32 0x3F800000#32))
          (Host.exp (Host.negf (addf X (broadcastInDim ⟨2, ![n, k]⟩ ![0, 1] h2 (broadcastInDim ⟨2, ![1, k]⟩ ![1] h1 b)))))))
      = biasSilu X (asRow b) := by
  rw [host_silu_of, host_add_eq]
  rfl

end Cert.Lib.BiasSilu

end
-- ==== Proof.DecSpec.lean ====
/-
  The decoder's per-example loss as a function of whole arrays, on the extended reals.

  For arrays u, p of r rows and 64 columns, a 64×64 matrix w1 with a 1×64 bias row b1 and a 64×1 matrix w2 with a
  1×1 bias b2: `gate u p` is the entrywise product clamped below at zero; `logit` is the two layers applied to it,
  (max (gate · w1 + b1) 0) · w2 + b2, an r×1 array; `prob` is its logistic function; and the loss of example a is
  (prob u p a − 1)² + (prob u q a)² for a positive array p and a negative array q. Row a of each of these depends on row a
  of u, p, q only, so the functions applied to some rows of the arrays give those rows of the functions applied to
  the whole arrays; and when every entry of the operands is a real number so is every entry of the loss.
  The number one is kept as the value of its word. Nothing here mentions a program.
-/
import Idealize.ShloMosaic.PureOps.Ideal.Laws
import Idealize.ShloMosaic.Lib.ValueIdx
import proofs.«145173_j58841051955354_2_alg».proof.Proof.LibMatProd
import proofs.«145173_j58841051955354_2_alg».proof.Proof.LibBiasRelu
import proofs.«145173_j58841051955354_2_alg».proof.Proof.LibDenseLayers
import proofs.«145173_j58841051955354_2_alg».proof.Proof.LibIdealSums
import proofs.«145173_j58841051955354_2_alg».proof.Proof.LibRealSums
import proofs.«145173_j58841051955354_2_alg».proof.Proof.LibBiasSilu

open scoped BigOperators

noncomputable section

namespace Cert.Dec

open Idealize.ShloMosaic Idealize.ShloMosaic.ValueIdx Cert.Lib.MatProd Cert.Lib.BiasRelu Cert.Layers
open Cert.Lib.IdealSums Cert.Lib.RealSums

variable {r r' : Nat}

/-- The entrywise product of two arrays, clamped below at zero. -/
def gate (u p : (⟨2, ![r, 64]⟩ : Shape).Idx → EReal) : (⟨2, ![r, 64]⟩ : Shape).Idx → EReal :=
  fun i => max (u i * p i) (Ideal.ofBits .f32 0x00000000#32)

/-- The two layers applied to the gated product: an r×1 array. -/
def logit (u p : (⟨2, ![r, 64]⟩ : Shape).Idx → EReal) (w1 : (⟨2, ![64, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal) : (⟨2, ![r, 1]⟩ : Shape).Idx → EReal :=
  biasAdd (matProd (biasRelu (matProd (gate u p) w1) b1) w2) b2

/-- Its logistic function. -/
def prob (u p : (⟨2, ![r, 64]⟩ : Shape).Idx → EReal) (w1 : (⟨2, ![64, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal) : (⟨2, ![r, 1]⟩ : Shape).Idx → EReal :=
  fun i => Ideal.logistic (logit u p w1 b1 w2 b2 i)

/-- The loss of each example: (prob of the positive pair − 1)² + (prob of the negative pair)². -/
def rowLoss (u p q : (⟨2, ![r, 64]⟩ : Shape).Idx → EReal) (w1 : (⟨2, ![64, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal) : (⟨2, ![r, 1]⟩ : Shape).Idx → EReal :=
  fun i => (prob u p w1 b1 w2 b2 i - Ideal.ofBits .f32 0x3F800000#32) * (prob u p w1 b1 w2 b2 i - Ideal.ofBits .f32 0x3F800000#32)
    + prob u q w1 b1 w2 b2 i * prob u q w1 b1 w2 b2 i

/-- Row a of the logit depends on row a of the two arrays: if row a of u', p' is row ρ a of u, p, entry a of the logit
    of u', p' is entry ρ a of the logit of u, p. -/
theorem logit_rows (u p : (⟨2, ![r, 64]⟩ : Shape).Idx → EReal) (u' p' : (⟨2, ![r', 64]⟩ : Shape).Idx → EReal)
    (w1 : (⟨2, ![64, 64]⟩ : Shape).Idx → EReal) (b1 : (⟨2, ![1, 64]⟩ : Shape).Idx → EReal)
    (w2 : (⟨2, ![64, 1]⟩ : Shape).Idx → EReal) (b2 : (⟨2, ![1, 1]⟩ : Shape).Idx → EReal) (ρ : Fin r' → Fin r)
    (hu : ∀ (a : Fin r') (c : Fin 64), u' (ix2 a c) = u (ix2 (ρ a) c))
    (hp : ∀ (a : Fin r') (c : Fin 64), p' (ix2 a c) = p (ix2 (ρ a) c)) (a : Fin r') :
    logit u' p' w1 b1 w2 b2 (ix2 a (0 : Fin 1)) = logit u p w1 b1 w2 b2 (ix2 (ρ a) (0 : Fin 1)) := by
  unfold logit
  rw [biasAdd_apply, biasAdd_apply]
  congr 1
  refine matProd_block _ _ w2 w2 a 0 (ρ a) 0 (fun c => ?_) (fun _ => rfl)
  refine biasRelu_rows _ _ b1 a (ρ a) c ?_
  refine matProd_block _ _ w1 w1 a c (ρ a) c (fun d => ?_) (fun _ => rfl)
  show max (u' (ix2 a d) * p' (ix2 a d)) _ = max (u (ix2 (ρ a) d) * p (ix2 (ρ a) d)) _
  rw [hu, hp]

/-- The same for the loss. -/
theorem rowLoss_rows (u p q : (⟨2, ![r, 64]⟩ : Shape).Idx → EReal) (u' p' q' : (⟨2, ![r', 64]⟩ : Shape).Idx → EReal)
    (w1 : (⟨2, ![64, 64]⟩ : Shape).Idx → EReal) (b1 : (⟨2, ![1, 64]⟩ : Shape).Idx → EReal)
    (w2 : (⟨2, ![64, 1]⟩ : Shape).Idx → EReal) (b2 : (⟨2, ![1, 1]⟩ : Shape).Idx → EReal) (ρ : Fin r' → Fin r)
    (hu : ∀ (a : Fin r') (c : Fin 64), u' (ix2 a c) = u (ix2 (ρ a) c))
    (hp : ∀ (a : Fin r') (c : Fin 64), p' (ix2 a c) = p (ix2 (ρ a) c))
    (hq : ∀ (a : Fin r') (c : Fin 64), q' (ix2 a c) = q (ix2 (ρ a) c)) (a : Fin r') :
    rowLoss u' p' q' w1 b1 w2 b2 (ix2 a (0 : Fin 1)) = rowLoss u p q w1 b1 w2 b2 (ix2 (ρ a) (0 : Fin 1)) := by
  unfold rowLoss prob
  rw [logit_rows u p u' p' w1 b1 w2 b2 ρ hu hp a, logit_rows u q u' q' w1 b1 w2 b2 ρ hu hq a]

/-- When every entry of the operands is a real number, so is every logit. -/
theorem logit_real (u p : (⟨2, ![r, 64]⟩ : Shape).Idx → EReal) (w1 : (⟨2, ![64, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal)
    (hu : ∀ i, IsReal (u i)) (hp : ∀ i, IsReal (p i)) (hw1 : ∀ i, IsReal (w1 i)) (hb1 : ∀ i, IsReal (b1 i))
    (hw2 : ∀ i, IsReal (w2 i)) (hb2 : ∀ i, IsReal (b2 i)) (a : Fin r) :
    IsReal (logit u p w1 b1 w2 b2 (ix2 a (0 : Fin 1))) := by
  have h0 : IsReal (Ideal.ofBits .f32 0x00000000#32) := by rw [Ideal.ofBits_zero_f32]; exact isReal_zero
  unfold logit
  rw [biasAdd_apply, matProd_apply]
  refine IsReal.add (IsReal.sum _ fun c _ => IsReal.mul ?_ (hw2 _)) (hb2 _)
  rw [biasRelu_apply, matProd_apply]
  refine isReal_max (IsReal.add (IsReal.sum _ fun d _ => IsReal.mul ?_ (hw1 _)) (hb1 _)) h0
  exact isReal_max (IsReal.mul (hu _) (hp _)) h0

/-- And so is every example's loss. -/
theorem rowLoss_real (u p q : (⟨2, ![r, 64]⟩ : Shape).Idx → EReal) (w1 : (⟨2, ![64, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal)
    (hu : ∀ i, IsReal (u i)) (hp : ∀ i, IsReal (p i)) (hq : ∀ i, IsReal (q i)) (hw1 : ∀ i, IsReal (w1 i))
    (hb1 : ∀ i, IsReal (b1 i)) (hw2 : ∀ i, IsReal (w2 i)) (hb2 : ∀ i, IsReal (b2 i)) (a : Fin r) :
    IsReal (rowLoss u p q w1 b1 w2 b2 (ix2 a (0 : Fin 1))) := by
  have h1 : IsReal (Ideal.ofBits .f32 0x3F800000#32) := by rw [Cert.Lib.BiasSilu.one_f32]; exact isReal_one
  have hP := (logit_real u p w1 b1 w2 b2 hu hp hw1 hb1 hw2 hb2 a).logistic
  have hQ := (logit_real u q w1 b1 w2 b2 hu hq hw1 hb1 hw2 hb2 a).logistic
  unfold rowLoss prob
  exact IsReal.add (IsReal.mul (hP.sub h1) (hP.sub h1)) (IsReal.mul hQ hQ)

end Cert.Dec

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«145173_j58841051955354_2_alg».proof.Proof.LibBlockReads
import proofs.«145173_j58841051955354_2_alg».proof.Proof.LibMatProd
import proofs.«145173_j58841051955354_2_alg».proof.Proof.LibBiasRelu
import proofs.«145173_j58841051955354_2_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.DecBody.lean ====
/-
  The second kernel's block arithmetic, read once on the extended reals.

  Narrowing a float is the identity on the extended reals and a product accumulated into zeros is the matrix product, so
  for blocks u, p, q of 2048 rows the block's values are the whole-array functions of Proof/DecSpec.lean: the positive
  branch is `prob u p`, the negative branch's first product is `matProd (gate u q) w1`, and one block adds to the 1×1
  accumulator the sum over the block's 2048 rows of the per-example loss.
-/
import proofs.«145173_j58841051955354_2_alg».proof.Proof.Gen.KernelIdeal.Skeleton
import proofs.«145173_j58841051955354_2_alg».proof.Proof.KVal
import proofs.«145173_j58841051955354_2_alg».proof.Proof.DecSpec
import proofs.«145173_j58841051955354_2_alg».proof.Proof.LibBlockReads
import proofs.«145173_j58841051955354_2_alg».proof.Proof.LibInPlaceBodies
import proofs.«145173_j58841051955354_2_alg».proof.Proof.LibRowReductions

open scoped BigOperators

noncomputable section

namespace Cert.Dec

open Idealize.ShloMosaic Idealize.ShloMosaic.ValueIdx Cert.Lib.MatProd Cert.Lib.BiasRelu Cert.Layers
open Cert.KernelIdeal Cert.KernelIdeal.Gen

variable {r n : Nat}

/-- The kernel body's clamp of a product below at a splat of the zero word. -/
theorem body_gate (u p : FVec Ideal ⟨2, ![r, 64]⟩ .f32) :
    maximumf (mulf u p) (broadcast ⟨2, ![r, 64]⟩ (Scalar.ofBits (F := Ideal) .f32 0x00000000#32)) = gate u p := by
  funext i
  rw [maximumf_apply, mulf_apply]
  rfl

/-- A 1×n row broadcast down the rows and added. -/
theorem body_row_add (M : FVec Ideal ⟨2, ![r, n]⟩ .f32) (b : FVec Ideal ⟨2, ![1, n]⟩ .f32)
    (hb : (⟨2, ![1, n]⟩ : Shape).Broadcasts ⟨2, ![r, n]⟩) :
    addf M (broadcastTo ⟨2, ![r, n]⟩ b hb) = biasAdd M b := by
  funext i
  obtain ⟨p, q, rfl⟩ : ∃ (p : Fin r) (q : Fin n), i = ix2 p q := ⟨i 0, i 1, eq_ix2 i⟩
  rw [addf_apply, Cert.Lib.BlockReads.broadcast_row_apply]
  rfl

/-- The same, clamped below at a splat of the zero word. -/
theorem body_row_add_max (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The negative branch's first product. -/
theorem pay9_eq (u q : Vec Ideal S2048x64 .f32) (w1 : Vec Ideal S64x64 .f32) :
    k1_pay9 u q w1 = matProd (gate u q) w1 := by
  simp only [k1_pay9, k1_pay3, k1_pay4, shapeCast_self]
  rw [body_gate]
  exact Cert.Lib.InPlaceBodies.narrowed_product dot_S2048x64_S64x64_S2048x64_1_0_0_1_n_n rfl rfl rfl rfl rfl rfl none
    bitsLt_bf16_f32 (gate u q) w1

/-- The positive branch: the logistic function of the two layers of the gated product. -/
theorem pay8_eq (u p : Vec Ideal S2048x64 .f32) (w1 : Vec Ideal S64x64 .f32) (b1 : Vec Ideal S1x64 .f32)
    (w2 : Vec Ideal S64x1 .f32) (b2 : Vec Ideal S1x1 .f32) :
    k1_pay8 u p w1 b1 w2 b2 = prob u p w1 b1 w2 b2 := by
  simp only [k1_pay8, k1_pay3, k1_pay4, k1_pay5, k1_pay6, k1_pay7, shapeCast_self]
  rw [body_gate,
    Cert.Lib.InPlaceBodies.narrowed_product dot_S2048x64_S64x64_S2048x64_1_0_0_1_n_n rfl rfl rfl rfl rfl rfl none
      bitsLt_bf16_f32 (gate u p) w1,
    body_row_add_max,
    Cert.Lib.InPlaceBodies.narrowed_product dot_S2048x64_S64x1_S2048x1_1_0_0_1_n_n rfl rfl rfl rfl rfl rfl none
      bitsLt_bf16_f32 (biasRelu (matProd (gate u p) w1) b1) w2,
    body_row_add]
  rfl

end Cert.Dec

end
-- ==== Proof.DecStep.lean ====
/-
  One block of the second kernel, at the accumulator's one entry: the accumulator plus the sum over the block's 2048
  rows of the per-example loss of Proof/DecSpec.lean.
-/
import proofs.«145173_j58841051955354_2_alg».proof.Proof.DecBody

open scoped BigOperators

noncomputable section

namespace Cert.Dec

open Idealize.ShloMosaic Idealize.ShloMosaic.ValueIdx Cert.Lib.MatProd Cert.Lib.BiasRelu Cert.Layers
open Cert.KernelIdeal Cert.KernelIdeal.Gen

/-- The sum down an a×1 column is at its one entry the sum over the rows. -/
theorem colsum_apply {a : Nat} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) :
    multiReduction .add [0] ⟨1, ![1]⟩ src 0x00000000#32 h hφ hacc (ix1 (0 : Fin 1)) = ∑ k : Fin a, src (ix2 k (0 : Fin 1)) := by
  refine (Ideal.multiReduction_add_single src 0x00000000#32 h hφ hacc (ix1 (0 : Fin 1))).trans ?_
  refine Finset.sum_congr rfl fun k _ => congrArg src ?_
  funext ax; apply Fin.ext
  match ax with
  | ⟨0, _⟩ => rfl
  | ⟨1, _⟩ => rfl

/-- One block: the accumulator's entry plus the block's sum of losses. -/
theorem step1_apply (u p q : Vec Ideal S2048x64 .f32) (w1 : Vec Ideal S64x64 .f32) (b1 : Vec Ideal S1x64 .f32)
    (w2 : Vec Ideal S64x1 .f32) (b2 : Vec Ideal S1x1 .f32) (s : Vec Ideal S1x1 .f32) :
    KVal.step1 u p q w1 b1 w2 b2 s (ix2 (0 : Fin 1) (0 : Fin 1))
      = s (ix2 (0 : Fin 1) (0 : Fin 1)) + ∑ a : Fin 2048, rowLoss u p q w1 b1 w2 b2 (ix2 a (0 : Fin 1)) := by
  unfold KVal.step1
  rw [pay8_eq, pay9_eq]
  simp only [k1_pay1, k1_pay5, k1_pay6, k1_pay7, shapeCast_self]
  rw [body_row_add_max,
    Cert.Lib.InPlaceBodies.narrowed_product dot_S2048x64_S64x1_S2048x1_1_0_0_1_n_n rfl rfl rfl rfl rfl rfl none
      bitsLt_bf16_f32 (biasRelu (matProd (gate u q) w1) b1) w2,
    body_row_add, addf_apply, Cert.Lib.RowReductions.shapeCast_col_apply]
  refine congrArg (s (ix2 (0 : Fin 1) (0 : Fin 1)) + ·) ?_
  refine (colsum_apply _ reduces_S2048x1_S1 _ _).trans ?_
  exact Finset.sum_congr rfl fun a _ => rfl

end Cert.Dec

end
-- ==== Proof.DecSum.lean ====
/-
  The second kernel's result as one sum. The accumulator starts at zero, each of the eight blocks adds the sum over its
  2048 rows of the per-example loss of those rows, and row a of block t is row 2048·t + a of the whole arrays; so the
  1×1 result is the sum over all 16384 examples of the per-example loss of the whole arrays. Sums on the extended reals
  are regrouped freely: no finiteness is needed.
-/
import proofs.«145173_j58841051955354_2_alg».proof.Proof.KVal
import proofs.«145173_j58841051955354_2_alg».proof.Proof.DecStep
import proofs.«145173_j58841051955354_2_alg».proof.Proof.LibFinGroups

open scoped BigOperators

noncomputable section

namespace Cert.Dec

open Idealize.ShloMosaic Idealize.ShloMosaic.ValueIdx
open Cert.KernelIdeal Cert.KernelIdeal.Gen Cert.KernelIdeal.KVal

section
variable (U P Q : Vec Ideal S16384x64 .f32) (w1 : Vec Ideal S64x64 .f32) (b1 : Vec Ideal S1x64 .f32)
  (w2 : Vec Ideal S64x1 .f32) (b2 : Vec Ideal S1x1 .f32)

/-- The loss of example k of the whole arrays, for every natural k (zero past the last example). -/
def lossAt (k : ℕ) : EReal :=
  if h : k < 16384 then rowLoss U P Q w1 b1 w2 b2 (ix2 (⟨k, h⟩ : Fin 16384) (0 : Fin 1)) else 0

/-- The per-example loss of the rows of block t is the per-example loss of the whole arrays at those rows. -/
theorem rowLoss_block (t : Fin 8) (a : Fin 2048) :
    rowLoss (rows1 U t) (rows1 P t) (rows1 Q t) w1 b1 w2 b2 (ix2 a (0 : Fin 1))
      = lossAt U P Q w1 b1 w2 b2 (2048 * t.val + a.val) := by
  have hlt : 2048 * t.val + a.val < 16384 := by have := t.isLt; have := a.isLt; omega
  have hρ : ∀ a' : Fin 2048, t.val * 2048 + a'.val < 16384 := fun a' => by have := t.isLt; have := a'.isLt; omega
  rw [lossAt, dif_pos hlt,
    rowLoss_rows U P Q (rows1 U t) (rows1 P t) (rows1 Q t) w1 b1 w2 b2 (fun a' => ⟨t.val * 2048 + a'.val, hρ a'⟩)
      (fun _ _ => rfl) (fun _ _ => rfl) (fun _ _ => rfl) a]
  congr 2
  exact Fin.ext (by show t.val * 2048 + a.val = 2048 * t.val + a.val; omega)

/-- The accumulator after block n holds the losses of the examples of blocks 0 … n. -/
theorem acc1_apply : ∀ (n : ℕ) (h : n < 8),
    acc1 U P Q w1 b1 w2 b2 n h (ix2 (0 : Fin 1) (0 : Fin 1))
      = ∑ t ∈ Finset.range (n + 1), ∑ a : Fin 2048, lossAt U P Q w1 b1 w2 b2 (2048 * t + a.val)
  | 0, h => by
    rw [acc1, step1_apply, Finset.sum_range_one]
    have hz : (k1_pay2 (F := Ideal)) (ix2 (0 : Fin 1) (0 : Fin 1)) = 0 := by
      show Ideal.ofBits .f32 0x00000000#32 = 0
      exact Ideal.ofBits_zero_f32
    rw [hz, zero_add]
    exact Finset.sum_congr rfl fun a _ => rowLoss_block U P Q w1 b1 w2 b2 ⟨0, h⟩ a
  | n + 1, h => by
    rw [acc1, step1_apply, acc1_apply n (Nat.lt_of_succ_lt h), Finset.sum_range_succ _ (n + 1)]
    congr 1
    exact Finset.sum_congr rfl fun a _ => rowLoss_block U P Q w1 b1 w2 b2 ⟨n + 1, h⟩ a

/-- The result's one entry is the sum over the 16384 examples of the per-example loss. -/
theorem decOut_apply :
    decOut U P Q w1 b1 w2 b2 (ix2 (0 : Fin 1) (0 : Fin 1))
      = ∑ b : Fin 16384, rowLoss U P Q w1 b1 w2 b2 (ix2 b (0 : Fin 1)) := by
  rw [decOut, acc1_apply, Finset.sum_range]
  refine (Cert.Lib.FinGroups.sum_fin_groups 8 2048 (lossAt U P Q w1 b1 w2 b2)).symm.trans ?_
  show ∑ b : Fin 16384, lossAt U P Q w1 b1 w2 b2 b.val = _
  exact Finset.sum_congr rfl fun b _ => by rw [lossAt, dif_pos b.isLt]

/-- A 1×1 array is its one entry everywhere. -/
theorem decOut_eq :
    decOut U P Q w1 b1 w2 b2 = fun _ => ∑ b : Fin 16384, rowLoss U P Q w1 b1 w2 b2 (ix2 b (0 : Fin 1)) := by
  funext i
  have hi : i = ix2 (0 : Fin 1) (0 : Fin 1) := by
    funext d
    match d with
    | ⟨0, _⟩ =>
      have h : (i 0).val < 1 := (i 0).isLt
      exact Fin.ext (by show (i 0).val = 0; omega)
    | ⟨1, _⟩ =>
      have h : (i 1).val < 1 := (i 1).isLt
      exact Fin.ext (by show (i 1).val = 0; omega)
  rw [hi]
  exact decOut_apply U P Q w1 b1 w2 b2

end

end Cert.Dec

end
-- ==== Proof.LibGateForms.lean ====
/-
  Two readings that gated cells (sigmoid and tanh gates cut out of one wide array) need, on the extended reals.

  (1) The logistic function as a tensor program spells it — 1 / (1 + exp (−v)), each of the two ones stretched to v's
      shape from a scalar holding the word 0x3F800000 of the number one — is, entry by entry, the logistic function of
      v, for an array v of ANY shape. On the extended reals this holds at the infinities as well (exp (−v) is 0 or +∞
      there and the quotient 1 or 0), so nothing is asked of v.
  (2) A group of k consecutive columns cut out of an n × N array by a unit-stride slice at column `off` reads, at (p, q),
      the array at (p, off + q): all four extents are variables.
  Nothing here mentions a program.
-/
import Idealize.ShloMosaic.PureOps.Ideal.Laws
import Idealize.ShloMosaic.Lib.ValueIdx
import Idealize.ShloMosaic.Lib.Pipeline.Value
import proofs.«145173_j58841051955354_2_alg».proof.Proof.LibRowVector
import proofs.«145173_j58841051955354_2_alg».proof.Proof.LibBiasSilu

noncomputable section

namespace Cert.Lib.GateForms

open Idealize.ShloMosaic Idealize.ShloMosaic.ValueIdx Cert.Lib.RowVector Cert.Lib.BiasSilu

/-- 1 / (1 + exp (−v)), the ones stretched from the word of the number one, is the logistic function of v entry by
    entry, on an array of any shape. -/
theorem host_logistic {s : Shape} (v : FVec Ideal s .f32) (h3 h4 : (⟨0, ![]⟩ : Shape).BroadcastsInDim s ![]) :
    Host.divf (broadcastInDim s ![] h3 (constant (F := Ideal) ⟨0, ![]⟩ .f32 0x3F800000#32))
      (addf (broadcastInDim s ![] h4 (constant (F := Ideal) ⟨0, ![]⟩ .f32 0x3F800000#32)) (Host.exp (Host.negf v)))
      = fun i => Ideal.logistic (v i) := by
  funext i
  show Ideal.div (broadcastInDim s ![] h3 (constant (F := Ideal) ⟨0, ![]⟩ .f32 0x3F800000#32) i)
      (broadcastInDim s ![] h4 (constant (F := Ideal) ⟨0, ![]⟩ .f32 0x3F800000#32) i + Ideal.exp (-(v i))) = _
  rw [bcastInDim_scalar_apply]
  show Ideal.div (Ideal.ofBits .f32 0x3F800000#32) (Ideal.ofBits .f32 0x3F800000#32 + Ideal.exp (-(v i))) = _
  rw [one_f32]
  rfl

/-- The slice of k columns starting at column `off` of an n × N array reads, at (p, q), the array at (p, off + q). -/
theorem slice_cols_apply {α : Type} {n N k : Nat} (off : Nat) (Z : (⟨2, ![n, N]⟩ : Shape).Idx → α)
    (h : (⟨2, ![n, N]⟩ : Shape).Slices ![0, off] ⟨2, ![n, k]⟩) (p : Fin n) (q : Fin k) (col : Fin N)
    (hcol : col.val = off + q.val) :
    extractStridedSlice ⟨2, ![n, k]⟩ ![0, off] Z h (ix2 p q) = Z (ix2 p col) :=
  extractStridedSlice_apply _ Z h _ _ fun a => by
    match a with
    | ⟨0, _⟩ => show p.val = 0 + p.val; omega
    | ⟨1, _⟩ => exact hcol

end Cert.Lib.GateForms

end
-- ==== Proof.DecRef.lean ====
/-
  The reference's per-example loss is the whole-array function of Proof/DecSpec.lean applied to its three gathered
  arrays: the host's dot_general is the matrix product, its bias and clamp spellings are the bias row added (and
  clamped), and 1 / (1 + exp (−v)) with broadcast ones is the logistic function. The gathers are carried as they are.
-/
import proofs.«145173_j58841051955354_2_alg».proof.Proof.Gen.ReferenceIdeal.Read
import proofs.«145173_j58841051955354_2_alg».proof.Proof.DecSpec
import proofs.«145173_j58841051955354_2_alg».proof.Proof.LibMatProd
import proofs.«145173_j58841051955354_2_alg».proof.Proof.LibBiasRelu
import proofs.«145173_j58841051955354_2_alg».proof.Proof.LibDenseLayers
import proofs.«145173_j58841051955354_2_alg».proof.Proof.LibRowVector
import proofs.«145173_j58841051955354_2_alg».proof.Proof.LibGateForms

open scoped BigOperators

noncomputable section

namespace Cert.Dec

open Idealize.ShloMosaic Idealize.ShloMosaic.ValueIdx Cert.Lib.MatProd Cert.Lib.BiasRelu Cert.Layers Cert.Lib.RowVector
open Cert.ReferenceIdeal Cert.ReferenceIdeal.Gen Cert.ReferenceIdeal.Read

variable {r : Nat}

/-- The reference's clamp of a product below at a broadcast zero. -/
theorem host_gate (u p : FVec Ideal ⟨2, ![r, 64]⟩ .f32) (h3 : (⟨0, ![]⟩ : Shape).BroadcastsInDim ⟨2, ![r, 64]⟩ ![]) :
    maximumf (mulf u p) (broadcastInDim ⟨2, ![r, 64]⟩ ![] h3 (constant (F := Ideal) ⟨0, ![]⟩ .f32 0x00000000#32))
      = gate u p := by
  funext i
  rw [maximumf_apply, mulf_apply, bcastInDim_scalar_apply]
  rfl

/-- The reference's probability of a pair of arrays. -/
theorem host_prob (u p : FVec Ideal S16384x64 .f32) (x6 : FVec Ideal S64x64 .f32) (x7 : FVec Ideal S64 .f32)
    (x8 : FVec Ideal S64x1 .f32) (x9 : FVec Ideal S1 .f32) :
    Host.divf (broadcastInDim S16384x1 ![] bcast_S_S16384x1 (constant (F := Ideal) S_ .f32 0x3F800000#32))
      (addf (broadcastInDim S16384x1 ![] bcast_S_S16384x1 (constant (F := Ideal) S_ .f32 0x3F800000#32))
        (Host.exp (Host.negf
          (addf
            (Host.dotGeneral dot_S16384x64_S64x1_S16384x1_1_0_0_1_n_n none
              (maximumf
                (addf
                  (Host.dotGeneral dot_S16384x64_S64x64_S16384x64_1_0_0_1_n_n none
                    (maximumf (mulf u p)
                      (broadcastInDim S16384x64 ![] bcast_S_S16384x64 (constant (F := Ideal) S_ .f32 0x00000000#32))) x6)
                  (broadcastInDim S16384x64 ![0, 1] bcast_S1x64_S16384x64_0_1 (broadcastInDim S1x64 ![1] bcast_S64_S1x64_1 x7)))
                (broadcastInDim S16384x64 ![] bcast_S_S16384x64 (constant (F := Ideal) S_ .f32 0x00000000#32))) x8)
            (broadcastInDim S16384x1 ![0, 1] bcast_S1x1_S16384x1_0_1 (broadcastInDim S1x1 ![1] bcast_S1_S1x1_1 x9))))))
      = prob u p x6 (asRow x7) x8 (asRow x9) := by
  rw [Cert.Lib.GateForms.host_logistic, host_gate]
  simp only [Host.dotGeneral]
  rw [dotGeneral_eq_matProd dot_S16384x64_S64x64_S16384x64_1_0_0_1_n_n rfl rfl rfl rfl rfl rfl none _ (gate u p) x6,
    Cert.Lib.BiasRelu.host_eq,
    dotGeneral_eq_matProd dot_S16384x64_S64x1_S16384x1_1_0_0_1_n_n rfl rfl rfl rfl rfl rfl none _
      (biasRelu (matProd (gate u p) x6) (asRow x7)) x8,
    host_bias]
  rfl

/-- The positive branch of the reference. -/
theorem ref_pos (x0 : FVec Ideal S1000000x64 .f32) (x3 x4 : (⟨S16384, .i32⟩ : BufTy).Contents (Elt Ideal))
    (x6 : FVec Ideal S64x64 .f32) (x7 : FVec Ideal S64 .f32) (x8 : FVec Ideal S64x1 .f32) (x9 : FVec Ideal S1 .f32) :
    val_main_v32 (F := Ideal) x0 x3 x4 x6 x7 x8 x9
      = prob (val_main_v8 (F := Ideal) x0 x3) (val_main_v15 (F := Ideal) x0 x4) x6 (asRow x7) x8 (asRow x9) := by
  unfold val_main_v32 val_main_v31 val_main_cst_3 val_main_v30 val_main_v29 val_main_cst val_main_v28 val_main_v27
    val_main_v26 val_main_v25 val_main_v24 val_main_v23 val_main_v22 val_main_call1_v0 val_main_call1_cst val_main_v21
    val_main_v20 val_main_v19 val_main_v18 val_main_v17 val_main_call0_v0 val_main_call0_cst val_main_v16
  exact host_prob _ _ x6 x7 x8 x9

/-- The negative branch of the reference. -/
theorem ref_neg (x0 : FVec Ideal S1000000x64 .f32) (x3 x5 : (⟨S16384, .i32⟩ : BufTy).Contents (Elt Ideal))
    (x6 : FVec Ideal S64x64 .f32) (x7 : FVec Ideal S64 .f32) (x8 : FVec Ideal S64x1 .f32) (x9 : FVec Ideal S1 .f32) :
    val_main_v56 (F := Ideal) x0 x3 x5 x6 x7 x8 x9
      = prob (val_main_v8 (F := Ideal) x0 x3) (val_main_v39 (F := Ideal) x0 x5) x6 (asRow x7) x8 (asRow x9) := by
  unfold val_main_v56 val_main_v55 val_main_cst_7 val_main_v54 val_main_v53 val_main_cst_6 val_main_v52 val_main_v51
    val_main_v50 val_main_v49 val_main_v48 val_main_v47 val_main_v46 val_main_call3_v0 val_main_call3_cst val_main_v45
    val_main_v44 val_main_v43 val_main_v42 val_main_v41 val_main_call2_v0 val_main_call2_cst val_main_v40
  exact host_prob _ _ x6 x7 x8 x9

/-- The reference's per-example loss is `rowLoss` of its gathered arrays. -/
theorem ref_loss (x0 : FVec Ideal S1000000x64 .f32) (x3 x4 x5 : (⟨S16384, .i32⟩ : BufTy).Contents (Elt Ideal))
    (x6 : FVec Ideal S64x64 .f32) (x7 : FVec Ideal S64 .f32) (x8 : FVec Ideal S64x1 .f32) (x9 : FVec Ideal S1 .f32) :
    val_main_v61 (F := Ideal) x0 x3 x4 x5 x6 x7 x8 x9
      = rowLoss (val_main_v8 (F := Ideal) x0 x3) (val_main_v15 (F := Ideal) x0 x4) (val_main_v39 (F := Ideal) x0 x5)
          x6 (asRow x7) x8 (asRow x9) := by
  unfold val_main_v61 val_main_v60 val_main_v59 val_main_v58 val_main_v57 val_main_cst_8
  rw [ref_pos, ref_neg]
  funext i
  rw [addf_apply, mulf_apply, mulf_apply, subf_apply, bcastInDim_scalar_apply]
  rfl

end Cert.Dec

end
-- ==== Proof.DecHost.lean ====
/-
  The seven operand arrays of the second kernel, as the host operations before it leave them. The three gathered
  16384×64 arrays are computed from the first argument array and the three index arrays by the same operations, in the
  same order, as the reference's three gathers (a slice of the table, the index compared with zero, 500000 added, the
  choice between the two, a re-shaping to a column, the gather); the two bias arrays are the bias vectors re-shaped to a
  row; the two matrices are arguments no host operation writes. None of these reads what the first kernel leaves.
-/
import proofs.«145173_j58841051955354_2_alg».proof.Proof.BridgeDefs
import proofs.«145173_j58841051955354_2_alg».proof.Proof.LibRowVector
import Idealize.ShloMosaic.Lib.StableHlo.Run

noncomputable section

namespace Cert.Dec

open Idealize.ShloMosaic Idealize.ShloMosaic.TcCoe Idealize.SL.Sem Idealize.ShloMosaic.ValueIdx
open Cert.KernelIdeal Cert.KernelIdeal.Gen Cert.Bridge Cert.Lib.RowVector

variable [hK : Cert.KernelIdeal.Facts] [hR : Cert.ReferenceIdeal.Facts]

/-- The host's row gather with the negative-index wrap, as the kernel program spells it: the index below zero has
    500000 added, the indices become a column, and the rows of the table are gathered. -/
def wrapGather (tbl : Vec Ideal S500000x64 .f32) (x : IVec S16384 32) : Vec Ideal S16384x64 .f32 :=
  Host.gather gather_S500000x64_S16384x1_S16384x64_1_0_n_n_0_1_164 tbl
    (broadcastInDim S16384x1 ![0] bcast_S16384_S16384x1_0
      (select (cmpi .slt x (broadcastInDim S16384 ![] bcast_S_S16384 (constantI S_ 32 0#32)))
        (addi x (broadcastInDim S16384 ![] bcast_S_S16384 (constantI S_ 32 500000#32))) x))

/-- The reference's gather of the first half of the table is the same term. -/
theorem wrapGather_users (x0 : Vec Ideal S1000000x64 .f32) (x3 : IVec S16384 32) :
    wrapGather (extractStridedSlice S500000x64 ![0, 0] x0 slices_S1000000x64_S500000x64_0_0) x3
      = Cert.ReferenceIdeal.Read.val_main_v8 (F := Ideal) x0 x3 := rfl

/-- Its gather of the second half by the positive items is the same term. -/
theorem wrapGather_items (x0 : Vec Ideal S1000000x64 .f32) (x4 : IVec S16384 32) :
    wrapGather (extractStridedSlice S500000x64 ![500000, 0] x0 slices_S1000000x64_S500000x64_500000_0) x4
      = Cert.ReferenceIdeal.Read.val_main_v15 (F := Ideal) x0 x4 := rfl

/-- And so is its gather of the second half by the negative items. -/
theorem wrapGather_negs (x0 : Vec Ideal S1000000x64 .f32) (x5 : IVec S16384 32) :
    wrapGather (extractStridedSlice S500000x64 ![500000, 0] x0 slices_S1000000x64_S500000x64_500000_0) x5
      = Cert.ReferenceIdeal.Read.val_main_v39 (F := Ideal) x0 x5 := rfl

variable (m : (ℓ : Loc nD τ sig) → Buf (Elt Ideal) ℓ) (outs : Cert.KernelIdeal.Gen.Outs (F := Ideal)) (c : Dev nD)

set_option maxHeartbeats 1000000 in
/-- The gathered user rows. -/
theorem V3_main_v14 :
    (V3 m outs c main_v14 : Vec Ideal S16384x64 .f32)
      = Cert.ReferenceIdeal.Read.val_main_v8 (F := Ideal) (arg m c main_arg0) (arg m c main_arg3) := by
  refine Eq.trans ?_ (wrapGather_users (arg m c main_arg0 : Vec Ideal S1000000x64 .f32) (arg m c main_arg3 : IVec S16384 32))
  show StableHlo.after hostOps1 (V2 m outs c) (Proc.devRef .tc main_v14) = _
  after_results
  rfl

set_option maxHeartbeats 1000000 in
/-- The gathered positive item rows. -/
theorem V3_main_v21 :
    (V3 m outs c main_v21 : Vec Ideal S16384x64 .f32)
      = Cert.ReferenceIdeal.Read.val_main_v15 (F := Ideal) (arg m c main_arg0) (arg m c main_arg4) := by
  refine Eq.trans ?_ (wrapGather_items (arg m c main_arg0 : Vec Ideal S1000000x64 .f32) (arg m c main_arg4 : IVec S16384 32))
  show StableHlo.after hostOps1 (V2 m outs c) (Proc.devRef .tc main_v21) = _
  after_results
  rfl

set_option maxHeartbeats 1000000 in
/-- The gathered negative item rows. -/
theorem V3_main_v28 :
    (V3 m outs c main_v28 : Vec Ideal S16384x64 .f32)
      = Cert.ReferenceIdeal.Read.val_main_v39 (F := Ideal) (arg m c main_arg0) (arg m c main_arg5) := by
  refine Eq.trans ?_ (wrapGather_negs (arg m c main_arg0 : Vec Ideal S1000000x64 .f32) (arg m c main_arg5 : IVec S16384 32))
  show StableHlo.after hostOps1 (V2 m outs c) (Proc.devRef .tc main_v28) = _
  after_results
  rfl

/-- The first layer's bias as a 1×64 row. -/
theorem V3_main_v29 :
    (V3 m outs c main_v29 : Vec Ideal S1x64 .f32) = asRow (arg m c main_arg7 : Vec Ideal S64 .f32) := by
  refine Eq.trans ?_ (shapeCast_eq_asRow (arg m c main_arg7 : Vec Ideal S64 .f32) shapeCasts_S64_S1x64)
  show StableHlo.after hostOps1 (V2 m outs c) (Proc.devRef .tc main_v29) = _
  after_results
  rfl

/-- The second layer's bias as a 1×1 row. -/
theorem V3_main_v30 :
    (V3 m outs c main_v30 : Vec Ideal S1x1 .f32) = asRow (arg m c main_arg9 : Vec Ideal S1 .f32) := by
  refine Eq.trans ?_ (shapeCast_eq_asRow (arg m c main_arg9 : Vec Ideal S1 .f32) shapeCasts_S1_S1x1)
  show StableHlo.after hostOps1 (V2 m outs c) (Proc.devRef .tc main_v30) = _
  after_results
  rfl

/-- The first layer's matrix is the argument as launched. -/
theorem V3_main_arg6 : (V3 m outs c main_arg6 : Vec Ideal S64x64 .f32) = arg m c main_arg6 :=
  (V3_of m outs c main_arg6 (by decide)).trans <| (V2_of m outs c main_arg6 (by decide)).trans <|
    (V1_of m c main_arg6 (by decide)).trans rfl

/-- The second layer's matrix is the argument as launched. -/
theorem V3_main_arg8 : (V3 m outs c main_arg8 : Vec Ideal S64x1 .f32) = arg m c main_arg8 :=
  (V3_of m outs c main_arg8 (by decide)).trans <| (V2_of m outs c main_arg8 (by decide)).trans <|
    (V1_of m c main_arg8 (by decide)).trans rfl

end Cert.Dec

end
-- ==== Proof.DecReal.lean ====
/-
  The reference's gathered arrays hold entries of the table: a gather reads, at each index, some entry of its operand,
  and a slice reads an entry of the array it is cut from. So when every entry of the first argument array is a real
  number, so is every entry of the three gathered arrays.
-/
import proofs.«145173_j58841051955354_2_alg».proof.Proof.Gen.ReferenceIdeal.Read
import proofs.«145173_j58841051955354_2_alg».proof.Proof.LibIdealSums

noncomputable section

namespace Cert.Dec

open Idealize.ShloMosaic Idealize.ShloMosaic.ValueIdx Cert.Lib.IdealSums
open Cert.ReferenceIdeal Cert.ReferenceIdeal.Gen Cert.ReferenceIdeal.Read

variable (x0 : FVec Ideal S1000000x64 .f32) (h0 : ∀ i, IsReal (x0 i))
include h0

/-- The gathered user rows. -/
theorem users_real (x3 : (⟨S16384, .i32⟩ : BufTy).Contents (Elt Ideal)) (i : S16384x64.Idx) :
    IsReal (val_main_v8 (F := Ideal) x0 x3 i) := by
  show IsReal (val_main_v0 (F := Ideal) x0 _)
  rw [val_main_v0_apply]
  exact h0 _

/-- The gathered positive item rows. -/
theorem items_real (x4 : (⟨S16384, .i32⟩ : BufTy).Contents (Elt Ideal)) (i : S16384x64.Idx) :
    IsReal (val_main_v15 (F := Ideal) x0 x4 i) := by
  show IsReal (val_main_v1 (F := Ideal) x0 _)
  rw [val_main_v1_apply]
  exact h0 _

/-- The gathered negative item rows. -/
theorem negs_real (x5 : (⟨S16384, .i32⟩ : BufTy).Contents (Elt Ideal)) (i : S16384x64.Idx) :
    IsReal (val_main_v39 (F := Ideal) x0 x5 i) := by
  show IsReal (val_main_v1 (F := Ideal) x0 _)
  rw [val_main_v1_apply]
  exact h0 _

end Cert.Dec

end
-- ==== Proof.PreReal.lean ====
/-
  The precondition, decoded: every entry of every float argument array is a real number. The input check takes, per
  array, the conjunction over all entries of |x| < +∞ and the conjunction of those; a conjunction that is 1 had a 1 at
  every entry, and an extended real whose absolute value is below +∞ is a real.
-/
import proofs.«145173_j58841051955354_2_alg».proof.Proof.BridgeDefs
import proofs.«145173_j58841051955354_2_alg».proof.Proof.LibIdealSums
import proofs.«145173_j58841051955354_2_alg».proof.Proof.LibRowVector
import Idealize.ShloMosaic.Lib.ReduceAll

noncomputable section

namespace Cert.Dec

open Idealize.ShloMosaic Idealize.ShloMosaic.TcCoe Idealize.SL.Sem Idealize.ShloMosaic.ValueIdx
open Cert.KernelIdeal Cert.KernelIdeal.Gen Cert.Lib.IdealSums Cert.Bridge

/-- One array's check: if the conjunction over all entries of |x| < +∞ is 1, every entry is a real. -/
theorem all_finite_real {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) : IsReal (x i) := by
  haveI : Subsingleton (⟨0, ![]⟩ : Shape).Idx := ⟨fun a b => funext fun d => d.elim0⟩
  have h := Host.reduce_andi_all _ _ hr hu ix0 e i
  rw [cmpf_apply, Cert.Lib.RowVector.bcastInDim_scalar_apply] at h
  exact isReal_of_cmpf_abs (x i) h

variable [hK : Cert.KernelIdeal.Facts] [hR : Cert.ReferenceIdeal.Facts] [hP : Cert.Pre_finite_inputs.Facts]

/-- Under the precondition every entry of the seven float argument arrays is a real number. -/
theorem pre_real (m : (ℓ : Loc nD τ sig) → Buf (Elt Ideal) ℓ) (hpre : Cert.Pre_KernelIdeal m) (c : Dev nD) :
    (∀ i : S1000000x64.Idx, IsReal ((arg m c main_arg0 : Vec Ideal S1000000x64 .f32) i))
      ∧ (∀ i : S1000000x64.Idx, IsReal ((arg m c main_arg1 : Vec Ideal S1000000x64 .f32) i))
      ∧ (∀ i : S1000000x64.Idx, IsReal ((arg m c main_arg2 : Vec Ideal S1000000x64 .f32) i))
      ∧ (∀ i : S64x64.Idx, IsReal ((arg m c main_arg6 : Vec Ideal S64x64 .f32) i))
      ∧ (∀ i : S64.Idx, IsReal ((arg m c main_arg7 : Vec Ideal S64 .f32) i))
      ∧ (∀ i : S64x1.Idx, IsReal ((arg m c main_arg8 : Vec Ideal S64x1 .f32) i))
      ∧ (∀ i : S1.Idx, IsReal ((arg m c main_arg9 : Vec Ideal S1 .f32) i)) := by
  have h := congrFun (hpre c) ix0
  dsimp only [Cert.Pre_finite_inputs.fn, Cert.Pre_finite_inputs.fn_part1] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h2⟩ := IntOp.andi_eq_one.1 h
  obtain ⟨h0, h1⟩ := IntOp.andi_eq_one.1 h
  exact ⟨all_finite_real _ _ _ _ h0, all_finite_real _ _ _ _ h1, all_finite_real _ _ _ _ h2, all_finite_real _ _ _ _ h6,
    all_finite_real _ _ _ _ h7, all_finite_real _ _ _ _ h8, all_finite_real _ _ _ _ h9⟩

end Cert.Dec

end
-- ==== Proof.ValDec.lean ====
/-
  The second kernel's result and the reference's per-example loss.

  The kernel's seven operand arrays are the reference's three gathered arrays, the two matrices and the two bias
  vectors as rows (Proof/DecHost.lean); on them the kernel's 1×1 result is the sum over the 16384 examples of the
  per-example loss function of Proof/DecSpec.lean (Proof/DecSum.lean), and the reference's per-example loss is that same
  function of the same arrays (Proof/DecRef.lean). Under the precondition every operand entry is a real number
  (Proof/PreReal.lean, Proof/DecReal.lean), so every example's loss is a real number.
-/
import proofs.«145173_j58841051955354_2_alg».proof.Proof.BridgeDefs
import proofs.«145173_j58841051955354_2_alg».proof.Proof.DecSum
import proofs.«145173_j58841051955354_2_alg».proof.Proof.DecRef
import proofs.«145173_j58841051955354_2_alg».proof.Proof.DecHost
import proofs.«145173_j58841051955354_2_alg».proof.Proof.DecReal
import proofs.«145173_j58841051955354_2_alg».proof.Proof.PreReal

open scoped BigOperators

noncomputable section

namespace Cert.Bridge

open Idealize.ShloMosaic Idealize.ShloMosaic.TcCoe Idealize.SL.Sem Idealize.ShloMosaic.ValueIdx
open Cert.KernelIdeal Cert.KernelIdeal.Gen Cert.KernelIdeal.KVal Cert.Lib.RowVector Cert.Lib.IdealSums

variable [hK : Cert.KernelIdeal.Facts] [hR : Cert.ReferenceIdeal.Facts] [hP : Cert.Pre_finite_inputs.Facts]

/-- The reference's per-example loss is the loss function of its three gathered arrays, the two matrices and the two
    bias vectors as rows. -/
theorem refLoss_eq (m : (ℓ : Loc nD τ sig) → Buf (Elt Ideal) ℓ) (c : Dev nD) :
    refLoss m c = Cert.Dec.rowLoss
      (Cert.ReferenceIdeal.Read.val_main_v8 (F := Ideal) (arg m c main_arg0) (arg m c main_arg3))
      (Cert.ReferenceIdeal.Read.val_main_v15 (F := Ideal) (arg m c main_arg0) (arg m c main_arg4))
      (Cert.ReferenceIdeal.Read.val_main_v39 (F := Ideal) (arg m c main_arg0) (arg m c main_arg5))
      (arg m c main_arg6 : Vec Ideal S64x64 .f32) (asRow (arg m c main_arg7 : Vec Ideal S64 .f32))
      (arg m c main_arg8 : Vec Ideal S64x1 .f32) (asRow (arg m c main_arg9 : Vec Ideal S1 .f32)) :=
  Cert.Dec.ref_loss _ _ _ _ _ _ _ _

/-- The second kernel's result is the sum over the examples of the reference's per-example loss. -/
theorem dec_eq (m : (ℓ : Loc nD τ sig) → Buf (Elt Ideal) ℓ) (hpre : Cert.Pre_KernelIdeal m)
    (outs : Cert.KernelIdeal.Gen.Outs (F := Ideal)) (c : Dev nD) :
    decOut (V3 m outs c main_v14) (V3 m outs c main_v21) (V3 m outs c main_v28)
        (V3 m outs c main_arg6) (V3 m outs c main_v29) (V3 m outs c main_arg8) (V3 m outs c main_v30)
      = fun _ => ∑ b : Fin 16384, refLoss m c (ix2 b (0 : Fin 1)) := by
  rw [Cert.Dec.V3_main_v14, Cert.Dec.V3_main_v21, Cert.Dec.V3_main_v28, Cert.Dec.V3_main_arg6, Cert.Dec.V3_main_v29,
    Cert.Dec.V3_main_arg8, Cert.Dec.V3_main_v30, refLoss_eq]
  exact Cert.Dec.decOut_eq _ _ _ _ _ _ _

/-- Under the precondition every example's loss is a real number. -/
theorem loss_real (m : (ℓ : Loc nD τ sig) → Buf (Elt Ideal) ℓ) (hpre : Cert.Pre_KernelIdeal m) (c : Dev nD) (b : Fin 16384) :
    ∃ r : ℝ, refLoss m c (ix2 b (0 : Fin 1)) = (r : EReal) := by
  obtain ⟨h0, _, _, h6, h7, h8, h9⟩ := Cert.Dec.pre_real m hpre c
  rw [refLoss_eq]
  exact Cert.Dec.rowLoss_real _ _ _ _ _ _ _ (Cert.Dec.users_real _ h0 _) (Cert.Dec.items_real _ h0 _)
    (Cert.Dec.negs_real _ h0 _) h6 (fun i => h7 _) h8 (fun i => h9 _) b

end Cert.Bridge

end
-- ==== Proof.ValOutRef.lean ====
/-
  The reference's result (its stage main_v80) read over the examples:
  (0 + Σ_b Σ_z (1 · KL + loss(b, z))) / 16384, KL the stage main_v75 and loss the 16384×1 stage main_v61.
-/
import proofs.«145173_j58841051955354_2_alg».proof.Proof.Gen.ReferenceIdeal.Read
import Idealize.ShloMosaic.Lib.ValueIdx

noncomputable section

open scoped BigOperators

namespace Cert.Bridge.KL

open Idealize.ShloMosaic Idealize.ShloMosaic.ValueIdx
open Cert.ReferenceIdeal Cert.ReferenceIdeal.Read

variable [hR : Cert.ReferenceIdeal.Facts]

theorem out_side (x0 x1 x2 : (⟨S1000000x64, .f32⟩ : BufTy).Contents (Elt Ideal))
    (x3 x4 x5 : (⟨S16384, .i32⟩ : BufTy).Contents (Elt Ideal)) (x6 : (⟨S64x64, .f32⟩ : BufTy).Contents (Elt Ideal))
    (x7 : (⟨S64, .f32⟩ : BufTy).Contents (Elt Ideal)) (x8 : (⟨S64x1, .f32⟩ : BufTy).Contents (Elt Ideal))
    (x9 : (⟨S1, .f32⟩ : BufTy).Contents (Elt Ideal)) (i : S_.Idx) :
    val_main_v80 (F := Ideal) x0 x1 x2 x3 x4 x5 x6 x7 x8 x9 i
      = Ideal.div (Ideal.ofBits .f32 0x00000000#32
          + ∑ b : Fin 16384, ∑ z : Fin 1, (Ideal.ofBits .f32 0x3F800000#32 * val_main_v75 (F := Ideal) x1 x2 i
              + val_main_v61 (F := Ideal) x0 x3 x4 x5 x6 x7 x8 x9 (ix2 b z)))
        (Ideal.ofBits .f32 0x46800000#32) := by
  have hs : ∑ b : Fin 16384, ∑ z : Fin 1, val_main_v78 (F := Ideal) x0 x1 x2 x3 x4 x5 x6 x7 x8 x9 (ix2 b z)
      = ∑ b : Fin 16384, ∑ z : Fin 1, (Ideal.ofBits .f32 0x3F800000#32 * val_main_v75 (F := Ideal) x1 x2 i
          + val_main_v61 (F := Ideal) x0 x3 x4 x5 x6 x7 x8 x9 (ix2 b z)) := by
    refine Finset.sum_congr rfl fun b _ => Finset.sum_congr rfl fun z _ => ?_
    have hi : idx_main_v77 (ix2 b z) = i := funext fun a => a.elim0
    rw [val_main_v78_apply, val_main_v77_apply, val_main_v76_apply, val_main_cst_15_apply, hi]
    rfl
  rw [val_main_v80_apply, val_main_v79_apply, sum_idx2, val_main_cst_16_apply, val_main_cst_17_apply]
  show Ideal.div (Ideal.ofBits .f32 0x00000000#32 + _) (Ideal.ofBits .f32 0x46800000#32) = _
  rw [hs]

end Cert.Bridge.KL

end
-- ==== Proof.AlgMean.lean ====
/-
  The last identity of the value bridge, free of any program.

  With K an extended real above −∞ and reals ℓ_b, b < 16384:  1·K + (Σ_b ℓ_b)/16384 = (0 + Σ_b (1·K + ℓ_b))/16384,
  division by the real 16384 being multiplication by its inverse. And the mean KL scalar
  (0 + Σ_n −1/2·(0 + A_n))/1e6 is above −∞ when no A_n is +∞: −1/2 times a real or −∞ is a real or +∞.
-/
import proofs.«145173_j58841051955354_2_alg».proof.Proof.ValKLTerm

noncomputable section

open scoped BigOperators

namespace Cert.Bridge.Alg

open Idealize.ShloMosaic Cert.Lib.IdealSums Cert.Bridge.KL

theorem word_16384 : Ideal.ofBits .f32 0x46800000#32 = ((16384 : ℝ) : EReal) := by
  simp [Ideal.ofBits, Ideal.ieee, -EReal.coe_mul] <;> norm_num

theorem word_1e6 : Ideal.ofBits .f32 0x49742400#32 = ((1000000 : ℝ) : EReal) := by
  simp [Ideal.ofBits, Ideal.ieee, -EReal.coe_mul] <;> norm_num

/-- A negative real times an extended real below +∞ is above −∞. -/
theorem neg_coe_mul_ne_bot {c : ℝ} (hc : c < 0) {a : EReal} (ha : a ≠ ⊤) : (c : EReal) * a ≠ ⊥ := by
  induction a using EReal.rec with
  | bot => rw [EReal.coe_mul_bot_of_neg hc]; exact top_ne_bot
  | coe a => rw [← EReal.coe_mul]; exact EReal.coe_ne_bot _
  | top => exact absurd rfl ha

/-- An extended real above −∞ times a positive real is above −∞. -/
theorem mul_pos_coe_ne_bot {c : ℝ} (hc : 0 < c) {a : EReal} (ha : a ≠ ⊥) : a * (c : EReal) ≠ ⊥ := by
  induction a using EReal.rec with
  | bot => exact absurd rfl ha
  | coe a => rw [← EReal.coe_mul]; exact EReal.coe_ne_bot _
  | top => rw [EReal.top_mul_coe_of_pos hc]; exact top_ne_bot

/-- A finite sum of extended reals above −∞ is above −∞. -/
theorem sum_ne_bot {ι : Type*} (s : Finset ι) (f : ι → EReal) (hf : ∀ i ∈ s, f i ≠ ⊥) : ∑ i ∈ s, f i ≠ ⊥ := by
  classical
  induction s using Finset.induction_on with
  | empty => simp
  | insert a s ha ih =>
    rw [Finset.sum_insert ha]
    exact EReal.add_ne_bot_iff.2 ⟨hf a (Finset.mem_insert_self a s), ih fun i hi => hf i (Finset.mem_insert_of_mem hi)⟩

/-- The mean KL scalar is above −∞ when no row sum is +∞. -/
theorem klform_ne_bot (A : Fin 1000000 → EReal) (hA : ∀ n, A n ≠ ⊤) :
    Ideal.div (Ideal.ofBits .f32 0x00000000#32
        + ∑ n : Fin 1000000, Ideal.ofBits .f32 0xBF000000#32 * (Ideal.ofBits .f32 0x00000000#32 + A n))
      (Ideal.ofBits .f32 0x49742400#32) ≠ ⊥ := by
  rw [word_1e6, Ideal.div_coe (by norm_num), Ideal.ofBits_zero_f32, word_neg_half]
  simp only [zero_add]
  exact mul_pos_coe_ne_bot (by norm_num) (sum_ne_bot _ _ fun n _ => neg_coe_mul_ne_bot (by norm_num) (hA n))

/-- The mean of K + ℓ_b over 16384 examples is K plus the mean of the ℓ_b. -/
theorem mean_identity (K : EReal) (hK : K ≠ ⊥) (ℓ : Fin 16384 → EReal) (hℓ : ∀ b, IsReal (ℓ b)) :
    Ideal.ofBits .f32 0x3F800000#32 * K + Ideal.div (∑ b : Fin 16384, ℓ b) (Ideal.ofBits .f32 0x46800000#32)
      = Ideal.div (Ideal.ofBits .f32 0x00000000#32
          + ∑ b : Fin 16384, ∑ _z : Fin 1, (Ideal.ofBits .f32 0x3F800000#32 * K + ℓ b))
        (Ideal.ofBits .f32 0x46800000#32) := by
  choose r hr using hℓ
  obtain rfl : ℓ = fun b => (r b : EReal) := funext hr
  simp only [Fin.sum_univ_one]
  rw [word_one, EReal.coe_one, one_mul, word_16384, Ideal.div_coe (by norm_num), Ideal.div_coe (by norm_num),
    Ideal.ofBits_zero_f32]
  have h := add_mean (n := 16384) (by norm_num) K hK r
  simp only [Nat.cast_ofNat] at h
  exact h

end Cert.Bridge.Alg

end
-- ==== Proof.Bridge.lean ====
/-
  The value bridge: the kernel program's result main_v35 equals the reference's result.

  Kernel program: main_v35 = 1 · main_v5 + (the second kernel's 1×1 result re-shaped to a scalar) / 16384, where main_v5
  is the mean KL scalar and the second kernel's result is the sum of the per-example losses. Reference: its last stage is
  (0 + Σ_b (1 · KL + loss_b)) / 16384. The per-example losses are reals and KL is above −∞ (no term of the KL sum is
  +∞), so the mean of KL + loss_b is KL plus the mean of the losses.
-/
import proofs.«145173_j58841051955354_2_alg».proof.Proof.BridgeDefs
import proofs.«145173_j58841051955354_2_alg».proof.Proof.ValKL
import proofs.«145173_j58841051955354_2_alg».proof.Proof.ValDec
import proofs.«145173_j58841051955354_2_alg».proof.Proof.ValOutRef
import proofs.«145173_j58841051955354_2_alg».proof.Proof.AlgMean
import Idealize.ShloMosaic.Lib.StableHlo.Run
import Idealize.ShloMosaic.Lib.IdealHost

noncomputable section

open scoped BigOperators

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KernelIdeal.KVal
open Cert.Bridge.KL Cert.Lib.IdealSums

variable [hK : Cert.KernelIdeal.Facts] [hR : Cert.ReferenceIdeal.Facts] [hP : Cert.Pre_finite_inputs.Facts]

/-- The reference's mean KL scalar is above −∞. -/
theorem refKL_ne_bot (m : (ℓ : Loc nD τ sig) → Buf (Elt Ideal) ℓ) (hpre : Cert.Pre_KernelIdeal m) (c : Dev nD)
    (i : Cert.ReferenceIdeal.S_.Idx) : refKL m c i ≠ ⊥ := by
  obtain ⟨hr1, hr2⟩ := finite_mean_std _ _ _ _ _ _ _ _ _ _ (hpre c)
  have e := ref_side (arg m c main_arg1) (arg m c main_arg2) i
  rw [show refKL m c i = _ from e]
  exact Alg.klform_ne_bot _ (fun n => Alg.sum_ne_top _ _ fun d _ => term_ne_top (hr1 _) (hr2 _))

/-- The bridge from the two kernels' results and the two value theorems. -/
theorem bridge_of
    (m : (ℓ : Loc Cert.KernelIdeal.nD Cert.KernelIdeal.τ Cert.KernelIdeal.sig) → Buf (Elt Ideal) ℓ)
    (hpre : Cert.Pre_KernelIdeal m)
    (outs : Cert.KernelIdeal.Gen.Outs (F := Ideal)) (c : Dev Cert.KernelIdeal.nD)
    (hkl : V3 m outs c main_v5 = refKL m c)
    (hdec : outs 4 main_v31 c = fun _ => ∑ b : Fin 16384, refLoss m c (ix2 b (0 : Fin 1)))
    (hreal : ∀ b : Fin 16384, ∃ r : ℝ, refLoss m c (ix2 b (0 : Fin 1)) = (r : EReal)) :
    V5 m outs c main_v35
      = Cert.ReferenceIdeal.Read.val_main_v80 (F := Ideal) (arg m c main_arg0) (arg m c main_arg1) (arg m c main_arg2)
          (arg m c main_arg3) (arg m c main_arg4) (arg m c main_arg5) (arg m c main_arg6) (arg m c main_arg7)
          (arg m c main_arg8) (arg m c main_arg9) := by
  have e35 : (V5 m outs c main_v35 : S_.Idx → EReal)
      = addf (mulf (constant (F := Ideal) S_ .f32 0x3F800000#32) (V4 m outs c main_v5))
          (Host.divf (F := Ideal) (shapeCast S_ (V4 m outs c main_v31) shapeCasts_S1x1_S_)
            (constant (F := Ideal) S_ .f32 0x46800000#32)) := by
    show StableHlo.after hostOps2 (V4 m outs c) (Proc.devRef .tc main_v35) = _
    after_results
    first | rfl | skip
  have e31 : V4 m outs c main_v31 = outs 4 main_v31 c := by
    simp only [V4, Function.update_self]
  have e5 : V4 m outs c main_v5 = V3 m outs c main_v5 := V4_of m outs c main_v5 (by decide)
  funext i
  rw [out_side, e35, e31, e5, hkl, hdec]
  show Ideal.ofBits .f32 0x3F800000#32 * refKL m c i
      + Ideal.div (∑ b : Fin 16384, refLoss m c (ix2 b (0 : Fin 1))) (Ideal.ofBits .f32 0x46800000#32) = _
  have hz : ∀ (b : Fin 16384) (z : Fin 1),
      refLoss m c (ix2 b z) = refLoss m c (ix2 b (0 : Fin 1)) := by
    intro b z
    rw [Subsingleton.elim z (0 : Fin 1)]
  simp only [hz]
  exact Alg.mean_identity (refKL m c i) (refKL_ne_bot m hpre c i) (fun b => refLoss m c (ix2 b (0 : Fin 1))) hreal

theorem bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (outs : Cert.KernelIdeal.Gen.Outs (F := Ideal)) (c : Dev Cert.KernelIdeal.nD)
    (h2 : outs 2 main_v2 c = klOut (V1 m c main_v0) (V1 m c main_v1))
    (h4 : outs 4 main_v31 c = decOut (V3 m outs c main_v14) (V3 m outs c main_v21) (V3 m outs c main_v28)
        (V3 m outs c main_arg6) (V3 m outs c main_v29) (V3 m outs c main_arg8) (V3 m outs c main_v30)) :
    V5 m outs c main_v35 = Cert.ReferenceIdeal.Value.res_out0 m' c := by
  have hkl := kl_eq m hpre outs c h2
  have hdec := (h4.trans (dec_eq m hpre outs c))
  have hb := bridge_of m hpre outs c hkl hdec (fun b => loss_real m hpre c b)
  rw [hb]
  show _ = Cert.ReferenceIdeal.Value.res_main_v80 m' c
  rw [Cert.ReferenceIdeal.Read.val_main_v80_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]

end Cert.Bridge

end
-- ==== Proof.lean ====
/-
  Two kernels against one reference, over the extended reals.

  The program computes a loss in two kernel regions between stretches of host operations. The first region walks the
  mean and deviation arrays, re-shaped to 500000×128, in fifty blocks of 10000 rows: a 1×1 accumulator is reset at the
  first block of each half, takes at every block the sum over the block of 1 + 2·log σ − μ² − σ², and is written out after
  the last block of each half into a 2×1×1 array. The second region walks three gathered 16384×64 arrays in eight blocks
  of 2048 rows, the same accumulator pattern with the per-row decoder loss (two dense layers and a logistic, once for
  the positive and once for the negative item), written out once. The host sums the two halves, scales by −1/2, divides
  by the row count, and adds the second kernel's sum over the batch size. The reference computes the same terms row by
  row, scales each row's sum by −1/2, and takes the mean of (mean KL + per-example loss).

  Frames: each region is run point by point (three cases of the two branch conditions), the accumulator's value after
  each point carried in the region invariant, and the regions are composed with the host stretches; every argument
  array is read back unchanged through the fold of buffer contents. The two idealized programs agree because the
  accumulators are the pure recursions over row blocks, the blocks tile the arrays, sums over the extended reals may be
  regrouped freely, the factor −1/2 distributes over a sum none of whose terms is +∞ (the inputs are finite, and the
  logarithm of a finite number is a real or −∞), and a mean of (K + ℓ_b) over real ℓ_b is K + mean ℓ_b.
-/
import proofs.«145173_j58841051955354_2_alg».proof.Defs
import proofs.«145173_j58841051955354_2_alg».proof.Proof.Gen.Kernel
import proofs.«145173_j58841051955354_2_alg».proof.Proof.Gen.KernelIdeal
import proofs.«145173_j58841051955354_2_alg».proof.Proof.Gen.ReferenceIdeal
import proofs.«145173_j58841051955354_2_alg».proof.Proof.Gen.Pre_finite_inputs
import proofs.«145173_j58841051955354_2_alg».proof.Proof.Gen.ReferenceIdeal.Run
import proofs.«145173_j58841051955354_2_alg».proof.Proof.Gen.ReferenceIdeal.Read
import proofs.«145173_j58841051955354_2_alg».proof.Proof.FrBOuts
import proofs.«145173_j58841051955354_2_alg».proof.Proof.FrIFinal
import proofs.«145173_j58841051955354_2_alg».proof.Proof.Bridge
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The printed kernel program runs and leaves its arguments unchanged. -/
theorem frame_k : Cert.frame_Kernel := fun m ρ _ => Cert.Kernel.Fr.frameF m ρ

/-- So does its idealization. -/
theorem frame_ki : Cert.frame_KernelIdeal := fun m ρ _ => Cert.KernelIdeal.Fr.frameF m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at one value: the host-side fold at what the two regions leave. -/
theorem algebraic : Cert.algebraic_KernelIdeal_ReferenceIdeal := by
  intro m ρ m' ρ' hpre hagree
  refine ⟨fun c => Cert.KernelIdeal.Gen.V5 m (Cert.KernelIdeal.Fr.outsF m) c Cert.KernelIdeal.main_v35,
    Cert.KernelIdeal.Fr.run_val m ρ, ?_⟩
  refine (θ_run Cert.ReferenceIdeal.defs _ _).mono (fun _ h c => ⟨(h c).1.trans ?_, (h c).2⟩)
    (Cert.ReferenceIdeal.Value.run (F := Ideal) m' ρ')
  exact (Cert.Bridge.bridge m m' hpre hagree (Cert.KernelIdeal.Fr.outsF m) c (Cert.KernelIdeal.Fr.outs_kl m c)
    (Cert.KernelIdeal.Fr.outs_dec m c)).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
